-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v54_0)) (v3 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v54_0) = v2 c
          ∧ r.2.mem ((c.tc : Thread Cert.KernelIdeal.nD Cert.KernelIdeal.τ).loc Cert.KernelIdeal.main_v54_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x768x1024 : Shape := ⟨4, ![8, 1, 768, 1024]⟩
abbrev S8x384 : Shape := ⟨2, ![8, 384]⟩
abbrev S_ : Shape := ⟨0, ![]⟩

class Facts : Prop where
  bcast_S_S8x1x768x1024 : S_.BroadcastsInDim S8x1x768x1024 (![] : Fin 0 → Fin S8x1x768x1024.rank)
  reducesTo_S8x1x768x1024_S_d0_1_2_3 : S8x1x768x1024.ReducesTo [0, 1, 2, 3] S_
  h_S_ : 0 < S_.numel

variable [Facts]

def fn {F : FTy → Type} [FloatOps F] (main_arg0 : FVec F S8x1x768x1024 .f32) (main_arg1 : FVec F S8x1x768x1024 .f32) (main_arg2 : IVec S8x384 32) (main_arg3 : IVec S8x384 32) : IVec S_ 1 :=
  let main_v0 : FVec F S8x1x768x1024 .f32 := Host.absf main_arg0
  let main_cst : FVec F S_ .f32 := constant S_ .f32 0x7F800000#32
  let main_v1 : FVec F S8x1x768x1024 .f32 := broadcastInDim S8x1x768x1024 ![] bcast_S_S8x1x768x1024 main_cst
  let main_v2 : IVec S8x1x768x1024 1 := cmpf .olt main_v0 main_v1
  let main_c : IVec S_ 1 := constantI S_ 1 1#1
  let main_v3 : IVec S_ 1 := (fun x v => Host.reduce IntOp.andi x v reducesTo_S8x1x768x1024_S_d0_1_2_3 h_S_) main_v2 main_c
  let main_v4 : FVec F S8x1x768x1024 .f32 := Host.absf main_arg1
  let main_cst_0 : FVec F S_ .f32 := constant S_ .f32 0x7F800000#32
  let main_v5 : FVec F S8x1x768x1024 .f32 := broadcastInDim S8x1x768x1024 ![] bcast_S_S8x1x768x1024 main_cst_0
  let main_v6 : IVec S8x1x768x1024 1 := cmpf .olt main_v4 main_v5
  let main_c_1 : IVec S_ 1 := constantI S_ 1 1#1
  let main_v7 : IVec S_ 1 := (fun x v => Host.reduce IntOp.andi x v reducesTo_S8x1x768x1024_S_d0_1_2_3 h_S_) main_v6 main_c_1
  let main_v8 : IVec S_ 1 := andi main_v3 main_v7
  main_v8
-- ==== Kernel.lean ====
abbrev S8x1x768x1024 : Shape := ⟨4, ![8, 1, 768, 1024]⟩
abbrev S8x384 : Shape := ⟨2, ![8, 384]⟩
abbrev S15x11 : Shape := ⟨2, ![15, 11]⟩
abbrev S8x384x1x1 : Shape := ⟨4, ![8, 384, 1, 1]⟩
abbrev S15 : Shape := ⟨1, ![15]⟩
abbrev S1x1x15x1 : Shape := ⟨4, ![1, 1, 15, 1]⟩
abbrev S8x384x15x1 : Shape := ⟨4, ![8, 384, 15, 1]⟩
abbrev S11 : Shape := ⟨1, ![11]⟩
abbrev S1x1x1x11 : Shape := ⟨4, ![1, 1, 1, 11]⟩
abbrev S8x384x1x11 : Shape := ⟨4, ![8, 384, 1, 11]⟩
abbrev S8 : Shape := ⟨1, ![8]⟩
abbrev S8x1x1x1 : Shape := ⟨4, ![8, 1, 1, 1]⟩
abbrev S_ : Shape := ⟨0, ![]⟩
abbrev S8x384x15x11 : Shape := ⟨4, ![8, 384, 15, 11]⟩
abbrev S8x384x15x11x1 : Shape := ⟨5, ![8, 384, 15, 11, 1]⟩
abbrev S8x384x15x11x4 : Shape := ⟨5, ![8, 384, 15, 11, 4]⟩
abbrev S8x1x384x512 : Shape := ⟨4, ![8, 1, 384, 512]⟩
abbrev S8x1x384x2x512 : Shape := ⟨5, ![8, 1, 384, 2, 512]⟩
abbrev S8x1x768x512 : Shape := ⟨4, ![8, 1, 768, 512]⟩
abbrev S8x1x768x512x2 : Shape := ⟨5, ![8, 1, 768, 512, 2]⟩
abbrev S1x1x384x1024 : Shape := ⟨4, ![1, 1, 384, 1024]⟩
abbrev S1x1x1x1 : Shape := ⟨4, ![1, 1, 1, 1]⟩
abbrev S1x1 : Shape := ⟨2, ![1, 1]⟩

abbrev nBuf : Space → Nat
  | .hbm => 76
  | .vmem => 17
  | .smem => 0
  | _ => 0

abbrev bufTy : (tb : Table) → Fin (tcTables nBuf tb) → BufTy
  | .hbm, ⟨0, _⟩ => ⟨S8x1x768x1024, .f32⟩
  | .hbm, ⟨1, _⟩ => ⟨S8x1x768x1024, .f32⟩
  | .hbm, ⟨2, _⟩ => ⟨S8x384, .i32⟩
  | .hbm, ⟨3, _⟩ => ⟨S8x384, .i32⟩
  | .hbm, ⟨4, _⟩ => ⟨S15x11, .f32⟩
  | .hbm, ⟨5, _⟩ => ⟨S8x384x1x1, .i32⟩
  | .hbm, ⟨6, _⟩ => ⟨S15, .i32⟩
  | .hbm, ⟨7, _⟩ => ⟨S1x1x15x1, .i32⟩
  | .hbm, ⟨8, _⟩ => ⟨S8x384x15x1, .i32⟩
  | .hbm, ⟨9, _⟩ => ⟨S8x384x15x1, .i32⟩
  | .hbm, ⟨10, _⟩ => ⟨S8x384x15x1, .i32⟩
  | .hbm, ⟨11, _⟩ => ⟨S8x384x1x1, .i32⟩
  | .hbm, ⟨12, _⟩ => ⟨S11, .i32⟩
  | .hbm, ⟨13, _⟩ => ⟨S1x1x1x11, .i32⟩
  | .hbm, ⟨14, _⟩ => ⟨S8x384x1x11, .i32⟩
  | .hbm, ⟨15, _⟩ => ⟨S8x384x1x11, .i32⟩
  | .hbm, ⟨16, _⟩ => ⟨S8x384x1x11, .i32⟩
  | .hbm, ⟨17, _⟩ => ⟨S8, .i32⟩
  | .hbm, ⟨18, _⟩ => ⟨S8x1x1x1, .i32⟩
  | .hbm, ⟨19, _⟩ => ⟨S_, .f32⟩
  | .hbm, ⟨20, _⟩ => ⟨S8x1x768x1024, .f32⟩
  | .hbm, ⟨21, _⟩ => ⟨S_, .i32⟩
  | .hbm, ⟨22, _⟩ => ⟨S8x1x1x1, .i32⟩
  | .hbm, ⟨23, _⟩ => ⟨S8x1x1x1, .i1⟩
  | .hbm, ⟨24, _⟩ => ⟨S_, .i32⟩
  | .hbm, ⟨25, _⟩ => ⟨S8x1x1x1, .i32⟩
  | .hbm, ⟨26, _⟩ => ⟨S8x1x1x1, .i32⟩
  | .hbm, ⟨27, _⟩ => ⟨S8x1x1x1, .i32⟩
  | .hbm, ⟨28, _⟩ => ⟨S_, .i32⟩
  | .hbm, ⟨29, _⟩ => ⟨S8x384x15x1, .i32⟩
  | .hbm, ⟨30, _⟩ => ⟨S8x384x15x1, .i1⟩
  | .hbm, ⟨31, _⟩ => ⟨S_, .i32⟩
  | .hbm, ⟨32, _⟩ => ⟨S8x384x15x1, .i32⟩
  | .hbm, ⟨33, _⟩ => ⟨S8x384x15x1, .i32⟩
  | .hbm, ⟨34, _⟩ => ⟨S8x384x15x1, .i32⟩
  | .hbm, ⟨35, _⟩ => ⟨S_, .i32⟩
  | .hbm, ⟨36, _⟩ => ⟨S8x384x1x11, .i32⟩
  | .hbm, ⟨37, _⟩ => ⟨S8x384x1x11, .i1⟩
  | .hbm, ⟨38, _⟩ => ⟨S_, .i32⟩
  | .hbm, ⟨39, _⟩ => ⟨S8x384x1x11, .i32⟩
  | .hbm, ⟨40, _⟩ => ⟨S8x384x1x11, .i32⟩
  | .hbm, ⟨41, _⟩ => ⟨S8x384x1x11, .i32⟩
  | .hbm, ⟨42, _⟩ => ⟨S8x384x15x11, .i32⟩
  | .hbm, ⟨43, _⟩ => ⟨S_, .i32⟩
  | .hbm, ⟨44, _⟩ => ⟨S8x384x15x11, .i32⟩
  | .hbm, ⟨45, _⟩ => ⟨S8x384x15x11, .i32⟩
  | .hbm, ⟨46, _⟩ => ⟨S8x384x15x11, .i32⟩
  | .hbm, ⟨47, _⟩ => ⟨S8x384x15x11, .i32⟩
  | .hbm, ⟨48, _⟩ => ⟨S8x384x15x11x1, .i32⟩
  | .hbm, ⟨49, _⟩ => ⟨S8x384x15x11x1, .i32⟩
  | .hbm, ⟨50, _⟩ => ⟨S8x384x15x11x1, .i32⟩
  | .hbm, ⟨51, _⟩ => ⟨S8x384x15x11x1, .i32⟩
  | .hbm, ⟨52, _⟩ => ⟨S8x384x15x11x4, .i32⟩
  | .hbm, ⟨53, _⟩ => ⟨S8x384x15x11, .f32⟩
  | .hbm, ⟨54, _⟩ => ⟨S8x1x768x1024, .f32⟩
  | .hbm, ⟨55, _⟩ => ⟨S_, .f32⟩
  | .hbm, ⟨56, _⟩ => ⟨S_, .f32⟩
  | .hbm, ⟨57, _⟩ => ⟨S8x1x384x512, .f32⟩
  | .hbm, ⟨58, _⟩ => ⟨S8x1x384x2x512, .f32⟩
  | .hbm, ⟨59, _⟩ => ⟨S8x1x768x512, .f32⟩
  | .hbm, ⟨60, _⟩ => ⟨S8x1x768x512x2, .f32⟩
  | .hbm, ⟨61, _⟩ => ⟨S8x1x768x1024, .f32⟩
  | .hbm, ⟨62, _⟩ => ⟨S_, .f32⟩
  | .hbm, ⟨63, _⟩ => ⟨S_, .f32⟩
  | .hbm, ⟨64, _⟩ => ⟨S8x1x384x512, .f32⟩
  | .hbm, ⟨65, _⟩ => ⟨S8x1x384x2x512, .f32⟩
  | .hbm, ⟨66, _⟩ => ⟨S8x1x768x512, .f32⟩
  | .hbm, ⟨67, _⟩ => ⟨S8x1x768x512x2, .f32⟩
  | .hbm, ⟨68, _⟩ => ⟨S8x1x768x1024, .f32⟩
  | .hbm, ⟨69, _⟩ => ⟨S8x1x768x1024, .f32⟩
  | .hbm, ⟨70, _⟩ => ⟨S8x1x768x1024, .f32⟩
  | .hbm, ⟨71, _⟩ => ⟨S8x1x1x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S1x1x384x1024, .f32⟩
  | .local _ .vmem, ⟨1, _⟩ => ⟨S1x1x384x1024, .f32⟩
  | .local _ .vmem, ⟨2, _⟩ => ⟨S1x1x384x1024, .f32⟩
  | .local _ .vmem, ⟨3, _⟩ => ⟨S1x1x384x1024, .f32⟩
  | .local _ .vmem, ⟨4, _⟩ => ⟨S1x1x384x1024, .f32⟩
  | .local _ .vmem, ⟨5, _⟩ => ⟨S1x1x384x1024, .f32⟩
  | .local _ .vmem, ⟨6, _⟩ => ⟨S1x1x384x1024, .f32⟩
  | .local _ .vmem, ⟨7, _⟩ => ⟨S1x1x384x1024, .f32⟩
  | .local _ .vmem, ⟨8, _⟩ => ⟨S1x1x384x1024, .f32⟩
  | .local _ .vmem, ⟨9, _⟩ => ⟨S1x1x384x1024, .f32⟩
  | .local _ .vmem, ⟨10, _⟩ => ⟨S1x1x384x1024, .f32⟩
  | .local _ .vmem, ⟨11, _⟩ => ⟨S1x1x384x1024, .f32⟩
  | .local _ .vmem, ⟨12, _⟩ => ⟨S1x1x384x1024, .f32⟩
  | .local _ .vmem, ⟨13, _⟩ => ⟨S1x1x384x1024, .f32⟩
  | .local _ .vmem, ⟨14, _⟩ => ⟨S1x1x1x1, .f32⟩
  | .local _ .vmem, ⟨15, _⟩ => ⟨S1x1x1x1, .f32⟩
  | .local _ .vmem, ⟨16, _⟩ => ⟨S1x1x1x1, .f32⟩
  | _, _ => ⟨S8x1x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54_0 : Ref sig .tc := ⟨.hbm, 69, rfl⟩
abbrev main_v54_1 : Ref sig .tc := ⟨.hbm, 70, rfl⟩
abbrev main_v54_2 : Ref sig .tc := ⟨.hbm, 71, rfl⟩
abbrev main_cst_9 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S8x384_S8x384x1x1_0_1 : S8x384.BroadcastsInDim S8x384x1x1 (![0, 1] : Fin 2 → Fin S8x384x1x1.rank)
  bcast_S15_S1x1x15x1_2 : S15.BroadcastsInDim S1x1x15x1 (![2] : Fin 1 → Fin S1x1x15x1.rank)
  bcast_S8x384x1x1_S8x384x15x1_0_1_2_3 : S8x384x1x1.BroadcastsInDim S8x384x15x1 (![0, 1, 2, 3] : Fin 4 → Fin S8x384x15x1.rank)
  bcast_S1x1x15x1_S8x384x15x1_0_1_2_3 : S1x1x15x1.BroadcastsInDim S8x384x15x1 (![0, 1, 2, 3] : Fin 4 → Fin S8x384x15x1.rank)
  bcast_S11_S1x1x1x11_3 : S11.BroadcastsInDim S1x1x1x11 (![3] : Fin 1 → Fin S1x1x1x11.rank)
  bcast_S8x384x1x1_S8x384x1x11_0_1_2_3 : S8x384x1x1.BroadcastsInDim S8x384x1x11 (![0, 1, 2, 3] : Fin 4 → Fin S8x384x1x11.rank)
  bcast_S1x1x1x11_S8x384x1x11_0_1_2_3 : S1x1x1x11.BroadcastsInDim S8x384x1x11 (![0, 1, 2, 3] : Fin 4 → Fin S8x384x1x11.rank)
  bcast_S8_S8x1x1x1_0 : S8.BroadcastsInDim S8x1x1x1 (![0] : Fin 1 → Fin S8x1x1x1.rank)
  bcast_S_S8x1x768x1024 : S_.BroadcastsInDim S8x1x768x1024 (![] : Fin 0 → Fin S8x1x768x1024.rank)
  bcast_S_S8x1x1x1 : S_.BroadcastsInDim S8x1x1x1 (![] : Fin 0 → Fin S8x1x1x1.rank)
  bcast_S_S8x384x15x1 : S_.BroadcastsInDim S8x384x15x1 (![] : Fin 0 → Fin S8x384x15x1.rank)
  bcast_S_S8x384x1x11 : S_.BroadcastsInDim S8x384x1x11 (![] : Fin 0 → Fin S8x384x1x11.rank)
  bcast_S8x1x1x1_S8x384x15x11_0_1_2_3 : S8x1x1x1.BroadcastsInDim S8x384x15x11 (![0, 1, 2, 3] : Fin 4 → Fin S8x384x15x11.rank)
  bcast_S_S8x384x15x11 : S_.BroadcastsInDim S8x384x15x11 (![] : Fin 0 → Fin S8x384x15x11.rank)
  bcast_S8x384x15x1_S8x384x15x11_0_1_2_3 : S8x384x15x1.BroadcastsInDim S8x384x15x11 (![0, 1, 2, 3] : Fin 4 → Fin S8x384x15x11.rank)
  bcast_S8x384x1x11_S8x384x15x11_0_1_2_3 : S8x384x1x11.BroadcastsInDim S8x384x15x11 (![0, 1, 2, 3] : Fin 4 → Fin S8x384x15x11.rank)
  bcast_S8x384x15x11_S8x384x15x11x1_0_1_2_3 : S8x384x15x11.BroadcastsInDim S8x384x15x11x1 (![0, 1, 2, 3] : Fin 4 → Fin S8x384x15x11x1.rank)
  concatenates_S8x384x15x11x1_S8x384x15x11x1_S8x384x15x11x1_S8x384x15x11x1_S8x384x15x11x4_d4 : Shape.Concatenates [S8x384x15x11x1, S8x384x15x11x1, S8x384x15x11x1, S8x384x15x11x1] S8x384x15x11x4 4
  bcast_S15x11_S8x384x15x11_2_3 : S15x11.BroadcastsInDim S8x384x15x11 (![2, 3] : Fin 2 → Fin S8x384x15x11.rank)
  bcast_S_S_ : S_.BroadcastsInDim S_ (![] : Fin 0 → Fin S_.rank)
  reduceWindows_S8x1x768x1024_S8x1x384x512_w1s1p0_0_w1s1p0_0_w9s2p4_4_w9s2p4_4 : S8x1x768x1024.ReduceWindows (![1, 1, 9, 9] : Fin 4 → Nat) ![1, 1, 2, 2] ![0, 0, 4, 4] ![0, 0, 4, 4] S8x1x384x512
  h_S_ : 0 < S_.numel
  bcast_S8x1x384x512_S8x1x384x2x512_0_1_2_4 : S8x1x384x512.BroadcastsInDim S8x1x384x2x512 (![0, 1, 2, 4] : Fin 4 → Fin S8x1x384x2x512.rank)
  shapeCasts_S8x1x384x2x512_S8x1x768x512 : S8x1x384x2x512.ShapeCasts S8x1x768x512
  bcast_S8x1x768x512_S8x1x768x512x2_0_1_2_3 : S8x1x768x512.BroadcastsInDim S8x1x768x512x2 (![0, 1, 2, 3] : Fin 4 → Fin S8x1x768x512x2.rank)
  shapeCasts_S8x1x768x512x2_S8x1x768x1024 : S8x1x768x512x2.ShapeCasts S8x1x768x1024
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1x1x1 : S1x1x1x1.ShapeCasts S1x1x1x1
  inb_S1x1x384x1024_S1x1x384x1024_0_0_0_0 : ∀ a, (![0, 0, 0, 0] : Fin 4 → Nat) a + S1x1x384x1024.size a ≤ S1x1x384x1024.size a
  h_S1x1x384x1024 : 0 < S1x1x384x1024.numel
  shapeCasts_S1x1x384x1024_S1x1x384x1024 : S1x1x384x1024.ShapeCasts S1x1x384x1024
  reduces_S1x1x384x1024_S1x1 : S1x1x384x1024.Reduces [2, 3] S1x1
  shapeCasts_S1x1_S1x1x1x1 : S1x1.ShapeCasts S1x1x1x1
  reducesTo_S8x1x1x1_S_d0_1_2_3 : S8x1x1x1.ReducesTo [0, 1, 2, 3] S_
  scatter_S8x1x768x1024_S8x384x15x11x4_S8x384x15x11_n_0123_0123_4_wf : ScatterDims.WF S8x1x768x1024 S8x384x15x11x4 S8x384x15x11 [] [0, 1, 2, 3] [0, 1, 2, 3] 4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x384x1024.size a ≤ S8x1x768x1024.size a
  hwx0_0 : ∀ i : grid0.Coords, EltTy.bits .f32 = 32 ∨ (Rect.block (s := S8x1x768x1024) S1x1x384x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x384x1024.size a ≤ S8x1x768x1024.size a
  hwx0_1 : ∀ i : grid0.Coords, EltTy.bits .f32 = 32 ∨ (Rect.block (s := S8x1x768x1024) S1x1x384x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x384x1024.size a ≤ S8x1x768x1024.size a
  hwx0_2 : ∀ i : grid0.Coords, EltTy.bits .f32 = 32 ∨ (Rect.block (s := S8x1x768x1024) S1x1x384x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x384x1024.size a ≤ S8x1x768x1024.size a
  hwx0_3 : ∀ i : grid0.Coords, EltTy.bits .f32 = 32 ∨ (Rect.block (s := S8x1x768x1024) S1x1x384x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x384x1024.size a ≤ S8x1x768x1024.size a
  hwx0_4 : ∀ i : grid0.Coords, EltTy.bits .f32 = 32 ∨ (Rect.block (s := S8x1x768x1024) S1x1x384x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x384x1024.size a ≤ S8x1x768x1024.size a
  hwx0_5 : ∀ i : grid0.Coords, EltTy.bits .f32 = 32 ∨ (Rect.block (s := S8x1x768x1024) S1x1x384x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x384x1024.size a ≤ S8x1x768x1024.size a
  hwx0_6 : ∀ i : grid0.Coords, EltTy.bits .f32 = 32 ∨ (Rect.block (s := S8x1x768x1024) S1x1x384x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1x1.size a ≤ S8x1x1x1.size a
  hwx0_7 : ∀ i : grid0.Coords, EltTy.bits .f32 = 32 ∨ (Rect.block (s := S8x1x1x1) S1x1x1x1.size (cc0_transform_7 i) (hinb0_7 i)).WholeWords (EltTy.packing .f32)

variable [Facts₀]

def scatter_S8x1x768x1024_S8x384x15x11x4_S8x384x15x11_n_0123_0123_4 : ScatterDims S8x1x768x1024 S8x384x15x11x4 S8x384x15x11 where
  updateWindowDims := []
  insertedWindowDims := [0, 1, 2, 3]
  scatterDimsToOperandDims := [0, 1, 2, 3]
  indexVectorDim := 4
  wf := scatter_S8x1x768x1024_S8x384x15x11x4_S8x384x15x11_n_0123_0123_4_wf

abbrev win0_0 : Pipeline.Window sig grid0 :=
  Pipeline.Window.ofSpec (Memref.whole main_arg1) S1x1x384x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x1x384x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x1x384x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1x384x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x1x384x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54_0) S1x1x384x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v54_1) S1x1x384x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v54_2) S1x1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x1x768x1024 : Shape := ⟨4, ![8, 1, 768, 1024]⟩
abbrev S8x384 : Shape := ⟨2, ![8, 384]⟩
abbrev S15x11 : Shape := ⟨2, ![15, 11]⟩
abbrev S8x384x1x1 : Shape := ⟨4, ![8, 384, 1, 1]⟩
abbrev S15 : Shape := ⟨1, ![15]⟩
abbrev S1x1x15x1 : Shape := ⟨4, ![1, 1, 15, 1]⟩
abbrev S8x384x15x1 : Shape := ⟨4, ![8, 384, 15, 1]⟩
abbrev S11 : Shape := ⟨1, ![11]⟩
abbrev S1x1x1x11 : Shape := ⟨4, ![1, 1, 1, 11]⟩
abbrev S8x384x1x11 : Shape := ⟨4, ![8, 384, 1, 11]⟩
abbrev S8 : Shape := ⟨1, ![8]⟩
abbrev S8x1x1x1 : Shape := ⟨4, ![8, 1, 1, 1]⟩
abbrev S_ : Shape := ⟨0, ![]⟩
abbrev S8x384x15x11 : Shape := ⟨4, ![8, 384, 15, 11]⟩
abbrev S8x384x15x11x1 : Shape := ⟨5, ![8, 384, 15, 11, 1]⟩
abbrev S8x384x15x11x4 : Shape := ⟨5, ![8, 384, 15, 11, 4]⟩
abbrev S8x1x384x512 : Shape := ⟨4, ![8, 1, 384, 512]⟩
abbrev S8x1x384x2x512 : Shape := ⟨5, ![8, 1, 384, 2, 512]⟩
abbrev S8x1x768x512 : Shape := ⟨4, ![8, 1, 768, 512]⟩
abbrev S8x1x768x512x2 : Shape := ⟨5, ![8, 1, 768, 512, 2]⟩

abbrev nBuf : Space → Nat
  | .hbm => 89
  | .vmem => 0
  | .smem => 0
  | _ => 0

abbrev bufTy : (tb : Table) → Fin (tcTables nBuf tb) → BufTy
  | .hbm, ⟨0, _⟩ => ⟨S8x1x768x1024, .f32⟩
  | .hbm, ⟨1, _⟩ => ⟨S8x1x768x1024, .f32⟩
  | .hbm, ⟨2, _⟩ => ⟨S8x384, .i32⟩
  | .hbm, ⟨3, _⟩ => ⟨S8x384, .i32⟩
  | .hbm, ⟨4, _⟩ => ⟨S15x11, .f32⟩
  | .hbm, ⟨5, _⟩ => ⟨S8x384x1x1, .i32⟩
  | .hbm, ⟨6, _⟩ => ⟨S15, .i32⟩
  | .hbm, ⟨7, _⟩ => ⟨S1x1x15x1, .i32⟩
  | .hbm, ⟨8, _⟩ => ⟨S8x384x15x1, .i32⟩
  | .hbm, ⟨9, _⟩ => ⟨S8x384x15x1, .i32⟩
  | .hbm, ⟨10, _⟩ => ⟨S8x384x15x1, .i32⟩
  | .hbm, ⟨11, _⟩ => ⟨S8x384x1x1, .i32⟩
  | .hbm, ⟨12, _⟩ => ⟨S11, .i32⟩
  | .hbm, ⟨13, _⟩ => ⟨S1x1x1x11, .i32⟩
  | .hbm, ⟨14, _⟩ => ⟨S8x384x1x11, .i32⟩
  | .hbm, ⟨15, _⟩ => ⟨S8x384x1x11, .i32⟩
  | .hbm, ⟨16, _⟩ => ⟨S8x384x1x11, .i32⟩
  | .hbm, ⟨17, _⟩ => ⟨S8, .i32⟩
  | .hbm, ⟨18, _⟩ => ⟨S8x1x1x1, .i32⟩
  | .hbm, ⟨19, _⟩ => ⟨S_, .f32⟩
  | .hbm, ⟨20, _⟩ => ⟨S8x1x768x1024, .f32⟩
  | .hbm, ⟨21, _⟩ => ⟨S_, .i32⟩
  | .hbm, ⟨22, _⟩ => ⟨S8x1x1x1, .i32⟩
  | .hbm, ⟨23, _⟩ => ⟨S8x1x1x1, .i1⟩
  | .hbm, ⟨24, _⟩ => ⟨S_, .i32⟩
  | .hbm, ⟨25, _⟩ => ⟨S8x1x1x1, .i32⟩
  | .hbm, ⟨26, _⟩ => ⟨S8x1x1x1, .i32⟩
  | .hbm, ⟨27, _⟩ => ⟨S8x1x1x1, .i32⟩
  | .hbm, ⟨28, _⟩ => ⟨S_, .i32⟩
  | .hbm, ⟨29, _⟩ => ⟨S8x384x15x1, .i32⟩
  | .hbm, ⟨30, _⟩ => ⟨S8x384x15x1, .i1⟩
  | .hbm, ⟨31, _⟩ => ⟨S_, .i32⟩
  | .hbm, ⟨32, _⟩ => ⟨S8x384x15x1, .i32⟩
  | .hbm, ⟨33, _⟩ => ⟨S8x384x15x1, .i32⟩
  | .hbm, ⟨34, _⟩ => ⟨S8x384x15x1, .i32⟩
  | .hbm, ⟨35, _⟩ => ⟨S_, .i32⟩
  | .hbm, ⟨36, _⟩ => ⟨S8x384x1x11, .i32⟩
  | .hbm, ⟨37, _⟩ => ⟨S8x384x1x11, .i1⟩
  | .hbm, ⟨38, _⟩ => ⟨S_, .i32⟩
  | .hbm, ⟨39, _⟩ => ⟨S8x384x1x11, .i32⟩
  | .hbm, ⟨40, _⟩ => ⟨S8x384x1x11, .i32⟩
  | .hbm, ⟨41, _⟩ => ⟨S8x384x1x11, .i32⟩
  | .hbm, ⟨42, _⟩ => ⟨S8x384x15x11, .i32⟩
  | .hbm, ⟨43, _⟩ => ⟨S_, .i32⟩
  | .hbm, ⟨44, _⟩ => ⟨S8x384x15x11, .i32⟩
  | .hbm, ⟨45, _⟩ => ⟨S8x384x15x11, .i32⟩
  | .hbm, ⟨46, _⟩ => ⟨S8x384x15x11, .i32⟩
  | .hbm, ⟨47, _⟩ => ⟨S8x384x15x11, .i32⟩
  | .hbm, ⟨48, _⟩ => ⟨S8x384x15x11x1, .i32⟩
  | .hbm, ⟨49, _⟩ => ⟨S8x384x15x11x1, .i32⟩
  | .hbm, ⟨50, _⟩ => ⟨S8x384x15x11x1, .i32⟩
  | .hbm, ⟨51, _⟩ => ⟨S8x384x15x11x1, .i32⟩
  | .hbm, ⟨52, _⟩ => ⟨S8x384x15x11x4, .i32⟩
  | .hbm, ⟨53, _⟩ => ⟨S8x384x15x11, .f32⟩
  | .hbm, ⟨54, _⟩ => ⟨S8x1x768x1024, .f32⟩
  | .hbm, ⟨55, _⟩ => ⟨S_, .f32⟩
  | .hbm, ⟨56, _⟩ => ⟨S_, .f32⟩
  | .hbm, ⟨57, _⟩ => ⟨S8x1x384x512, .f32⟩
  | .hbm, ⟨58, _⟩ => ⟨S8x1x384x2x512, .f32⟩
  | .hbm, ⟨59, _⟩ => ⟨S8x1x768x512, .f32⟩
  | .hbm, ⟨60, _⟩ => ⟨S8x1x768x512x2, .f32⟩
  | .hbm, ⟨61, _⟩ => ⟨S8x1x768x1024, .f32⟩
  | .hbm, ⟨62, _⟩ => ⟨S8x1x768x1024, .f32⟩
  | .hbm, ⟨63, _⟩ => ⟨S_, .f32⟩
  | .hbm, ⟨64, _⟩ => ⟨S_, .f32⟩
  | .hbm, ⟨65, _⟩ => ⟨S8x1x384x512, .f32⟩
  | .hbm, ⟨66, _⟩ => ⟨S8x1x384x2x512, .f32⟩
  | .hbm, ⟨67, _⟩ => ⟨S8x1x768x512, .f32⟩
  | .hbm, ⟨68, _⟩ => ⟨S8x1x768x512x2, .f32⟩
  | .hbm, ⟨69, _⟩ => ⟨S8x1x768x1024, .f32⟩
  | .hbm, ⟨70, _⟩ => ⟨S8x1x768x1024, .f32⟩
  | .hbm, ⟨71, _⟩ => ⟨S_, .f32⟩
  | .hbm, ⟨72, _⟩ => ⟨S8x1x768x1024, .f32⟩
  | .hbm, ⟨73, _⟩ => ⟨S8x1x768x1024, .f32⟩
  | .hbm, ⟨74, _⟩ => ⟨S_, .f32⟩
  | .hbm, ⟨75, _⟩ => ⟨S8x1x768x1024, .f32⟩
  | .hbm, ⟨76, _⟩ => ⟨S8x1x768x1024, .f32⟩
  | .hbm, ⟨77, _⟩ => ⟨S8x1x768x1024, .f32⟩
  | .hbm, ⟨78, _⟩ => ⟨S8x1x768x1024, .f32⟩
  | .hbm, ⟨79, _⟩ => ⟨S8x1x768x1024, .f32⟩
  | .hbm, ⟨80, _⟩ => ⟨S8x1x768x1024, .f32⟩
  | .hbm, ⟨81, _⟩ => ⟨S8x1x768x1024, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8x1x768x1024, .f32⟩
  | .hbm, ⟨88, _⟩ => ⟨S8x1x768x1024, .f32⟩
  | _, _ => ⟨S8x1x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]

class Facts₀ : Prop where
  bcast_S8x384_S8x384x1x1_0_1 : S8x384.BroadcastsInDim S8x384x1x1 (![0, 1] : Fin 2 → Fin S8x384x1x1.rank)
  bcast_S15_S1x1x15x1_2 : S15.BroadcastsInDim S1x1x15x1 (![2] : Fin 1 → Fin S1x1x15x1.rank)
  bcast_S8x384x1x1_S8x384x15x1_0_1_2_3 : S8x384x1x1.BroadcastsInDim S8x384x15x1 (![0, 1, 2, 3] : Fin 4 → Fin S8x384x15x1.rank)
  bcast_S1x1x15x1_S8x384x15x1_0_1_2_3 : S1x1x15x1.BroadcastsInDim S8x384x15x1 (![0, 1, 2, 3] : Fin 4 → Fin S8x384x15x1.rank)
  bcast_S11_S1x1x1x11_3 : S11.BroadcastsInDim S1x1x1x11 (![3] : Fin 1 → Fin S1x1x1x11.rank)
  bcast_S8x384x1x1_S8x384x1x11_0_1_2_3 : S8x384x1x1.BroadcastsInDim S8x384x1x11 (![0, 1, 2, 3] : Fin 4 → Fin S8x384x1x11.rank)
  bcast_S1x1x1x11_S8x384x1x11_0_1_2_3 : S1x1x1x11.BroadcastsInDim S8x384x1x11 (![0, 1, 2, 3] : Fin 4 → Fin S8x384x1x11.rank)
  bcast_S8_S8x1x1x1_0 : S8.BroadcastsInDim S8x1x1x1 (![0] : Fin 1 → Fin S8x1x1x1.rank)
  bcast_S_S8x1x768x1024 : S_.BroadcastsInDim S8x1x768x1024 (![] : Fin 0 → Fin S8x1x768x1024.rank)
  bcast_S_S8x1x1x1 : S_.BroadcastsInDim S8x1x1x1 (![] : Fin 0 → Fin S8x1x1x1.rank)
  bcast_S_S8x384x15x1 : S_.BroadcastsInDim S8x384x15x1 (![] : Fin 0 → Fin S8x384x15x1.rank)
  bcast_S_S8x384x1x11 : S_.BroadcastsInDim S8x384x1x11 (![] : Fin 0 → Fin S8x384x1x11.rank)
  bcast_S8x1x1x1_S8x384x15x11_0_1_2_3 : S8x1x1x1.BroadcastsInDim S8x384x15x11 (![0, 1, 2, 3] : Fin 4 → Fin S8x384x15x11.rank)
  bcast_S_S8x384x15x11 : S_.BroadcastsInDim S8x384x15x11 (![] : Fin 0 → Fin S8x384x15x11.rank)
  bcast_S8x384x15x1_S8x384x15x11_0_1_2_3 : S8x384x15x1.BroadcastsInDim S8x384x15x11 (![0, 1, 2, 3] : Fin 4 → Fin S8x384x15x11.rank)
  bcast_S8x384x1x11_S8x384x15x11_0_1_2_3 : S8x384x1x11.BroadcastsInDim S8x384x15x11 (![0, 1, 2, 3] : Fin 4 → Fin S8x384x15x11.rank)
  bcast_S8x384x15x11_S8x384x15x11x1_0_1_2_3 : S8x384x15x11.BroadcastsInDim S8x384x15x11x1 (![0, 1, 2, 3] : Fin 4 → Fin S8x384x15x11x1.rank)
  concatenates_S8x384x15x11x1_S8x384x15x11x1_S8x384x15x11x1_S8x384x15x11x1_S8x384x15x11x4_d4 : Shape.Concatenates [S8x384x15x11x1, S8x384x15x11x1, S8x384x15x11x1, S8x384x15x11x1] S8x384x15x11x4 4
  bcast_S15x11_S8x384x15x11_2_3 : S15x11.BroadcastsInDim S8x384x15x11 (![2, 3] : Fin 2 → Fin S8x384x15x11.rank)
  bcast_S_S_ : S_.BroadcastsInDim S_ (![] : Fin 0 → Fin S_.rank)
  reduceWindows_S8x1x768x1024_S8x1x384x512_w1s1p0_0_w1s1p0_0_w9s2p4_4_w9s2p4_4 : S8x1x768x1024.ReduceWindows (![1, 1, 9, 9] : Fin 4 → Nat) ![1, 1, 2, 2] ![0, 0, 4, 4] ![0, 0, 4, 4] S8x1x384x512
  h_S_ : 0 < S_.numel
  bcast_S8x1x384x512_S8x1x384x2x512_0_1_2_4 : S8x1x384x512.BroadcastsInDim S8x1x384x2x512 (![0, 1, 2, 4] : Fin 4 → Fin S8x1x384x2x512.rank)
  shapeCasts_S8x1x384x2x512_S8x1x768x512 : S8x1x384x2x512.ShapeCasts S8x1x768x512
  bcast_S8x1x768x512_S8x1x768x512x2_0_1_2_3 : S8x1x768x512.BroadcastsInDim S8x1x768x512x2 (![0, 1, 2, 3] : Fin 4 → Fin S8x1x768x512x2.rank)
  shapeCasts_S8x1x768x512x2_S8x1x768x1024 : S8x1x768x512x2.ShapeCasts S8x1x768x1024
  reducesTo_S8x1x768x1024_S_d0_1_2_3 : S8x1x768x1024.ReducesTo [0, 1, 2, 3] S_
  scatter_S8x1x768x1024_S8x384x15x11x4_S8x384x15x11_n_0123_0123_4_wf : ScatterDims.WF S8x1x768x1024 S8x384x15x11x4 S8x384x15x11 [] [0, 1, 2, 3] [0, 1, 2, 3] 4

variable [Facts₀]

def scatter_S8x1x768x1024_S8x384x15x11x4_S8x384x15x11_n_0123_0123_4 : ScatterDims S8x1x768x1024 S8x384x15x11x4 S8x384x15x11 where
  updateWindowDims := []
  insertedWindowDims := [0, 1, 2, 3]
  scatterDimsToOperandDims := [0, 1, 2, 3]
  indexVectorDim := 4
  wf := scatter_S8x1x768x1024_S8x384x15x11x4_S8x384x15x11_n_0123_0123_4_wf

class Facts : Prop extends Facts₀ where

variable [Facts]
-- ==== Proof.BMain.lean ====
/-
  The program around its one pipelined region, and what the region's body is handed.

  @main is a stretch of host lines (the scatter of the box weights, the two dilations), the region over a grid of
  8 images by 2 half-images, and four more host lines (the sum of the eight partial losses and its quotient). The buffer
  contents when the region is entered are the fold of the first stretch over the launch memory; none of those lines, and
  none of the last four, writes an argument array. At grid point t the body finds, in each input window's staging
  buffer, that window's block of its array; the first half-image of an image (the points of even number) is where the
  running loss is reset.
-/
import proofs.«172051_j19585050870000_2_alg».proof.Proof.Gen.Kernel.Launch
import proofs.«172051_j19585050870000_2_alg».proof.Proof.Gen.Kernel.Skeleton
import proofs.«172051_j19585050870000_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch memory after the host lines before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And they write no array of the region: each writes its own result, which is none of the eight. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over the region-entry arrays whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over the region-entry arrays whose body
    leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over the region-entry arrays whose body
    leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over the region-entry arrays whose body
    leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data over the region-entry arrays whose body
    leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For proof data over the region-entry arrays, a run that ends with every array of the region at what the proof data
    say and every other unscoped buffer as the last host lines leave it ends with the four argument arrays as launched:
    the image arrays are inputs of the region, the two box-corner arrays are touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (((dats 0 c).arrAt_in 4 rfl _).trans ((hA c 4).trans (V_main_arg0 m c))),
     ((h c).1 0).trans (((dats 0 c).arrAt_in 0 rfl _).trans ((hA c 0).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's one branch -/

/-- The body resets its running loss when the second grid coordinate is zero: the branch's condition as the body computes it. -/
abbrev cond0_0 (i : grid0.Coords) : Prop := (Scalar.cmpi .ne (Scalar.extui (Scalar.cmpi .eq (BitVec.ofNat 32 (i 1).val) 0#32)) 0#32) = 1#1
/-- It holds at the points of even number. -/
theorem hcond0_0 : ∀ t : Fin cfg0.N, cond0_0 (grid0.coords t) ↔ t.val % 2 = 0 :=
  (by decide +kernel : ∀ t : Fin grid0.N, cond0_0 (grid0.coords t) ↔ t.val % 2 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

/-! ## The staging memrefs and the scratch -/

abbrev ms0_0 (t : Fin cfg0.N) : Memref sig .tc .vmem S1x1x384x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x384x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x384x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x384x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x384x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x384x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1x1 .f32 := win0_7.stage (cfg0.slots t 7)
abbrev hs0_7 (t : Fin cfg0.N) : (ms0_7 t).IsWhole := hstage0_7 ((cfg0.slots t 7).cast nbuf0_7)
/-- The scratch that carries the running loss from one point to the next. -/
abbrev scM0_0 : Memref sig .tc .vmem S1x1x1x1 .f32 := Memref.whole cc0_scratch0
/-- Views through which the contents of the outputs' buffers and of the scratch are stated. -/
abbrev VO0_5 : View sig .tc .vmem S1x1x384x1024 .f32 := (Memref.whole cc0_stg5_0 : Memref sig .tc .vmem S1x1x384x1024 .f32).view
abbrev VO0_6 : View sig .tc .vmem S1x1x384x1024 .f32 := (Memref.whole cc0_stg6_0 : Memref sig .tc .vmem S1x1x384x1024 .f32).view
abbrev VO0_7 : View sig .tc .vmem S1x1x1x1 .f32 := (Memref.whole cc0_stg7_0 : Memref sig .tc .vmem S1x1x1x1 .f32).view
abbrev VS0_0 : View sig .tc .vmem S1x1x1x1 .f32 := scM0_0.view

/-- What the region's invariant holds beside the windows: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BRunA.lean ====
/-
  The body at the first half-image of an image. The branch is taken: the running loss is set to zero before anything else, so whatever the scratch held does not matter. The body then loads its five input blocks, stores the threshold block and the weight block, adds the block's loss to the running loss, and stores the running loss into the loss window's buffer.
-/
import proofs.«172051_j19585050870000_2_alg».proof.Proof.BMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three output buffers and in the scratch, with the body's triple over them:
    from the five input buffers at their blocks, the output buffers at anything and the scratch at anything, the body
    runs to a state with the inputs as they were and each other buffer with its pieces written. -/
noncomputable def kernelRun0_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) :
    Σ' (L5 : List (View.Piece (Elt F) S1x1x384x1024 .f32)) (L6 : List (View.Piece (Elt F) S1x1x384x1024 .f32)) (L7 : List (View.Piece (Elt F) S1x1x1x1 .f32)), { LS0 : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.Kernel.Hand

end
-- ==== Proof.BRunB.lean ====
/-
  The body at the second half-image of an image. The branch is not taken: the scratch holds the running loss the first half-image left, and the body adds this block's loss to it. The two full-size stores are the same as at the first half-image.
-/
import proofs.«172051_j19585050870000_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three output buffers and in the scratch, with the body's triple over them:
    from the five input buffers at their blocks, the output buffers at anything and the scratch at the running loss so far, the body
    runs to a state with the inputs as they were and each other buffer with its pieces written. -/
noncomputable def kernelRun0_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) :
    Σ' (L5 : List (View.Piece (Elt F) S1x1x384x1024 .f32)) (L6 : List (View.Piece (Elt F) S1x1x384x1024 .f32)) (L7 : List (View.Piece (Elt F) S1x1x1x1 .f32)), { LS0 : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.Kernel.Hand

end
-- ==== Proof.BCover.lean ====
/-
  Each case's stores cover the buffers they write.

  In both cases the body writes each of its three output buffers, and the scratch, by whole-buffer stores: one rectangle
  at offset zero of the buffer's full extents. So the stores of a case tile each buffer, and every index of the buffer
  lies in one of them.
-/
import proofs.«172051_j19585050870000_2_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover5_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x384x1024.Idx) :
    ∃ pc ∈ (kernelRun0_A c i arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).1 S1x1x384x1024.size (by sl_kernel_rfl) y

theorem cover6_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x384x1024.Idx) :
    ∃ pc ∈ (kernelRun0_A c i arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.1 S1x1x384x1024.size (by sl_kernel_rfl) y

theorem cover7_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x1x1.Idx) :
    ∃ pc ∈ (kernelRun0_A c i arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.1 S1x1x1x1.size (by sl_kernel_rfl) y

theorem scover_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x1x1.Idx) :
    ∃ pc ∈ (kernelRun0_A c i arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.2.1 S1x1x1x1.size (by sl_kernel_rfl) y

theorem cover5_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x384x1024.Idx) :
    ∃ pc ∈ (kernelRun0_B c i arg2 harg2 arg3 harg3 arg4 harg4 arg5 harg5 arg6 harg6 arg7 harg7 arg8 harg8 arg9 harg9 arg10 harg10 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).1 S1x1x384x1024.size (by sl_kernel_rfl) y

theorem cover6_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x384x1024.Idx) :
    ∃ pc ∈ (kernelRun0_B c i arg2 harg2 arg3 harg3 arg4 harg4 arg5 harg5 arg6 harg6 arg7 harg7 arg8 harg8 arg9 harg9 arg10 harg10 hc0 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).2.1 S1x1x384x1024.size (by sl_kernel_rfl) y

theorem cover7_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x1x1.Idx) :
    ∃ pc ∈ (kernelRun0_B c i arg2 harg2 arg3 harg3 arg4 harg4 arg5 harg5 arg6 harg6 arg7 harg7 arg8 harg8 arg9 harg9 arg10 harg10 hc0 x0 x1 x2 x3 x4 xs0).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).2.2.1 S1x1x1x1.size (by sl_kernel_rfl) y

theorem scover_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x1x1.Idx) :
    ∃ pc ∈ (kernelRun0_B c i arg2 harg2 arg3 harg3 arg4 harg4 arg5 harg5 arg6 harg6 arg7 harg7 arg8 harg8 arg9 harg9 arg10 harg10 hc0 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).2.2.2.1 S1x1x1x1.size (by sl_kernel_rfl) y

end Cert.Kernel.Hand

end
-- ==== Proof.BFrame.lean ====
/-
  The region, point by point, and the run of the whole program.

  After the body at a point the three output buffers hold what the body stored: the threshold block, the weight block, and
  the running loss. The scratch holds the running loss too, and hands it to the next point: at an image's first
  half-image it is the block's loss from zero, at the second it is the first half's value plus the block's loss. The
  region's invariant between points is therefore the scratch at the running loss the last point left (before the first
  point, at anything) beside the generator register. With that the body meets its obligation at every point, and the
  library's launch theorem gives the run of @main: it ends, nothing faults, every array of the region holds what the
  points wrote back, and the four argument arrays are as launched.
-/
import proofs.«172051_j19585050870000_2_alg».proof.Proof.BCover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- What the body leaves at a point where it resets the running loss: the two full blocks, the loss window's buffer, the scratch. -/
def ptA (c : Dev nD) (t : Fin cfg0.N) (h0 : t.val % 2 = 0) : Vec F S1x1x384x1024 .f32 × Vec F S1x1x384x1024 .f32 × Vec F S1x1x1x1 .f32 × Vec F S1x1x1x1 .f32 :=
  (VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).1),
   VO0_6.read (Elt F) (VO0_6.writes (Elt F) VO0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).2.1),
   VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).2.2.1),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).2.2.2.1))

/-- What the body leaves at a point where it goes on from the running loss `prev`. -/
def ptB (c : Dev nD) (t : Fin cfg0.N) (h0 : ¬t.val % 2 = 0) (prev : Vec F S1x1x1x1 .f32) : Vec F S1x1x384x1024 .f32 × Vec F S1x1x384x1024 .f32 × Vec F S1x1x1x1 .f32 × Vec F S1x1x1x1 .f32 :=
  (VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).1),
   VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).2.1),
   VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).2.2.1),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).2.2.2.1))

/-- The three outputs' buffers and the scratch after the body at position `n`, by recursion on the position: an even
    position resets, an odd one goes on from what the position before left in the scratch. -/
def outsAt0 (c : Dev nD) : (n : ℕ) → n < cfg0.N → Vec F S1x1x384x1024 .f32 × Vec F S1x1x384x1024 .f32 × Vec F S1x1x1x1 .f32 × Vec F S1x1x1x1 .f32
  | 0, hn => ptA m c ⟨0, hn⟩ (Nat.zero_mod _)
  | n + 1, hn =>
    if h0 : (n + 1) % 2 = 0 then ptA m c ⟨n + 1, hn⟩ h0
    else ptB m c ⟨n + 1, hn⟩ h0 (outsAt0 c n (Nat.lt_of_succ_lt hn)).2.2.2

theorem outsAt0_A (c : Dev nD) (t : Fin cfg0.N) (h0 : t.val % 2 = 0) : outsAt0 m c t.val t.isLt = ptA m c t h0 := by
  obtain ⟨n, hn⟩ := t
  cases n with
  | zero => exact rfl
  | succ n => exact dif_pos h0

theorem outsAt0_B (c : Dev nD) (t : Fin cfg0.N) (h0 : ¬t.val % 2 = 0) :
    outsAt0 m c t.val t.isLt = ptB m c t h0 (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-! ## The invariant between points -/

/-- Before the first point the scratch holds anything; after position `n` it holds the running loss that position left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The proof data -/

/-- The arrays as the region finds them; after the body each input's buffer at its block, each output's at what the
    point left; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0_5 t]
theorem leaves0_6 (c : Dev nD) (t : Fin cfg0.N) :
    (dats m 0 c).leavesExact 6 t = owns (c : Thread nD τ) (ms0_6 t) fullShare ((dats m 0 c).after 6 t) := by
  unfold Dat.leavesExact; rw [liveAt0_6 t]
theorem leaves0_7 (c : Dev nD) (t : Fin cfg0.N) :
    (dats m 0 c).leavesExact 7 t = owns (c : Thread nD τ) (ms0_7 t) fullShare ((dats m 0 c).after 7 t) := by
  unfold Dat.leavesExact; rw [liveAt0_7 t]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- At any point the inputs' buffers hold their blocks; the point's parity says which run applies; the invariant hands
    the body the scratch (at the running loss, or at anything before the first point) and takes it back at this point's
    running loss; the three output buffers come back covered by the body's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7,
    after0_0, after0_1, after0_2, after0_3, after0_4, after0_5, after0_6, after0_7]
  have hN : t.val < 16 := lt_of_lt_of_eq t.isLt (show cfg0.N = 16 from N_0)
  by_cases h0 : t.val % 2 = 0
  · rw [outsAt0_A m c t h0]
    unfold ptA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_A c _ _ _ _ _ _ _ _ _ _ _ _ _ _ _ _ _ _ _ _ _ _ _ _ _)
      isplitl [H6]
      · unfold owns; iexists _; isplitr
        swap; · iexact H6
        ipureintro; exact View.read_writes_of_cover _ _ _ _ _ (cover6_A c _ _ _ _ _ _ _ _ _ _ _ _ _ _ _ _ _ _ _ _ _ _ _ _ _)
      unfold owns; iexists _; isplitr
      swap; · iexact H7
      ipureintro; exact View.read_writes_of_cover _ _ _ _ _ (cover7_A c _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      iintro ⟨H0, H1, H2, H3, H4, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_A c _ _ _ _ _ _ _ _ _ _ _ _ _ _ _ _ _ _ _ _ _ _ _ _ _)
      isplitl [H6]
      · unfold owns; iexists _; isplitr
        swap; · iexact H6
        ipureintro; exact View.read_writes_of_cover _ _ _ _ _ (cover6_A c _ _ _ _ _ _ _ _ _ _ _ _ _ _ _ _ _ _ _ _ _ _ _ _ _)
      unfold owns; iexists _; isplitr
      swap; · iexact H7
      ipureintro; exact View.read_writes_of_cover _ _ _ _ _ (cover7_A c _ _ _ _ _ _ _ _ _ _ _ _ _ _ _ _ _ _ _ _ _ _ _ _ _)
  · rw [outsAt0_B m c t h0]
    unfold ptB; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ (scover_B c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_B c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_B c _ _ _ _ _ _ _ _ _ _ _ _ _ _ _ _ _ _ _ _ _ _ _ _ _ _)
    unfold owns; iexists _; isplitr
    swap; · iexact H7
    ipureintro; exact View.read_writes_of_cover _ _ _ _ _ (cover7_B c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back, the running loss forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main ends, nothing faulting, with every array of
    the region at what the points wrote back and every other unscoped buffer as the last four host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KMain.lean ====
/-
  The program around its one pipelined region, and what the region's body is handed.

  @main is a stretch of host lines (the scatter of the box weights, the two dilations), the region over a grid of
  8 images by 2 half-images, and four more host lines (the sum of the eight partial losses and its quotient). The buffer
  contents when the region is entered are the fold of the first stretch over the launch memory; none of those lines, and
  none of the last four, writes an argument array. At grid point t the body finds, in each input window's staging
  buffer, that window's block of its array; the first half-image of an image (the points of even number) is where the
  running loss is reset.
-/
import proofs.«172051_j19585050870000_2_alg».proof.Proof.Gen.KernelIdeal.Launch
import proofs.«172051_j19585050870000_2_alg».proof.Proof.Gen.KernelIdeal.Skeleton
import proofs.«172051_j19585050870000_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch memory after the host lines before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And they write no array of the region: each writes its own result, which is none of the eight. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over the region-entry arrays whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over the region-entry arrays whose body
    leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over the region-entry arrays whose body
    leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over the region-entry arrays whose body
    leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data over the region-entry arrays whose body
    leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For proof data over the region-entry arrays, a run that ends with every array of the region at what the proof data
    say and every other unscoped buffer as the last host lines leave it ends with the four argument arrays as launched:
    the image arrays are inputs of the region, the two box-corner arrays are touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (((dats 0 c).arrAt_in 4 rfl _).trans ((hA c 4).trans (V_main_arg0 m c))),
     ((h c).1 0).trans (((dats 0 c).arrAt_in 0 rfl _).trans ((hA c 0).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's one branch -/

/-- The body resets its running loss when the second grid coordinate is zero: the branch's condition as the body computes it. -/
abbrev cond0_0 (i : grid0.Coords) : Prop := (Scalar.cmpi .ne (Scalar.extui (Scalar.cmpi .eq (BitVec.ofNat 32 (i 1).val) 0#32)) 0#32) = 1#1
/-- It holds at the points of even number. -/
theorem hcond0_0 : ∀ t : Fin cfg0.N, cond0_0 (grid0.coords t) ↔ t.val % 2 = 0 :=
  (by decide +kernel : ∀ t : Fin grid0.N, cond0_0 (grid0.coords t) ↔ t.val % 2 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

/-! ## The staging memrefs and the scratch -/

abbrev ms0_0 (t : Fin cfg0.N) : Memref sig .tc .vmem S1x1x384x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x384x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x384x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x384x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x384x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x384x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1x1 .f32 := win0_7.stage (cfg0.slots t 7)
abbrev hs0_7 (t : Fin cfg0.N) : (ms0_7 t).IsWhole := hstage0_7 ((cfg0.slots t 7).cast nbuf0_7)
/-- The scratch that carries the running loss from one point to the next. -/
abbrev scM0_0 : Memref sig .tc .vmem S1x1x1x1 .f32 := Memref.whole cc0_scratch0
/-- Views through which the contents of the outputs' buffers and of the scratch are stated. -/
abbrev VO0_5 : View sig .tc .vmem S1x1x384x1024 .f32 := (Memref.whole cc0_stg5_0 : Memref sig .tc .vmem S1x1x384x1024 .f32).view
abbrev VO0_6 : View sig .tc .vmem S1x1x384x1024 .f32 := (Memref.whole cc0_stg6_0 : Memref sig .tc .vmem S1x1x384x1024 .f32).view
abbrev VO0_7 : View sig .tc .vmem S1x1x1x1 .f32 := (Memref.whole cc0_stg7_0 : Memref sig .tc .vmem S1x1x1x1 .f32).view
abbrev VS0_0 : View sig .tc .vmem S1x1x1x1 .f32 := scM0_0.view

/-- What the region's invariant holds beside the windows: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KRunA.lean ====
/-
  The body at the first half-image of an image. The branch is taken: the running loss is set to zero before anything else, so whatever the scratch held does not matter. The body then loads its five input blocks, stores the threshold block and the weight block, adds the block's loss to the running loss, and stores the running loss into the loss window's buffer.
-/
import proofs.«172051_j19585050870000_2_alg».proof.Proof.KMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three output buffers and in the scratch, with the body's triple over them:
    from the five input buffers at their blocks, the output buffers at anything and the scratch at anything, the body
    runs to a state with the inputs as they were and each other buffer with its pieces written. -/
noncomputable def kernelRun0_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) :
    Σ' (L5 : List (View.Piece (Elt F) S1x1x384x1024 .f32)) (L6 : List (View.Piece (Elt F) S1x1x384x1024 .f32)) (L7 : List (View.Piece (Elt F) S1x1x1x1 .f32)), { LS0 : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Hand

end
-- ==== Proof.KRunB.lean ====
/-
  The body at the second half-image of an image. The branch is not taken: the scratch holds the running loss the first half-image left, and the body adds this block's loss to it. The two full-size stores are the same as at the first half-image.
-/
import proofs.«172051_j19585050870000_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three output buffers and in the scratch, with the body's triple over them:
    from the five input buffers at their blocks, the output buffers at anything and the scratch at the running loss so far, the body
    runs to a state with the inputs as they were and each other buffer with its pieces written. -/
noncomputable def kernelRun0_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) :
    Σ' (L5 : List (View.Piece (Elt F) S1x1x384x1024 .f32)) (L6 : List (View.Piece (Elt F) S1x1x384x1024 .f32)) (L7 : List (View.Piece (Elt F) S1x1x1x1 .f32)), { LS0 : List (View.Piece (Elt F) S1x1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Hand

end
-- ==== Proof.KCover.lean ====
/-
  Each case's stores cover the buffers they write.

  In both cases the body writes each of its three output buffers, and the scratch, by whole-buffer stores: one rectangle
  at offset zero of the buffer's full extents. So the stores of a case tile each buffer, and every index of the buffer
  lies in one of them.
-/
import proofs.«172051_j19585050870000_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover5_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x384x1024.Idx) :
    ∃ pc ∈ (kernelRun0_A c i arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).1 S1x1x384x1024.size (by sl_kernel_rfl) y

theorem cover6_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x384x1024.Idx) :
    ∃ pc ∈ (kernelRun0_A c i arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.1 S1x1x384x1024.size (by sl_kernel_rfl) y

theorem cover7_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x1x1.Idx) :
    ∃ pc ∈ (kernelRun0_A c i arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.1 S1x1x1x1.size (by sl_kernel_rfl) y

theorem scover_A (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (y : S1x1x1x1.Idx) :
    ∃ pc ∈ (kernelRun0_A c i arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).2.2.2.1 S1x1x1x1.size (by sl_kernel_rfl) y

theorem cover5_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x384x1024.Idx) :
    ∃ pc ∈ (kernelRun0_B c i arg2 harg2 arg3 harg3 arg4 harg4 arg5 harg5 arg6 harg6 arg7 harg7 arg8 harg8 arg9 harg9 arg10 harg10 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).1 S1x1x384x1024.size (by sl_kernel_rfl) y

theorem cover6_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x384x1024.Idx) :
    ∃ pc ∈ (kernelRun0_B c i arg2 harg2 arg3 harg3 arg4 harg4 arg5 harg5 arg6 harg6 arg7 harg7 arg8 harg8 arg9 harg9 arg10 harg10 hc0 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).2.1 S1x1x384x1024.size (by sl_kernel_rfl) y

theorem cover7_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x1x1.Idx) :
    ∃ pc ∈ (kernelRun0_B c i arg2 harg2 arg3 harg3 arg4 harg4 arg5 harg5 arg6 harg6 arg7 harg7 arg8 harg8 arg9 harg9 arg10 harg10 hc0 x0 x1 x2 x3 x4 xs0).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).2.2.1 S1x1x1x1.size (by sl_kernel_rfl) y

theorem scover_B (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) (y : S1x1x1x1.Idx) :
    ∃ pc ∈ (kernelRun0_B c i arg2 harg2 arg3 harg3 arg4 harg4 arg5 harg5 arg6 harg6 arg7 harg7 arg8 harg8 arg9 harg9 arg10 harg10 hc0 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 xs0).2.2.2.1 S1x1x1x1.size (by sl_kernel_rfl) y

end Cert.KernelIdeal.Hand

end
-- ==== Proof.KFrame.lean ====
/-
  The region, point by point, and the run of the whole program.

  After the body at a point the three output buffers hold what the body stored: the threshold block, the weight block, and
  the running loss. The scratch holds the running loss too, and hands it to the next point: at an image's first
  half-image it is the block's loss from zero, at the second it is the first half's value plus the block's loss. The
  region's invariant between points is therefore the scratch at the running loss the last point left (before the first
  point, at anything) beside the generator register. With that the body meets its obligation at every point, and the
  library's launch theorem gives the run of @main: it ends, nothing faults, every array of the region holds what the
  points wrote back, and the four argument arrays are as launched.
-/
import proofs.«172051_j19585050870000_2_alg».proof.Proof.KCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- What the body leaves at a point where it resets the running loss: the two full blocks, the loss window's buffer, the scratch. -/
def ptA (c : Dev nD) (t : Fin cfg0.N) (h0 : t.val % 2 = 0) : Vec F S1x1x384x1024 .f32 × Vec F S1x1x384x1024 .f32 × Vec F S1x1x1x1 .f32 × Vec F S1x1x1x1 .f32 :=
  (VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).1),
   VO0_6.read (Elt F) (VO0_6.writes (Elt F) VO0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).2.1),
   VO0_7.read (Elt F) (VO0_7.writes (Elt F) VO0_7.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).2.2.1),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).2.2.2.1))

/-- What the body leaves at a point where it goes on from the running loss `prev`. -/
def ptB (c : Dev nD) (t : Fin cfg0.N) (h0 : ¬t.val % 2 = 0) (prev : Vec F S1x1x1x1 .f32) : Vec F S1x1x384x1024 .f32 × Vec F S1x1x384x1024 .f32 × Vec F S1x1x1x1 .f32 × Vec F S1x1x1x1 .f32 :=
  (VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).1),
   VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).2.1),
   VO0_7.read (Elt F) (VO0_7.writes (Elt F) VO0_7.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).2.2.1),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) prev).2.2.2.1))

/-- The three outputs' buffers and the scratch after the body at position `n`, by recursion on the position: an even
    position resets, an odd one goes on from what the position before left in the scratch. -/
def outsAt0 (c : Dev nD) : (n : ℕ) → n < cfg0.N → Vec F S1x1x384x1024 .f32 × Vec F S1x1x384x1024 .f32 × Vec F S1x1x1x1 .f32 × Vec F S1x1x1x1 .f32
  | 0, hn => ptA m c ⟨0, hn⟩ (Nat.zero_mod _)
  | n + 1, hn =>
    if h0 : (n + 1) % 2 = 0 then ptA m c ⟨n + 1, hn⟩ h0
    else ptB m c ⟨n + 1, hn⟩ h0 (outsAt0 c n (Nat.lt_of_succ_lt hn)).2.2.2

theorem outsAt0_A (c : Dev nD) (t : Fin cfg0.N) (h0 : t.val % 2 = 0) : outsAt0 m c t.val t.isLt = ptA m c t h0 := by
  obtain ⟨n, hn⟩ := t
  cases n with
  | zero => exact rfl
  | succ n => exact dif_pos h0

theorem outsAt0_B (c : Dev nD) (t : Fin cfg0.N) (h0 : ¬t.val % 2 = 0) :
    outsAt0 m c t.val t.isLt = ptB m c t h0 (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-! ## The invariant between points -/

/-- Before the first point the scratch holds anything; after position `n` it holds the running loss that position left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The proof data -/

/-- The arrays as the region finds them; after the body each input's buffer at its block, each output's at what the
    point left; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) :
    (dats m 0 c).leavesExact 5 t = owns (c : Thread nD τ) (ms0_5 t) fullShare ((dats m 0 c).after 5 t) := by
  unfold Dat.leavesExact; rw [liveAt0_5 t]
theorem leaves0_6 (c : Dev nD) (t : Fin cfg0.N) :
    (dats m 0 c).leavesExact 6 t = owns (c : Thread nD τ) (ms0_6 t) fullShare ((dats m 0 c).after 6 t) := by
  unfold Dat.leavesExact; rw [liveAt0_6 t]
theorem leaves0_7 (c : Dev nD) (t : Fin cfg0.N) :
    (dats m 0 c).leavesExact 7 t = owns (c : Thread nD τ) (ms0_7 t) fullShare ((dats m 0 c).after 7 t) := by
  unfold Dat.leavesExact; rw [liveAt0_7 t]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- At any point the inputs' buffers hold their blocks; the point's parity says which run applies; the invariant hands
    the body the scratch (at the running loss, or at anything before the first point) and takes it back at this point's
    running loss; the three output buffers come back covered by the body's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7,
    after0_0, after0_1, after0_2, after0_3, after0_4, after0_5, after0_6, after0_7]
  have hN : t.val < 16 := lt_of_lt_of_eq t.isLt (show cfg0.N = 16 from N_0)
  by_cases h0 : t.val % 2 = 0
  · rw [outsAt0_A m c t h0]
    unfold ptA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_A c _ _ _ _ _ _ _ _ _ _ _ _ _ _ _ _ _ _ _ _ _ _ _ _ _)
      isplitl [H6]
      · unfold owns; iexists _; isplitr
        swap; · iexact H6
        ipureintro; exact View.read_writes_of_cover _ _ _ _ _ (cover6_A c _ _ _ _ _ _ _ _ _ _ _ _ _ _ _ _ _ _ _ _ _ _ _ _ _)
      unfold owns; iexists _; isplitr
      swap; · iexact H7
      ipureintro; exact View.read_writes_of_cover _ _ _ _ _ (cover7_A c _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      iintro ⟨H0, H1, H2, H3, H4, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_A c _ _ _ _ _ _ _ _ _ _ _ _ _ _ _ _ _ _ _ _ _ _ _ _ _)
      isplitl [H6]
      · unfold owns; iexists _; isplitr
        swap; · iexact H6
        ipureintro; exact View.read_writes_of_cover _ _ _ _ _ (cover6_A c _ _ _ _ _ _ _ _ _ _ _ _ _ _ _ _ _ _ _ _ _ _ _ _ _)
      unfold owns; iexists _; isplitr
      swap; · iexact H7
      ipureintro; exact View.read_writes_of_cover _ _ _ _ _ (cover7_A c _ _ _ _ _ _ _ _ _ _ _ _ _ _ _ _ _ _ _ _ _ _ _ _ _)
  · rw [outsAt0_B m c t h0]
    unfold ptB; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ (scover_B c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_B c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_B c _ _ _ _ _ _ _ _ _ _ _ _ _ _ _ _ _ _ _ _ _ _ _ _ _ _)
    unfold owns; iexists _; isplitr
    swap; · iexact H7
    ipureintro; exact View.read_writes_of_cover _ _ _ _ _ (cover7_B c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back, the running loss forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main ends, nothing faulting, with every array of
    the region at what the points wrote back and every other unscoped buffer as the last four host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KPiece.lean ====
/-
  What each case of the body leaves in its output buffers and in the scratch, as the skeleton's payloads of the loaded
  blocks.

  In both cases every store of the body is a whole-buffer store (one rectangle at offset zero of the buffer's full
  extents), and every load reads a whole buffer.  So the contents a list of such stores leaves are the LAST store's
  payload; a load of a buffer after such stores reads the last store's payload; and a load of an input buffer reads the
  block it holds.  Reading the found pieces this way gives, with the payloads kept folded:

    * the threshold buffer holds `k0_pay5` of the mask block and its dilation, the weight buffer `k0_pay6` of the four
      blocks, in both cases;
    * the loss window's buffer and the scratch hold `k0_pay1` of the blocks and of the running loss: the zero block
      `k0_pay2` at the first half-image of an image (the reset came first), the scratch's contents `xs0` at the second.

  The contents are written over the view's arbitrary filler, so reading them back is the pieces' canonical function at
  every index, with no covering condition to check.
-/
import proofs.«172051_j19585050870000_2_alg».proof.Proof.KRunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-4 rectangle, however spelt. -/
theorem hz4 : (![0, 0, 0, 0] : Fin 4 → Nat) = fun _ => 0 := funext fun a => by fin_cases a <;> rfl

/-! ## The first half-image of an image -/

set_option maxHeartbeats 1000000 in
/-- The threshold buffer: the threshold payload of the mask block and the dilated-mask block. -/
theorem outA5 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) :
    VO0_5.read (Elt F) (VO0_5.writes (Elt F) VO0_5.junk (kernelRun0_A c i arg2 harg2 arg3 harg3 arg4 harg4 arg5 harg5 arg6 harg6 arg7 harg7 arg8 harg8 arg9 harg9 arg10 harg10 hc0 x0 x1 x2 x3 x4).1) = k0_pay5 x0 x2 := by
  rw [View.read_writes_junk_eq_canon]
  unfold kernelRun0_A
  dsimp only
  rw [View.canon_unit_zero hz4]
  simp only [View.readAt_eq_ld, harg2.read_unread, harg4.read_unread, View.ld_unit_zero (S := S1x1x384x1024) hz4]

set_option maxHeartbeats 1000000 in
/-- The weight buffer: the weight payload of the mask, instance-weight and the two dilated blocks. -/
theorem outA6 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) :
    VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4).2.1) = k0_pay6 x0 x1 x2 x3 := by
  rw [View.read_writes_junk_eq_canon]
  unfold kernelRun0_A
  dsimp only
  sl_unfold_words
  rw [View.canon_unit_zero hz4]
  simp only [View.readAt_eq_ld, harg2.read_unread, harg3.read_unread, harg4.read_unread, harg5.read_unread,
    View.ld_unit_zero (S := S1x1x384x1024) hz4]

set_option maxHeartbeats 1000000 in
/-- The loss window's buffer: the block's loss added to the zero block the reset stored. -/
theorem outA7 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) :
    VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4).2.2.1)
      = k0_pay1 x0 (k0_pay3 x1) x4 (k0_pay2 (F := F)) := by
  rw [View.read_writes_junk_eq_canon]
  unfold kernelRun0_A
  dsimp only
  sl_unfold_words
  rw [View.canon_unit_zero (S := S1x1x1x1) hz4, View.readCov_cons_toLoadRect, View.readCov_unit_zero (S := S1x1x1x1) _ hz4]
  simp only [View.readAt_eq_ld, harg2.read_unread, harg3.read_unread, harg6.read_unread,
    View.ld_unit_zero (S := S1x1x384x1024) hz4]

set_option maxHeartbeats 1000000 in
/-- The scratch: the same running loss. -/
theorem soutA (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4).2.2.2.1)
      = k0_pay1 x0 (k0_pay3 x1) x4 (k0_pay2 (F := F)) := by
  rw [View.read_writes_junk_eq_canon]
  unfold kernelRun0_A
  dsimp only
  sl_unfold_words
  rw [View.canon_cons_unit_zero (S := S1x1x1x1) hz4, View.readCov_unit_zero (S := S1x1x1x1) _ hz4]
  simp only [View.readAt_eq_ld, harg2.read_unread, harg3.read_unread, harg6.read_unread,
    View.ld_unit_zero (S := S1x1x384x1024) hz4]

/-! ## The second half-image of an image -/

set_option maxHeartbeats 1000000 in
/-- The threshold buffer, as at the first half-image. -/
theorem outB5 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) :
    VO0_5.read (Elt F) (VO0_5.writes (Elt F) VO0_5.junk (kernelRun0_B c i arg2 harg2 arg3 harg3 arg4 harg4 arg5 harg5 arg6 harg6 arg7 harg7 arg8 harg8 arg9 harg9 arg10 harg10 hc0 x0 x1 x2 x3 x4 xs0).1) = k0_pay5 x0 x2 := by
  rw [View.read_writes_junk_eq_canon]
  unfold kernelRun0_B
  dsimp only
  rw [View.canon_unit_zero hz4]
  simp only [View.readAt_eq_ld, harg2.read_unread, harg4.read_unread, View.ld_unit_zero (S := S1x1x384x1024) hz4]

set_option maxHeartbeats 1000000 in
/-- The weight buffer, as at the first half-image. -/
theorem outB6 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) :
    VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 xs0).2.1) = k0_pay6 x0 x1 x2 x3 := by
  rw [View.read_writes_junk_eq_canon]
  unfold kernelRun0_B
  dsimp only
  sl_unfold_words
  rw [View.canon_unit_zero hz4]
  simp only [View.readAt_eq_ld, harg2.read_unread, harg3.read_unread, harg4.read_unread, harg5.read_unread,
    View.ld_unit_zero (S := S1x1x384x1024) hz4]

set_option maxHeartbeats 1000000 in
/-- The loss window's buffer: the block's loss added to the running loss the scratch held. -/
theorem outB7 (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) :
    VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 xs0).2.2.1)
      = k0_pay1 x0 (k0_pay3 x1) x4 xs0 := by
  rw [View.read_writes_junk_eq_canon]
  unfold kernelRun0_B
  dsimp only
  sl_unfold_words
  rw [View.canon_unit_zero (S := S1x1x1x1) hz4, View.readCov_cons_toLoadRect]
  simp only [View.readAt_eq_ld, harg2.read_unread, harg3.read_unread, harg6.read_unread, harg10.read_unread,
    View.ld_unit_zero (S := S1x1x384x1024) hz4, View.ld_unit_zero (S := S1x1x1x1) hz4]

set_option maxHeartbeats 1000000 in
/-- The scratch: the same running loss. -/
theorem soutB (c : Dev nD) (i : grid0.Coords) (arg2 : Memref sig .tc .vmem S1x1x384x1024 .f32) (harg2 : arg2.IsWhole) (arg3 : Memref sig .tc .vmem S1x1x384x1024 .f32) (harg3 : arg3.IsWhole) (arg4 : Memref sig .tc .vmem S1x1x384x1024 .f32) (harg4 : arg4.IsWhole) (arg5 : Memref sig .tc .vmem S1x1x384x1024 .f32) (harg5 : arg5.IsWhole) (arg6 : Memref sig .tc .vmem S1x1x384x1024 .f32) (harg6 : arg6.IsWhole) (arg7 : Memref sig .tc .vmem S1x1x384x1024 .f32) (harg7 : arg7.IsWhole) (arg8 : Memref sig .tc .vmem S1x1x384x1024 .f32) (harg8 : arg8.IsWhole) (arg9 : Memref sig .tc .vmem S1x1x1x1 .f32) (harg9 : arg9.IsWhole) (arg10 : Memref sig .tc .vmem S1x1x1x1 .f32) (harg10 : arg10.IsWhole) (hc0 : ¬cond0_0 i)
    (x0 : Vec F S1x1x384x1024 .f32) (x1 : Vec F S1x1x384x1024 .f32) (x2 : Vec F S1x1x384x1024 .f32) (x3 : Vec F S1x1x384x1024 .f32) (x4 : Vec F S1x1x384x1024 .f32) (xs0 : Vec F S1x1x1x1 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 hc0 x0 x1 x2 x3 x4 xs0).2.2.2.1)
      = k0_pay1 x0 (k0_pay3 x1) x4 xs0 := by
  rw [View.read_writes_junk_eq_canon]
  unfold kernelRun0_B
  dsimp only
  sl_unfold_words
  rw [View.canon_unit_zero (S := S1x1x1x1) hz4]
  simp only [View.readAt_eq_ld, harg2.read_unread, harg3.read_unread, harg6.read_unread, harg10.read_unread,
    View.ld_unit_zero (S := S1x1x384x1024) hz4, View.ld_unit_zero (S := S1x1x1x1) hz4]

end Cert.KernelIdeal.Hand

end
-- ==== Proof.KOuts.lean ====
/-
  What each grid point leaves, in closed form.

  At every point the threshold block and the weight block are the body's two pointwise payloads of the point's input
  blocks, and the loss window's buffer holds the same running loss as the scratch. After an image's first half-image the
  running loss is the block's step from the zero start; after the second it is the block's step from what the first left.
-/
import proofs.«172051_j19585050870000_2_alg».proof.Proof.KFrame
import proofs.«172051_j19585050870000_2_alg».proof.Proof.KPiece

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The threshold block at any point. -/
theorem out5_at (c : Dev nD) (t : Fin cfg0.N) :
    (outsAt0 m c t.val t.isLt).1 = k0_pay5 (iblk m c 0 t) (iblk m c 2 t) := by
  by_cases h0 : t.val % 2 = 0
  · rw [outsAt0_A m c t h0]; unfold ptA; dsimp only
    exact outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)
  · rw [outsAt0_B m c t h0]; unfold ptB; dsimp only
    exact outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2

/-- The weight block at any point. -/
theorem out6_at (c : Dev nD) (t : Fin cfg0.N) :
    (outsAt0 m c t.val t.isLt).2.1 = k0_pay6 (iblk m c 0 t) (iblk m c 1 t) (iblk m c 2 t) (iblk m c 3 t) := by
  by_cases h0 : t.val % 2 = 0
  · rw [outsAt0_A m c t h0]; unfold ptA; dsimp only
    exact outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)
  · rw [outsAt0_B m c t h0]; unfold ptB; dsimp only
    exact outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2

/-- The running loss after a first half-image: one step from the zero start. -/
theorem acc_even (c : Dev nD) (t : Fin cfg0.N) (h0 : t.val % 2 = 0) :
    (outsAt0 m c t.val t.isLt).2.2.2 = k0_pay1 (iblk m c 0 t) (k0_pay3 (iblk m c 1 t)) (iblk m c 4 t) (k0_pay2 (F := F)) := by
  rw [outsAt0_A m c t h0]; unfold ptA; dsimp only
  exact soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)

/-- The running loss after a second half-image: one step from what the point before left. -/
theorem acc_odd (c : Dev nD) (t : Fin cfg0.N) (h0 : ¬t.val % 2 = 0) :
    (outsAt0 m c t.val t.isLt).2.2.2 = k0_pay1 (iblk m c 0 t) (k0_pay3 (iblk m c 1 t)) (iblk m c 4 t) (outsAt0 m c (t.val - 1) (Nat.lt_of_le_of_lt (Nat.sub_le _ _) t.isLt)).2.2.2 := by
  rw [outsAt0_B m c t h0]; unfold ptB; dsimp only
  exact soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2

/-- The loss window's buffer holds the running loss. -/
theorem out7_at (c : Dev nD) (t : Fin cfg0.N) :
    (outsAt0 m c t.val t.isLt).2.2.1 = (outsAt0 m c t.val t.isLt).2.2.2 := by
  by_cases h0 : t.val % 2 = 0
  · rw [outsAt0_A m c t h0]; unfold ptA; dsimp only
    exact (outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).trans
      (soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).symm
  · rw [outsAt0_B m c t h0]; unfold ptB; dsimp only
    exact (outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2).trans
      (soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2).symm

/-- The position is all that `outsAt0` depends on. -/
theorem outsAt0_congr (c : Dev nD) {n n' : ℕ} (h : n = n') (hn : n < cfg0.N) (hn' : n' < cfg0.N) :
    outsAt0 m c n hn = outsAt0 m c n' hn' := by
  subst h; rfl

end Cert.KernelIdeal.Hand

end
-- ==== Proof.Spec.lean ====
/-
  The three results as plain functions on the extended reals, over any index shape.

  From a ground-truth mask `gt`, its dilation `dil`, a per-pixel instance weight `instw` with its own dilation `wdil`,
  and a binarised map `binar`:
    * the threshold map   (dil − gt)·c₁ + gt·c₂,            c₁, c₂ the f32 words of 0.7 and 0.2;
    * the weight map      (wdil·(dil − gt) + instw) + 1;
    * the loss            (0 + Σᵢ |instwᵢ·(binarᵢ − gtᵢ)|) / 3072, one sum over every pixel of every image.
  The words of the constants are kept as words: the same word stands on both sides of every comparison, so none is
  ever evaluated.
-/
import Idealize.ShloMosaic.PureOps.Ideal
import Idealize.ShloMosaic.Lib.ValueIdx

noncomputable section

namespace Cert.BoxLoss

open Idealize.ShloMosaic

variable {S : Shape}

/-- The threshold map at a pixel. -/
def thr (dil gt : FVec Ideal S .f32) : FVec Ideal S .f32 := fun i =>
  (dil i - gt i) * Ideal.ofBits .f32 0x3F333333#32 + gt i * Ideal.ofBits .f32 0x3E4CCCCD#32

/-- The weight map at a pixel. -/
def allw (wdil dil gt instw : FVec Ideal S .f32) : FVec Ideal S .f32 := fun i =>
  (wdil i * (dil i - gt i) + instw i) + Ideal.ofBits .f32 0x3F800000#32

/-- One pixel's term of the loss, |w·(x − g)| with the absolute value as the extended reals have it, max a (−a). -/
def term (instw binar gt : FVec Ideal S .f32) : FVec Ideal S .f32 := fun i =>
  max (instw i * (binar i - gt i)) (-(instw i * (binar i - gt i)))

/-- The loss: the terms summed over every index, from the zero word, divided by the word of 3072. -/
def loss (instw binar gt : FVec Ideal S .f32) : EReal :=
  Ideal.div (Ideal.ofBits .f32 0x00000000#32 + ∑ i : S.Idx, term instw binar gt i) (Ideal.ofBits .f32 0x45400000#32)

end Cert.BoxLoss

end
-- ==== Proof.KPay.lean ====
/-
  THE KERNEL BODY'S ARITHMETIC AT THE EXTENDED REALS.

  The generated skeleton names each pure value the kernel body stores as a payload over the blocks it loaded.  Read at
  the extended reals, for ANY blocks, the payloads are the specification's functions:

    * the threshold block is (dil − gt)·c₁ + gt·c₂ pixel by pixel (`pay5_eq`);
    * the weight block is (wdil·(dil − gt) + instw) + 1 pixel by pixel (`pay6_eq`);
    * the accumulator's first value is the zero function (`pay2_eq`);
    * one grid step adds to the accumulator the sum, over every pixel of the block, of |instw·(binar − gt)|
      (`pay1_eq`).

  A shape cast between equal shapes is the identity; a sum reduction into a shape all of whose axes have extent one is
  the total sum over the source's index set, so the cast of that reduction to [1,1,1,1] reads the total sum at its one
  index.  The block's index set (384·1024 pixels) stays a symbol throughout: the sum over it is never opened.
-/
import proofs.«172051_j19585050870000_2_alg».proof.Proof.Gen.KernelIdeal.Skeleton
import proofs.«172051_j19585050870000_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.KPay

open Idealize.ShloMosaic Idealize.ShloMosaic.ValueIdx Cert.KernelIdeal

variable (gt instw dil wdil binar : FVec Ideal S1x1x384x1024 .f32) (acc : FVec Ideal S1x1x1x1 .f32)

/-- The cast of a block to its own shape is the block. -/
theorem pay3_eq : Gen.k0_pay3 (F := Ideal) instw = instw :=
  shapeCast_self instw _

/-- The difference block: dil − gt pixel by pixel. -/
theorem pay4_eq : Gen.k0_pay4 (F := Ideal) gt dil = fun i => dil i - gt i := by
  unfold Gen.k0_pay4
  rw [shapeCast_self]
  rfl

set_option maxHeartbeats 50000 in
/-- The threshold block is the specification's threshold map. -/
theorem pay5_eq : Gen.k0_pay5 (F := Ideal) gt dil = Cert.BoxLoss.thr dil gt := by
  unfold Gen.k0_pay5
  rw [pay4_eq]
  rfl

set_option maxHeartbeats 50000 in
/-- The weight block is the specification's weight map. -/
theorem pay6_eq : Gen.k0_pay6 (F := Ideal) gt instw dil wdil = Cert.BoxLoss.allw wdil dil gt instw := by
  unfold Gen.k0_pay6
  rw [pay4_eq, pay3_eq, shapeCast_self]
  rfl

set_option maxHeartbeats 50000 in
/-- The accumulator's first value: the zero word everywhere. -/
theorem pay2_eq : Gen.k0_pay2 (F := Ideal) = fun _ => (0 : EReal) := by
  refine (shapeCast_self (broadcast S1x1x1x1 (Ideal.ofBits .f32 0x00000000#32)) _).trans ?_
  funext j
  exact Ideal.ofBits_zero_f32

set_option maxHeartbeats 50000 in
/-- The sum reduction of a block over its two pixel axes, into [1,1], reads the total sum over the block's index set at
    every index.  (The hypotheses are typed as the printed term's proof arguments are.) -/
theorem red_eq (src : FVec Ideal S1x1x384x1024 .f32) (hφ : FKind.Formats .f32)
    (hacc : (0x00000000#32 : BitVec 32) = 0x00000000#32) :
    multiReduction .add [2, 3] S1x1 src 0x00000000#32 Facts₀.reduces_S1x1x384x1024_S1x1 hφ hacc
      = fun _ => ∑ y : S1x1x384x1024.Idx, src y := by
  funext j
  exact Ideal.reduceAdd_total Facts₀.reduces_S1x1x384x1024_S1x1 (by decide) src j

set_option maxHeartbeats 50000 in
/-- One grid step's accumulator: the old value plus the block's sum of the loss terms. -/
theorem pay1_eq : Gen.k0_pay1 (F := Ideal) gt (Gen.k0_pay3 instw) binar acc
    = fun j => acc j + ∑ y : S1x1x384x1024.Idx, Cert.BoxLoss.term instw binar gt y := by
  rw [pay3_eq]
  refine (shapeCast_self _ _).trans ?_
  rw [red_eq]
  rfl

end Cert.KernelIdeal.KPay

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.KHost.lean ====
/-
  The host lines of the program, read as functions of the launch contents.

  Before the pipelined region @main runs 65 host lines.  The first 51 build, from the two arrays of box corners, the
  per-pixel instance weight: a table of 15 x 11 weights is scattered into a zero array of the image shape, one copy per
  box, at the rows and columns the corners give (corner + offset, a negative index wrapped by the extent).  Then a
  dilation — a 9 x 9, stride-2 window maximum followed by a twofold nearest-neighbour enlargement of both pixel axes,
  written as two broadcast-and-reshape pairs — is applied once to the ground-truth mask and once to the instance weight.
  `instwT` and `pool` are those two compositions, operation by operation as the lines apply them, and the three
  theorems say that the buffers the region's windows read hold exactly these functions of the launch contents.

  After the region four more lines sum the eight per-image partial losses and divide by the word of 3072;
  `tail_v56` reads the last line's result as that quotient of the sum of whatever the region left in the
  partial-loss array.
-/
import proofs.«172051_j19585050870000_2_alg».proof.Proof.KMain
import proofs.«172051_j19585050870000_2_alg».proof.Proof.LibHostRead
import proofs.«172051_j19585050870000_2_alg».proof.Proof.LibKeep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HostRead Cert.Keep

variable {F : FTy → Type} [FloatOps F]

/-- The instance weight: the table of box weights scattered into the zero image array at the rows and columns given by
    the two corner arrays, as the first 51 host lines compose it. -/
def instwT (a2 a3 : IVec S8x384 32) : FVec F S8x1x768x1024 .f32 :=
  have cst : FVec F S15x11 .f32 := fun i => FloatOps.ofBits .f32 (lit0 (S15x11.rowMajor i))
  have v0 : IVec S8x384x1x1 32 := broadcastInDim S8x384x1x1 ![0, 1] bcast_S8x384_S8x384x1x1_0_1 a2
  have v1 : IVec S15 32 := iotaInDim S15 32 0
  have v2 : IVec S1x1x15x1 32 := broadcastInDim S1x1x15x1 ![2] bcast_S15_S1x1x15x1_2 v1
  have v3 : IVec S8x384x15x1 32 := broadcastInDim S8x384x15x1 ![0, 1, 2, 3] bcast_S8x384x1x1_S8x384x15x1_0_1_2_3 v0
  have v4 : IVec S8x384x15x1 32 := broadcastInDim S8x384x15x1 ![0, 1, 2, 3] bcast_S1x1x15x1_S8x384x15x1_0_1_2_3 v2
  have v5 : IVec S8x384x15x1 32 := addi v3 v4
  have v6 : IVec S8x384x1x1 32 := broadcastInDim S8x384x1x1 ![0, 1] bcast_S8x384_S8x384x1x1_0_1 a3
  have v7 : IVec S11 32 := iotaInDim S11 32 0
  have v8 : IVec S1x1x1x11 32 := broadcastInDim S1x1x1x11 ![3] bcast_S11_S1x1x1x11_3 v7
  have v9 : IVec S8x384x1x11 32 := broadcastInDim S8x384x1x11 ![0, 1, 2, 3] bcast_S8x384x1x1_S8x384x1x11_0_1_2_3 v6
  have v10 : IVec S8x384x1x11 32 := broadcastInDim S8x384x1x11 ![0, 1, 2, 3] bcast_S1x1x1x11_S8x384x1x11_0_1_2_3 v8
  have v11 : IVec S8x384x1x11 32 := addi v9 v10
  have v12 : IVec S8 32 := iotaInDim S8 32 0
  have v13 : IVec S8x1x1x1 32 := broadcastInDim S8x1x1x1 ![0] bcast_S8_S8x1x1x1_0 v12
  have cst_0 : FVec F S_ .f32 := constant S_ .f32 0x00000000#32
  have v14 : FVec F S8x1x768x1024 .f32 := broadcastInDim S8x1x768x1024 ![] bcast_S_S8x1x768x1024 cst_0
  have c : IVec S_ 32 := constantI S_ 32 0#32
  have v15 : IVec S8x1x1x1 32 := broadcastInDim S8x1x1x1 ![] bcast_S_S8x1x1x1 c
  have v16 : IVec S8x1x1x1 1 := cmpi .slt v13 v15
  have c_1 : IVec S_ 32 := constantI S_ 32 8#32
  have v17 : IVec S8x1x1x1 32 := broadcastInDim S8x1x1x1 ![] bcast_S_S8x1x1x1 c_1
  have v18 : IVec S8x1x1x1 32 := addi v13 v17
  have v19 : IVec S8x1x1x1 32 := select v16 v18 v13
  have c_2 : IVec S_ 32 := constantI S_ 32 0#32
  have v20 : IVec S8x384x15x1 32 := broadcastInDim S8x384x15x1 ![] bcast_S_S8x384x15x1 c_2
  have v21 : IVec S8x384x15x1 1 := cmpi .slt v5 v20
  have c_3 : IVec S_ 32 := constantI S_ 32 768#32
  have v22 : IVec S8x384x15x1 32 := broadcastInDim S8x384x15x1 ![] bcast_S_S8x384x15x1 c_3
  have v23 : IVec S8x384x15x1 32 := addi v5 v22
  have v24 : IVec S8x384x15x1 32 := select v21 v23 v5
  have c_4 : IVec S_ 32 := constantI S_ 32 0#32
  have v25 : IVec S8x384x1x11 32 := broadcastInDim S8x384x1x11 ![] bcast_S_S8x384x1x11 c_4
  have v26 : IVec S8x384x1x11 1 := cmpi .slt v11 v25
  have c_5 : IVec S_ 32 := constantI S_ 32 1024#32
  have v27 : IVec S8x384x1x11 32 := broadcastInDim S8x384x1x11 ![] bcast_S_S8x384x1x11 c_5
  have v28 : IVec S8x384x1x11 32 := addi v11 v27
  have v29 : IVec S8x384x1x11 32 := select v26 v28 v11
  have v30 : IVec S8x384x15x11 32 := broadcastInDim S8x384x15x11 ![0, 1, 2, 3] bcast_S8x1x1x1_S8x384x15x11_0_1_2_3 v19
  have c_6 : IVec S_ 32 := constantI S_ 32 0#32
  have v31 : IVec S8x384x15x11 32 := broadcastInDim S8x384x15x11 ![] bcast_S_S8x384x15x11 c_6
  have v32 : IVec S8x384x15x11 32 := broadcastInDim S8x384x15x11 ![0, 1, 2, 3] bcast_S8x384x15x1_S8x384x15x11_0_1_2_3 v24
  have v33 : IVec S8x384x15x11 32 := broadcastInDim S8x384x15x11 ![0, 1, 2, 3] bcast_S8x384x1x11_S8x384x15x11_0_1_2_3 v29
  have v34 : IVec S8x384x15x11 32 := id v31
  have v35 : IVec S8x384x15x11x1 32 := broadcastInDim S8x384x15x11x1 ![0, 1, 2, 3] bcast_S8x384x15x11_S8x384x15x11x1_0_1_2_3 v30
  have v36 : IVec S8x384x15x11x1 32 := broadcastInDim S8x384x15x11x1 ![0, 1, 2, 3] bcast_S8x384x15x11_S8x384x15x11x1_0_1_2_3 v34
  have v37 : IVec S8x384x15x11x1 32 := broadcastInDim S8x384x15x11x1 ![0, 1, 2, 3] bcast_S8x384x15x11_S8x384x15x11x1_0_1_2_3 v32
  have v38 : IVec S8x384x15x11x1 32 := broadcastInDim S8x384x15x11x1 ![0, 1, 2, 3] bcast_S8x384x15x11_S8x384x15x11x1_0_1_2_3 v33
  have v39 : IVec S8x384x15x11x4 32 := concatenate S8x384x15x11x4 4 [⟨S8x384x15x11x1, v35⟩, ⟨S8x384x15x11x1, v36⟩, ⟨S8x384x15x11x1, v37⟩, ⟨S8x384x15x11x1, v38⟩] concatenates_S8x384x15x11x1_S8x384x15x11x1_S8x384x15x11x1_S8x384x15x11x1_S8x384x15x11x4_d4
  have v40 : FVec F S8x384x15x11 .f32 := broadcastInDim S8x384x15x11 ![2, 3] bcast_S15x11_S8x384x15x11_2_3 cst
  Host.scatter scatter_S8x1x768x1024_S8x384x15x11x4_S8x384x15x11_n_0123_0123_4 (fun _ b => b) v14 v39 v40

/-- The dilation: the 9 x 9 stride-2 window maximum (from −∞, four pixels of padding on each side of both pixel axes),
    then each of its pixels repeated twice along the rows and twice along the columns. -/
def pool (x : FVec F S8x1x768x1024 .f32) : FVec F S8x1x768x1024 .f32 :=
  have cst_7 : FVec F S_ .f32 := constant S_ .f32 0xFF800000#32
  have v42 : FVec F S_ .f32 := broadcastInDim S_ ![] bcast_S_S_ cst_7
  have v43 : FVec F S8x1x384x512 .f32 := Host.reduceWindow FloatOps.maximumf ![1, 1, 9, 9] ![1, 1, 2, 2] ![0, 0, 4, 4] ![0, 0, 4, 4] x v42 reduceWindows_S8x1x768x1024_S8x1x384x512_w1s1p0_0_w1s1p0_0_w9s2p4_4_w9s2p4_4 h_S_
  have v44 : FVec F S8x1x384x2x512 .f32 := broadcastInDim S8x1x384x2x512 ![0, 1, 2, 4] bcast_S8x1x384x512_S8x1x384x2x512_0_1_2_4 v43
  have v45 : FVec F S8x1x768x512 .f32 := shapeCast S8x1x768x512 v44 shapeCasts_S8x1x384x2x512_S8x1x768x512
  have v46 : FVec F S8x1x768x512x2 .f32 := broadcastInDim S8x1x768x512x2 ![0, 1, 2, 3] bcast_S8x1x768x512_S8x1x768x512x2_0_1_2_3 v45
  shapeCast S8x1x768x1024 v46 shapeCasts_S8x1x768x512x2_S8x1x768x1024

variable (m : (ℓ : Loc nD τ sig) → Buf (Elt F) ℓ)

set_option maxHeartbeats 4000000 in
/-- The dilated mask's buffer holds the dilation of the launched mask. -/
theorem V_main_v47 (c : Dev nD) :
    (V m c main_v47 : FVec F S8x1x768x1024 .f32) = pool (m ((c : Thread nD τ).loc main_arg1)) := by
  dsimp only [V, V0]
  simp only [hostOps0, List.flatten_cons, List.flatten_nil, List.append_nil]
  read_results
  rfl

set_option maxHeartbeats 4000000 in
/-- The instance weight's buffer holds the scatter built from the two launched corner arrays. -/
theorem V_main_v41 (c : Dev nD) :
    (V m c main_v41 : FVec F S8x1x768x1024 .f32)
      = instwT (m ((c : Thread nD τ).loc main_arg2)) (m ((c : Thread nD τ).loc main_arg3)) := by
  dsimp only [V, V0]
  simp only [hostOps0, List.flatten_cons, List.flatten_nil, List.append_nil]
  read_results
  rfl

set_option maxHeartbeats 4000000 in
/-- The dilated instance weight's buffer holds the dilation of that scatter. -/
theorem V_main_v53 (c : Dev nD) :
    (V m c main_v53 : FVec F S8x1x768x1024 .f32)
      = pool (instwT (m ((c : Thread nD τ).loc main_arg2)) (m ((c : Thread nD τ).loc main_arg3))) := by
  dsimp only [V, V0]
  simp only [hostOps0, List.flatten_cons, List.flatten_nil, List.append_nil]
  read_results
  rfl

set_option maxHeartbeats 4000000 in
/-- The last host line's result: the sum of the eight partial losses the region left, from the zero word, divided by the
    word of 3072. -/
theorem tail_v56 (dats : (p : Fin _) → (c : Dev nD) → Dat τ (Elt F) Unit ℕ (UR sig nD τ) ℕ (cfgs p) c) (c : Dev nD) :
    (Pipeline.afterTail₀ cfgs dats 0 (V0 m) [hostOps1] c main_v56 : FVec F S_ .f32)
      = Host.divf (Host.reduceAdd ((dats 0 c).arrAt 7 cfg0.N) (constant S_ .f32 0x00000000#32) reducesTo_S8x1x1x1_S_d0_1_2_3 h_S_)
          (constant S_ .f32 0x45400000#32) := by
  unfold Pipeline.afterTail₀
  show StableHlo.after hostOps1 _ (Proc.devRef .tc main_v56) = _
  after_results
  rw [Pipeline.withArrays_arr spec0 launch0.win.arr_inj c _ _ 7]

end Cert.KernelIdeal.Hand

end
-- ==== Proof.LibHalfSum.lean ====
/-
  SUMS OVER A RANK-4 INDEX SET, AND THE SPLIT OF ONE AXIS INTO ITS TWO HALVES.

  A general lemma file: it mentions no program.  For any additive commutative monoid:

    * `sum_idx4`: a sum over the index set of a rank-4 shape [n0, n1, n2, n3] is the iterated sum over its four
      coordinates (the index set is the product of the four coordinate ranges, `idxEquiv4`);
    * `sum_halves`: when the third extent is even, H = h + h, a sum over the index set of [B, 1, H, w] is the sum, over
      the index set of [B, 1, 1, 1], of (the sum over [1, 1, h, w] of the entries whose third coordinate lies in the
      first half 0 ≤ y < h) + (the same over the second half h ≤ h + y < H);
    * `sum_halves_zero`: the same with each inner pair of sums started from zero, ((0 + first half) + second half).

  Every coordinate of every index on the right-hand sides is written as `Fin.mk` of a value, so that no coordinate's type
  mentions the shape's extent function.
-/
import Mathlib
import Idealize.ShloMosaic.Lib.ValueIdx

noncomputable section

open scoped BigOperators

namespace Cert.HalfSum

open Idealize.ShloMosaic Idealize.ShloMosaic.ValueIdx

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold iterated sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f,
    Fintype.sum_prod_type]
  refine Finset.sum_congr rfl fun a _ => ?_
  rw [Fintype.sum_prod_type]
  refine Finset.sum_congr rfl fun b _ => ?_
  rw [Fintype.sum_prod_type]
  rfl

/-- A sum over `Fin (h + h)` is the sum over the first half plus the sum over the second half, the two halves'
    members written by their values. -/
theorem sum_fin_halves {M : Type*} [AddCommMonoid M] (h : ℕ) (g : Fin (h + h) → M) :
    ∑ c, g c = (∑ c : Fin h, g ⟨c.val, by have := c.isLt; omega⟩)
      + ∑ c : Fin h, g ⟨h + c.val, by have := c.isLt; omega⟩ := by
  rw [Fin.sum_univ_add]
  rfl

/-- THE SPLIT: with H = h + h, the sum over [B, 1, H, w] is, image by image, the sum over the first half of the rows
    plus the sum over the second half. -/
theorem sum_halves {M : Type*} [AddCommMonoid M] (B h H w : ℕ) (hH : H = h + h)
    (f : (⟨4, ![B, 1, H, w]⟩ : Shape).Idx → M) :
    ∑ i, f i = ∑ j : (⟨4, ![B, 1, 1, 1]⟩ : Shape).Idx,
        ((∑ y : (⟨4, ![1, 1, h, w]⟩ : Shape).Idx,
            f (ix4 ⟨(j 0).val, (j 0).isLt⟩ ⟨0, Nat.one_pos⟩
              ⟨(y 2).val, by have := (y 2).isLt; simp only [Matrix.cons_val] at this; omega⟩
              ⟨(y 3).val, (y 3).isLt⟩))
       + (∑ y : (⟨4, ![1, 1, h, w]⟩ : Shape).Idx,
            f (ix4 ⟨(j 0).val, (j 0).isLt⟩ ⟨0, Nat.one_pos⟩
              ⟨h + (y 2).val, by have := (y 2).isLt; simp only [Matrix.cons_val] at this; omega⟩
              ⟨(y 3).val, (y 3).isLt⟩))) := by
  subst hH
  rw [sum_idx4 f, sum_idx4]
  refine Finset.sum_congr rfl fun a _ => ?_
  rw [Fin.sum_univ_one, Fin.sum_univ_one, Fin.sum_univ_one, Fin.sum_univ_one]
  rw [sum_fin_halves, sum_idx4, sum_idx4]
  rw [Fin.sum_univ_one, Fin.sum_univ_one, Fin.sum_univ_one, Fin.sum_univ_one]
  rfl

/-- The same with each image's pair of sums started from zero. -/
theorem sum_halves_zero {M : Type*} [AddCommMonoid M] (B h H w : ℕ) (hH : H = h + h)
    (f : (⟨4, ![B, 1, H, w]⟩ : Shape).Idx → M) :
    ∑ i, f i = ∑ j : (⟨4, ![B, 1, 1, 1]⟩ : Shape).Idx,
        ((0 + ∑ y : (⟨4, ![1, 1, h, w]⟩ : Shape).Idx,
            f (ix4 ⟨(j 0).val, (j 0).isLt⟩ ⟨0, Nat.one_pos⟩
              ⟨(y 2).val, by have := (y 2).isLt; simp only [Matrix.cons_val] at this; omega⟩
              ⟨(y 3).val, (y 3).isLt⟩))
       + (∑ y : (⟨4, ![1, 1, h, w]⟩ : Shape).Idx,
            f (ix4 ⟨(j 0).val, (j 0).isLt⟩ ⟨0, Nat.one_pos⟩
              ⟨h + (y 2).val, by have := (y 2).isLt; simp only [Matrix.cons_val] at this; omega⟩
              ⟨(y 3).val, (y 3).isLt⟩))) := by
  refine (sum_halves B h H w hH f).trans ?_
  refine Finset.sum_congr rfl fun j _ => ?_
  rw [zero_add]

end Cert.HalfSum

end
-- ==== Proof.KValue.lean ====
/-
  The values the kernel program ends with, on the extended reals.

  A grid point t = 2b + h is half-image h of image b: its block of an image array is rows 384h … 384h + 383 of image b.
  Point by point the body writes back the threshold map and the weight map of its blocks; both maps are pointwise, so the
  written blocks are the blocks of the whole-array maps, and since the sixteen blocks tile the arrays the two output
  arrays end as the whole-array maps. The loss window has one entry per image, written back after the image's second
  half-image, when the running loss is (0 + the first half's sum) + the second half's sum of the per-pixel terms. The last
  host lines add the eight entries from zero and divide by the word of 3072: by the split of a sum over the batch into its
  sixteen half-images this is the specification's loss.
-/
import proofs.«172051_j19585050870000_2_alg».proof.Proof.KOuts
import proofs.«172051_j19585050870000_2_alg».proof.Proof.KPay
import proofs.«172051_j19585050870000_2_alg».proof.Proof.KHost
import proofs.«172051_j19585050870000_2_alg».proof.Proof.LibHalfSum
import proofs.«172051_j19585050870000_2_alg».proof.Proof.Spec
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mi : (ℓ : Loc nD τ sig) → Buf (Elt Ideal) ℓ)

set_option maxHeartbeats 400000

/-! ## Where a point's blocks sit -/

/-- The printed index maps over the grid: the seven full-size windows move together, block (t / 2, 0, t % 2, 0); the loss
    window's block is (t / 2, 0, 0, 0). -/
theorem idx_facts : ∀ t : Fin cfg0.N, (win0_0.index t (0 : Fin 4) = t.val / 2 ∧ win0_0.index t (1 : Fin 4) = 0 ∧ win0_0.index t (2 : Fin 4) = t.val % 2 ∧ win0_0.index t (3 : Fin 4) = 0)
    ∧ (win0_1.index t (0 : Fin 4) = t.val / 2 ∧ win0_1.index t (1 : Fin 4) = 0 ∧ win0_1.index t (2 : Fin 4) = t.val % 2 ∧ win0_1.index t (3 : Fin 4) = 0)
    ∧ (win0_2.index t (0 : Fin 4) = t.val / 2 ∧ win0_2.index t (1 : Fin 4) = 0 ∧ win0_2.index t (2 : Fin 4) = t.val % 2 ∧ win0_2.index t (3 : Fin 4) = 0)
    ∧ (win0_3.index t (0 : Fin 4) = t.val / 2 ∧ win0_3.index t (1 : Fin 4) = 0 ∧ win0_3.index t (2 : Fin 4) = t.val % 2 ∧ win0_3.index t (3 : Fin 4) = 0)
    ∧ (win0_4.index t (0 : Fin 4) = t.val / 2 ∧ win0_4.index t (1 : Fin 4) = 0 ∧ win0_4.index t (2 : Fin 4) = t.val % 2 ∧ win0_4.index t (3 : Fin 4) = 0)
    ∧ (win0_5.index t (0 : Fin 4) = t.val / 2 ∧ win0_5.index t (1 : Fin 4) = 0 ∧ win0_5.index t (2 : Fin 4) = t.val % 2 ∧ win0_5.index t (3 : Fin 4) = 0)
    ∧ (win0_6.index t (0 : Fin 4) = t.val / 2 ∧ win0_6.index t (1 : Fin 4) = 0 ∧ win0_6.index t (2 : Fin 4) = t.val % 2 ∧ win0_6.index t (3 : Fin 4) = 0)
    ∧ (win0_7.index t (0 : Fin 4) = t.val / 2 ∧ win0_7.index t (1 : Fin 4) = 0 ∧ win0_7.index t (2 : Fin 4) = 0 ∧ win0_7.index t (3 : Fin 4) = 0) :=
  (by decide +kernel : ∀ t : Fin grid0.N, _)

/-- The pixel of the batch that index `j` of point `t`'s block is. -/
def pix (t : Fin cfg0.N) (j : S1x1x384x1024.Idx) : S8x1x768x1024.Idx :=
  ix4 (⟨t.val / 2, by have := t.isLt; have hN : cfg0.N = 16 := N_0; omega⟩ : Fin 8) (⟨0, Nat.one_pos⟩ : Fin 1)
    (⟨(t.val % 2) * 384 + (j 2).val, by have h2 : (j 2).val < 384 := (j 2).isLt; omega⟩ : Fin 768)
    (⟨(j 3).val, (j 3).isLt⟩ : Fin 1024)

theorem emb0 (t : Fin cfg0.N) (j : S1x1x384x1024.Idx) : ((cfg0.win 0).blk t).view.emb j = pix t j := by
  obtain ⟨e0, e1, e2, e3⟩ := (idx_facts t).1
  funext a; apply Fin.ext
  have hN : t.val < 16 := lt_of_lt_of_eq t.isLt (show cfg0.N = 16 from N_0)
  match a with
  | ⟨0, _⟩ => show win0_0.index t (0 : Fin 4) * 1 + 1 * (j 0).val = t.val / 2; have hj : (j 0).val < 1 := (j 0).isLt; omega
  | ⟨1, _⟩ => show win0_0.index t (1 : Fin 4) * 1 + 1 * (j 1).val = 0; have hj : (j 1).val < 1 := (j 1).isLt; omega
  | ⟨2, _⟩ => show win0_0.index t (2 : Fin 4) * 384 + 1 * (j 2).val = (t.val % 2) * 384 + (j 2).val; omega
  | ⟨3, _⟩ => show win0_0.index t (3 : Fin 4) * 1024 + 1 * (j 3).val = (j 3).val; omega

theorem emb1 (t : Fin cfg0.N) (j : S1x1x384x1024.Idx) : ((cfg0.win 1).blk t).view.emb j = pix t j := by
  obtain ⟨e0, e1, e2, e3⟩ := (idx_facts t).2.1
  funext a; apply Fin.ext
  have hN : t.val < 16 := lt_of_lt_of_eq t.isLt (show cfg0.N = 16 from N_0)
  match a with
  | ⟨0, _⟩ => show win0_1.index t (0 : Fin 4) * 1 + 1 * (j 0).val = t.val / 2; have hj : (j 0).val < 1 := (j 0).isLt; omega
  | ⟨1, _⟩ => show win0_1.index t (1 : Fin 4) * 1 + 1 * (j 1).val = 0; have hj : (j 1).val < 1 := (j 1).isLt; omega
  | ⟨2, _⟩ => show win0_1.index t (2 : Fin 4) * 384 + 1 * (j 2).val = (t.val % 2) * 384 + (j 2).val; omega
  | ⟨3, _⟩ => show win0_1.index t (3 : Fin 4) * 1024 + 1 * (j 3).val = (j 3).val; omega

theorem emb2 (t : Fin cfg0.N) (j : S1x1x384x1024.Idx) : ((cfg0.win 2).blk t).view.emb j = pix t j := by
  obtain ⟨e0, e1, e2, e3⟩ := (idx_facts t).2.2.1
  funext a; apply Fin.ext
  have hN : t.val < 16 := lt_of_lt_of_eq t.isLt (show cfg0.N = 16 from N_0)
  match a with
  | ⟨0, _⟩ => show win0_2.index t (0 : Fin 4) * 1 + 1 * (j 0).val = t.val / 2; have hj : (j 0).val < 1 := (j 0).isLt; omega
  | ⟨1, _⟩ => show win0_2.index t (1 : Fin 4) * 1 + 1 * (j 1).val = 0; have hj : (j 1).val < 1 := (j 1).isLt; omega
  | ⟨2, _⟩ => show win0_2.index t (2 : Fin 4) * 384 + 1 * (j 2).val = (t.val % 2) * 384 + (j 2).val; omega
  | ⟨3, _⟩ => show win0_2.index t (3 : Fin 4) * 1024 + 1 * (j 3).val = (j 3).val; omega

theorem emb3 (t : Fin cfg0.N) (j : S1x1x384x1024.Idx) : ((cfg0.win 3).blk t).view.emb j = pix t j := by
  obtain ⟨e0, e1, e2, e3⟩ := (idx_facts t).2.2.2.1
  funext a; apply Fin.ext
  have hN : t.val < 16 := lt_of_lt_of_eq t.isLt (show cfg0.N = 16 from N_0)
  match a with
  | ⟨0, _⟩ => show win0_3.index t (0 : Fin 4) * 1 + 1 * (j 0).val = t.val / 2; have hj : (j 0).val < 1 := (j 0).isLt; omega
  | ⟨1, _⟩ => show win0_3.index t (1 : Fin 4) * 1 + 1 * (j 1).val = 0; have hj : (j 1).val < 1 := (j 1).isLt; omega
  | ⟨2, _⟩ => show win0_3.index t (2 : Fin 4) * 384 + 1 * (j 2).val = (t.val % 2) * 384 + (j 2).val; omega
  | ⟨3, _⟩ => show win0_3.index t (3 : Fin 4) * 1024 + 1 * (j 3).val = (j 3).val; omega

theorem emb4 (t : Fin cfg0.N) (j : S1x1x384x1024.Idx) : ((cfg0.win 4).blk t).view.emb j = pix t j := by
  obtain ⟨e0, e1, e2, e3⟩ := (idx_facts t).2.2.2.2.1
  funext a; apply Fin.ext
  have hN : t.val < 16 := lt_of_lt_of_eq t.isLt (show cfg0.N = 16 from N_0)
  match a with
  | ⟨0, _⟩ => show win0_4.index t (0 : Fin 4) * 1 + 1 * (j 0).val = t.val / 2; have hj : (j 0).val < 1 := (j 0).isLt; omega
  | ⟨1, _⟩ => show win0_4.index t (1 : Fin 4) * 1 + 1 * (j 1).val = 0; have hj : (j 1).val < 1 := (j 1).isLt; omega
  | ⟨2, _⟩ => show win0_4.index t (2 : Fin 4) * 384 + 1 * (j 2).val = (t.val % 2) * 384 + (j 2).val; omega
  | ⟨3, _⟩ => show win0_4.index t (3 : Fin 4) * 1024 + 1 * (j 3).val = (j 3).val; omega

theorem emb5 (t : Fin cfg0.N) (j : S1x1x384x1024.Idx) : ((cfg0.win 5).blk t).view.emb j = pix t j := by
  obtain ⟨e0, e1, e2, e3⟩ := (idx_facts t).2.2.2.2.2.1
  funext a; apply Fin.ext
  have hN : t.val < 16 := lt_of_lt_of_eq t.isLt (show cfg0.N = 16 from N_0)
  match a with
  | ⟨0, _⟩ => show win0_5.index t (0 : Fin 4) * 1 + 1 * (j 0).val = t.val / 2; have hj : (j 0).val < 1 := (j 0).isLt; omega
  | ⟨1, _⟩ => show win0_5.index t (1 : Fin 4) * 1 + 1 * (j 1).val = 0; have hj : (j 1).val < 1 := (j 1).isLt; omega
  | ⟨2, _⟩ => show win0_5.index t (2 : Fin 4) * 384 + 1 * (j 2).val = (t.val % 2) * 384 + (j 2).val; omega
  | ⟨3, _⟩ => show win0_5.index t (3 : Fin 4) * 1024 + 1 * (j 3).val = (j 3).val; omega

theorem emb6 (t : Fin cfg0.N) (j : S1x1x384x1024.Idx) : ((cfg0.win 6).blk t).view.emb j = pix t j := by
  obtain ⟨e0, e1, e2, e3⟩ := (idx_facts t).2.2.2.2.2.2.1
  funext a; apply Fin.ext
  have hN : t.val < 16 := lt_of_lt_of_eq t.isLt (show cfg0.N = 16 from N_0)
  match a with
  | ⟨0, _⟩ => show win0_6.index t (0 : Fin 4) * 1 + 1 * (j 0).val = t.val / 2; have hj : (j 0).val < 1 := (j 0).isLt; omega
  | ⟨1, _⟩ => show win0_6.index t (1 : Fin 4) * 1 + 1 * (j 1).val = 0; have hj : (j 1).val < 1 := (j 1).isLt; omega
  | ⟨2, _⟩ => show win0_6.index t (2 : Fin 4) * 384 + 1 * (j 2).val = (t.val % 2) * 384 + (j 2).val; omega
  | ⟨3, _⟩ => show win0_6.index t (3 : Fin 4) * 1024 + 1 * (j 3).val = (j 3).val; omega

/-- A block of window 0 read off any array: the array at the block's pixels. -/
theorem read_blk0 (t : Fin cfg0.N) (G : FVec Ideal S8x1x768x1024 .f32) (j : S1x1x384x1024.Idx) :
    ((cfg0.win 0).blk t).view.read (Elt Ideal) G j = G (pix t j) := by
  rw [View.read_apply]
  show G (((cfg0.win 0).blk t).view.emb j) = _
  rw [emb0]

/-- A block of window 1 read off any array: the array at the block's pixels. -/
theorem read_blk1 (t : Fin cfg0.N) (G : FVec Ideal S8x1x768x1024 .f32) (j : S1x1x384x1024.Idx) :
    ((cfg0.win 1).blk t).view.read (Elt Ideal) G j = G (pix t j) := by
  rw [View.read_apply]
  show G (((cfg0.win 1).blk t).view.emb j) = _
  rw [emb1]

/-- A block of window 2 read off any array: the array at the block's pixels. -/
theorem read_blk2 (t : Fin cfg0.N) (G : FVec Ideal S8x1x768x1024 .f32) (j : S1x1x384x1024.Idx) :
    ((cfg0.win 2).blk t).view.read (Elt Ideal) G j = G (pix t j) := by
  rw [View.read_apply]
  show G (((cfg0.win 2).blk t).view.emb j) = _
  rw [emb2]

/-- A block of window 3 read off any array: the array at the block's pixels. -/
theorem read_blk3 (t : Fin cfg0.N) (G : FVec Ideal S8x1x768x1024 .f32) (j : S1x1x384x1024.Idx) :
    ((cfg0.win 3).blk t).view.read (Elt Ideal) G j = G (pix t j) := by
  rw [View.read_apply]
  show G (((cfg0.win 3).blk t).view.emb j) = _
  rw [emb3]

/-- A block of window 4 read off any array: the array at the block's pixels. -/
theorem read_blk4 (t : Fin cfg0.N) (G : FVec Ideal S8x1x768x1024 .f32) (j : S1x1x384x1024.Idx) :
    ((cfg0.win 4).blk t).view.read (Elt Ideal) G j = G (pix t j) := by
  rw [View.read_apply]
  show G (((cfg0.win 4).blk t).view.emb j) = _
  rw [emb4]

/-- A block of window 5 read off any array: the array at the block's pixels. -/
theorem read_blk5 (t : Fin cfg0.N) (G : FVec Ideal S8x1x768x1024 .f32) (j : S1x1x384x1024.Idx) :
    ((cfg0.win 5).blk t).view.read (Elt Ideal) G j = G (pix t j) := by
  rw [View.read_apply]
  show G (((cfg0.win 5).blk t).view.emb j) = _
  rw [emb5]

/-- A block of window 6 read off any array: the array at the block's pixels. -/
theorem read_blk6 (t : Fin cfg0.N) (G : FVec Ideal S8x1x768x1024 .f32) (j : S1x1x384x1024.Idx) :
    ((cfg0.win 6).blk t).view.read (Elt Ideal) G j = G (pix t j) := by
  rw [View.read_apply]
  show G (((cfg0.win 6).blk t).view.emb j) = _
  rw [emb6]

/-- Input window 0's block at a point: its array, as the region finds it, at the block's pixels. -/
theorem iblk0_apply (c : Dev nD) (t : Fin cfg0.N) (j : S1x1x384x1024.Idx) : iblk mi c 0 t j = V mi c main_arg1 (pix t j) :=
  read_blk0 t (V mi c main_arg1) j

/-- Input window 1's block at a point: its array, as the region finds it, at the block's pixels. -/
theorem iblk1_apply (c : Dev nD) (t : Fin cfg0.N) (j : S1x1x384x1024.Idx) : iblk mi c 1 t j = V mi c main_v41 (pix t j) :=
  read_blk1 t (V mi c main_v41) j

/-- Input window 2's block at a point: its array, as the region finds it, at the block's pixels. -/
theorem iblk2_apply (c : Dev nD) (t : Fin cfg0.N) (j : S1x1x384x1024.Idx) : iblk mi c 2 t j = V mi c main_v47 (pix t j) :=
  read_blk2 t (V mi c main_v47) j

/-- Input window 3's block at a point: its array, as the region finds it, at the block's pixels. -/
theorem iblk3_apply (c : Dev nD) (t : Fin cfg0.N) (j : S1x1x384x1024.Idx) : iblk mi c 3 t j = V mi c main_v53 (pix t j) :=
  read_blk3 t (V mi c main_v53) j

/-- Input window 4's block at a point: its array, as the region finds it, at the block's pixels. -/
theorem iblk4_apply (c : Dev nD) (t : Fin cfg0.N) (j : S1x1x384x1024.Idx) : iblk mi c 4 t j = V mi c main_arg0 (pix t j) :=
  read_blk4 t (V mi c main_arg0) j

/-! ## Pointwise maps of blocks are blocks of the pointwise maps

Stated over any two shapes and any index map between them: if each block is its array read along the index map, then the
threshold map, the weight map and the loss term of the blocks are those of the arrays read along the same map.  The
constants stay words: only the blocks are rewritten. -/

theorem thr_block {S T : Shape} (X2 X0 : FVec Ideal S .f32) (G2 G0 : FVec Ideal T .f32) (e : S.Idx → T.Idx)
    (h2 : ∀ j, X2 j = G2 (e j)) (h0 : ∀ j, X0 j = G0 (e j)) :
    Cert.BoxLoss.thr X2 X0 = fun j => Cert.BoxLoss.thr G2 G0 (e j) := by
  funext j
  unfold Cert.BoxLoss.thr
  rw [h2 j, h0 j]

theorem allw_block {S T : Shape} (X3 X2 X0 X1 : FVec Ideal S .f32) (G3 G2 G0 G1 : FVec Ideal T .f32) (e : S.Idx → T.Idx)
    (h3 : ∀ j, X3 j = G3 (e j)) (h2 : ∀ j, X2 j = G2 (e j)) (h0 : ∀ j, X0 j = G0 (e j)) (h1 : ∀ j, X1 j = G1 (e j)) :
    Cert.BoxLoss.allw X3 X2 X0 X1 = fun j => Cert.BoxLoss.allw G3 G2 G0 G1 (e j) := by
  funext j
  unfold Cert.BoxLoss.allw
  rw [h3 j, h2 j, h0 j, h1 j]

theorem term_block {S T : Shape} (X1 X4 X0 : FVec Ideal S .f32) (G1 G4 G0 : FVec Ideal T .f32) (e : S.Idx → T.Idx)
    (h1 : ∀ j, X1 j = G1 (e j)) (h4 : ∀ j, X4 j = G4 (e j)) (h0 : ∀ j, X0 j = G0 (e j)) (j : S.Idx) :
    Cert.BoxLoss.term X1 X4 X0 j = Cert.BoxLoss.term G1 G4 G0 (e j) := by
  unfold Cert.BoxLoss.term
  rw [h1 j, h4 j, h0 j]

/-! ## The threshold map and the weight map -/

/-- What a point writes back into the threshold array is its block of the whole-array threshold map. -/
theorem flushed5_eq (c : Dev nD) (t : Fin cfg0.N) :
    (dats mi 0 c).flushed 5 t = ((cfg0.win 5).blk t).view.read (Elt Ideal)
      (Cert.BoxLoss.thr (S := S8x1x768x1024) (V mi c main_v47) (V mi c main_arg1)) := by
  show (cfg0.win 5).cut (grid0.coords t) ((dats mi 0 c).after 5 t) = _
  rw [after0_5, out5_at, Cert.KernelIdeal.KPay.pay5_eq (iblk mi c 0 t) (iblk mi c 2 t),
    thr_block (S := S1x1x384x1024) (T := S8x1x768x1024) (iblk mi c 2 t) (iblk mi c 0 t) (V mi c main_v47) (V mi c main_arg1) (pix t)
      (iblk2_apply mi c t) (iblk0_apply mi c t)]
  generalize Cert.BoxLoss.thr (S := S8x1x768x1024) (V mi c main_v47) (V mi c main_arg1) = G
  funext j
  exact (read_blk5 t G j).symm

/-- The same for the weight array. -/
theorem flushed6_eq (c : Dev nD) (t : Fin cfg0.N) :
    (dats mi 0 c).flushed 6 t = ((cfg0.win 6).blk t).view.read (Elt Ideal)
      (Cert.BoxLoss.allw (S := S8x1x768x1024) (V mi c main_v53) (V mi c main_v47) (V mi c main_arg1) (V mi c main_v41)) := by
  show (cfg0.win 6).cut (grid0.coords t) ((dats mi 0 c).after 6 t) = _
  rw [after0_6, out6_at, Cert.KernelIdeal.KPay.pay6_eq (iblk mi c 0 t) (iblk mi c 1 t) (iblk mi c 2 t) (iblk mi c 3 t),
    allw_block (S := S1x1x384x1024) (T := S8x1x768x1024) (iblk mi c 3 t) (iblk mi c 2 t) (iblk mi c 0 t) (iblk mi c 1 t)
      (V mi c main_v53) (V mi c main_v47) (V mi c main_arg1) (V mi c main_v41) (pix t)
      (iblk3_apply mi c t) (iblk2_apply mi c t) (iblk0_apply mi c t) (iblk1_apply mi c t)]
  generalize Cert.BoxLoss.allw (S := S8x1x768x1024) (V mi c main_v53) (V mi c main_v47) (V mi c main_arg1) (V mi c main_v41) = G
  funext j
  exact (read_blk6 t G j).symm

/-- A pixel is in point `t`'s block of the window when each coordinate is in the block's range. -/
theorem mem_blk5 (t : Fin cfg0.N) (i : S8x1x768x1024.Idx) :
    i ∈ ((cfg0.win 5).blk t).view.set ↔ ∀ a : Fin 4, win0_5.index t a * S1x1x384x1024.size a ≤ (i a).val ∧ (i a).val < win0_5.index t a * S1x1x384x1024.size a + S1x1x384x1024.size a := by
  show i ∈ ((View.whole main_v54_0).slice (win0_5.rect t)).set ↔ _
  rw [View.set_slice_whole, Rect.mem_set_unit]
  exact Iff.rfl

/-- Every pixel is in the block of the point of its image and half-image, and that point writes the block back. -/
theorem cover5 (i : S8x1x768x1024.Idx) : ∃ t : Fin cfg0.N, (cfg0.win 5).flush t = true ∧ i ∈ ((cfg0.win 5).blk t).view.set := by
  have b0 : (i 0).val < 8 := (i 0).isLt
  have b1 : (i 1).val < 1 := (i 1).isLt
  have b2 : (i 2).val < 768 := (i 2).isLt
  have b3 : (i 3).val < 1024 := (i 3).isLt
  have hN : cfg0.N = 16 := N_0
  obtain ⟨t, ht⟩ : ∃ t : Fin cfg0.N, t.val = 2 * (i 0).val + (i 2).val / 384 := ⟨⟨2 * (i 0).val + (i 2).val / 384, by omega⟩, rfl⟩
  obtain ⟨e0, e1, e2, e3⟩ := (idx_facts t).2.2.2.2.2.1
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 384 ≤ (i 2).val ∧ (i 2).val < win0_5.index t (2 : Fin 4) * 384 + 384; omega
  | ⟨3, _⟩ => show win0_5.index t (3 : Fin 4) * 1024 ≤ (i 3).val ∧ (i 3).val < win0_5.index t (3 : Fin 4) * 1024 + 1024; omega

/-- A pixel is in point `t`'s block of the window when each coordinate is in the block's range. -/
theorem mem_blk6 (t : Fin cfg0.N) (i : S8x1x768x1024.Idx) :
    i ∈ ((cfg0.win 6).blk t).view.set ↔ ∀ a : Fin 4, win0_6.index t a * S1x1x384x1024.size a ≤ (i a).val ∧ (i a).val < win0_6.index t a * S1x1x384x1024.size a + S1x1x384x1024.size a := by
  show i ∈ ((View.whole main_v54_1).slice (win0_6.rect t)).set ↔ _
  rw [View.set_slice_whole, Rect.mem_set_unit]
  exact Iff.rfl

/-- Every pixel is in the block of the point of its image and half-image, and that point writes the block back. -/
theorem cover6 (i : S8x1x768x1024.Idx) : ∃ t : Fin cfg0.N, (cfg0.win 6).flush t = true ∧ i ∈ ((cfg0.win 6).blk t).view.set := by
  have b0 : (i 0).val < 8 := (i 0).isLt
  have b1 : (i 1).val < 1 := (i 1).isLt
  have b2 : (i 2).val < 768 := (i 2).isLt
  have b3 : (i 3).val < 1024 := (i 3).isLt
  have hN : cfg0.N = 16 := N_0
  obtain ⟨t, ht⟩ : ∃ t : Fin cfg0.N, t.val = 2 * (i 0).val + (i 2).val / 384 := ⟨⟨2 * (i 0).val + (i 2).val / 384, by omega⟩, rfl⟩
  obtain ⟨e0, e1, e2, e3⟩ := (idx_facts t).2.2.2.2.2.2.1
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 384 ≤ (i 2).val ∧ (i 2).val < win0_6.index t (2 : Fin 4) * 384 + 384; omega
  | ⟨3, _⟩ => show win0_6.index t (3 : Fin 4) * 1024 ≤ (i 3).val ∧ (i 3).val < win0_6.index t (3 : Fin 4) * 1024 + 1024; omega

/-- The threshold array after the run. -/
theorem final5 (c : Dev nD) : (dats mi 0 c).arrAt 5 cfg0.N = Cert.BoxLoss.thr (S := S8x1x768x1024) (V mi c main_v47) (V mi c main_arg1) :=
  (dats mi 0 c).arrAt_eq_of_cover 5 _ (fun t _ => flushed5_eq mi c t) cover5

/-- The weight array after the run. -/
theorem final6 (c : Dev nD) : (dats mi 0 c).arrAt 6 cfg0.N
    = Cert.BoxLoss.allw (S := S8x1x768x1024) (V mi c main_v53) (V mi c main_v47) (V mi c main_arg1) (V mi c main_v41) :=
  (dats mi 0 c).arrAt_eq_of_cover 6 _ (fun t _ => flushed6_eq mi c t) cover6

end Cert.KernelIdeal.Hand

end
-- ==== Proof.KLoss.lean ====
/-
  The loss the kernel program ends with.

  The running loss after an image's second half-image is (0 + S₀) + S₁, with Sₕ the sum of the per-pixel terms
  |instw·(binar − gt)| over half-image h's block. That is what the loss window writes back, one entry per image. The
  last host lines add the eight entries from zero and divide by the word of 3072. A block's pixels are the pixels of the
  batch with the block's image and rows, so the eight entries together run over every pixel of the batch exactly once,
  and the total is the specification's one sum.
-/
import proofs.«172051_j19585050870000_2_alg».proof.Proof.KValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mi : (ℓ : Loc nD τ sig) → Buf (Elt Ideal) ℓ)

set_option maxHeartbeats 400000

/-- The sum of the per-pixel terms over point `t`'s block. -/
def T (c : Dev nD) (t : Fin cfg0.N) : EReal :=
  ∑ y : S1x1x384x1024.Idx, Cert.BoxLoss.term (S := S1x1x384x1024) (iblk mi c 1 t) (iblk mi c 4 t) (iblk mi c 0 t) y

/-- After a first half-image the running loss is the block's sum, from zero. -/
theorem acc_even_val (c : Dev nD) (t : Fin cfg0.N) (h0 : t.val % 2 = 0) :
    (outsAt0 mi c t.val t.isLt).2.2.2 = fun _ => 0 + T mi c t := by
  rw [acc_even mi c t h0, Cert.KernelIdeal.KPay.pay1_eq (iblk mi c 0 t) (iblk mi c 1 t) (iblk mi c 4 t), Cert.KernelIdeal.KPay.pay2_eq]
  rfl

/-- After a second half-image it is what the first left plus the block's sum. -/
theorem acc_odd_val (c : Dev nD) (t : Fin cfg0.N) (h0 : ¬t.val % 2 = 0) :
    (outsAt0 mi c t.val t.isLt).2.2.2
      = fun j => (outsAt0 mi c (t.val - 1) (Nat.lt_of_le_of_lt (Nat.sub_le _ _) t.isLt)).2.2.2 j + T mi c t := by
  rw [acc_odd mi c t h0, Cert.KernelIdeal.KPay.pay1_eq (iblk mi c 0 t) (iblk mi c 1 t) (iblk mi c 4 t)]
  rfl

/-- A block's sum by the point's number, zero past the grid. -/
def Tn (c : Dev nD) (n : ℕ) : EReal := if h : n < cfg0.N then T mi c ⟨n, h⟩ else 0

/-- The loss window's array after the run: per image, (0 + the first half's sum) + the second half's sum. -/
def lossArr (c : Dev nD) : FVec Ideal S8x1x1x1 .f32 := fun j => (0 + Tn mi c (2 * (j 0).val)) + Tn mi c (2 * (j 0).val + 1)

/-- A block of the loss window read off any array: the array at the block's entry. -/
theorem read_blk7 (t : Fin cfg0.N) (G : FVec Ideal S8x1x1x1 .f32) (y : S1x1x1x1.Idx) :
    ((cfg0.win 7).blk t).view.read (Elt Ideal) G y = G (((cfg0.win 7).blk t).view.emb y) := by
  rw [View.read_apply]
  rfl

/-- The loss window's block at point `t` is image t / 2's entry. -/
theorem emb7_0 (t : Fin cfg0.N) (y : S1x1x1x1.Idx) : ((((cfg0.win 7).blk t).view.emb y) 0).val = t.val / 2 := by
  obtain ⟨e70, e71, e72, e73⟩ := (idx_facts t).2.2.2.2.2.2.2
  show win0_7.index t (0 : Fin 4) * 1 + 1 * (y 0).val = _
  have : (y 0).val < 1 := (y 0).isLt
  omega

/-- The array's entry for the image of an odd point: the two half-images' sums. -/
theorem lossArr_at (c : Dev nD) (t : Fin cfg0.N) (hodd : t.val % 2 = 1) (hlt : t.val - 1 < cfg0.N)
    (i : S8x1x1x1.Idx) (hi : (i 0).val = t.val / 2) :
    lossArr mi c i = (0 + T mi c ⟨t.val - 1, hlt⟩) + T mi c t := by
  have a1 : 2 * (t.val / 2) = t.val - 1 := by omega
  have a2 : 2 * (t.val / 2) + 1 = t.val := by omega
  unfold lossArr
  rw [hi, a2, a1]
  unfold Tn
  rw [dif_pos hlt, dif_pos t.isLt]

/-- What a second half-image writes back is its image's entry of that array. -/
theorem flushed7_eq (c : Dev nD) (t : Fin cfg0.N) (hf : (cfg0.win 7).flush t = true) :
    (dats mi 0 c).flushed 7 t = ((cfg0.win 7).blk t).view.read (Elt Ideal) (lossArr mi c) := by
  have hodd : t.val % 2 = 1 := (flush0_7 t).mp hf
  have h0 : ¬t.val % 2 = 0 := by omega
  have hlt : t.val - 1 < cfg0.N := Nat.lt_of_le_of_lt (Nat.sub_le _ _) t.isLt
  have hev : (⟨t.val - 1, hlt⟩ : Fin cfg0.N).val % 2 = 0 := by dsimp only; omega
  show (cfg0.win 7).cut (grid0.coords t) ((dats mi 0 c).after 7 t) = _
  rw [after0_7, out7_at, acc_odd_val mi c t h0]
  have e1 : (outsAt0 mi c (t.val - 1) hlt).2.2.2 = fun _ => 0 + T mi c ⟨t.val - 1, hlt⟩ :=
    acc_even_val mi c ⟨t.val - 1, hlt⟩ hev
  rw [e1]
  funext y
  rw [read_blk7 t (lossArr mi c) y, lossArr_at mi c t hodd hlt _ (emb7_0 t y)]

theorem mem_blk7 (t : Fin cfg0.N) (j : S8x1x1x1.Idx) :
    j ∈ ((cfg0.win 7).blk t).view.set ↔ ∀ a : Fin 4, win0_7.index t a * S1x1x1x1.size a ≤ (j a).val ∧ (j a).val < win0_7.index t a * S1x1x1x1.size a + S1x1x1x1.size a := by
  show j ∈ ((View.whole main_v54_2).slice (win0_7.rect t)).set ↔ _
  rw [View.set_slice_whole, Rect.mem_set_unit]
  exact Iff.rfl

/-- Each image's entry is written back by the image's second half-image. -/
theorem cover7 (j : S8x1x1x1.Idx) : ∃ t : Fin cfg0.N, (cfg0.win 7).flush t = true ∧ j ∈ ((cfg0.win 7).blk t).view.set := by
  have b0 : (j 0).val < 8 := (j 0).isLt
  have b1 : (j 1).val < 1 := (j 1).isLt
  have b2 : (j 2).val < 1 := (j 2).isLt
  have b3 : (j 3).val < 1 := (j 3).isLt
  have hN : cfg0.N = 16 := N_0
  obtain ⟨t, ht⟩ : ∃ t : Fin cfg0.N, t.val = 2 * (j 0).val + 1 := ⟨⟨2 * (j 0).val + 1, by omega⟩, rfl⟩
  obtain ⟨e0, e1, e2, e3⟩ := (idx_facts t).2.2.2.2.2.2.2
  refine ⟨t, (flush0_7 t).mpr (by omega), ?_⟩
  rw [mem_blk7]
  intro a
  match a with
  | ⟨0, _⟩ => show win0_7.index t (0 : Fin 4) * 1 ≤ (j 0).val ∧ (j 0).val < win0_7.index t (0 : Fin 4) * 1 + 1; omega
  | ⟨1, _⟩ => show win0_7.index t (1 : Fin 4) * 1 ≤ (j 1).val ∧ (j 1).val < win0_7.index t (1 : Fin 4) * 1 + 1; omega
  | ⟨2, _⟩ => show win0_7.index t (2 : Fin 4) * 1 ≤ (j 2).val ∧ (j 2).val < win0_7.index t (2 : Fin 4) * 1 + 1; omega
  | ⟨3, _⟩ => show win0_7.index t (3 : Fin 4) * 1 ≤ (j 3).val ∧ (j 3).val < win0_7.index t (3 : Fin 4) * 1 + 1; omega

/-- The loss window's array after the run. -/
theorem final7 (c : Dev nD) : (dats mi 0 c).arrAt 7 cfg0.N = lossArr mi c :=
  (dats mi 0 c).arrAt_eq_of_cover 7 _ (flushed7_eq mi c) cover7

/-! ## The eight entries together are the one sum over the batch -/

/-- A block's sum is the sum of the batch's terms at the block's pixels. -/
theorem T_eq (c : Dev nD) (t : Fin cfg0.N) :
    T mi c t = ∑ y : S1x1x384x1024.Idx,
      Cert.BoxLoss.term (S := S8x1x768x1024) (V mi c main_v41) (V mi c main_arg0) (V mi c main_arg1) (pix t y) := by
  unfold T
  exact Finset.sum_congr rfl fun y _ =>
    term_block (S := S1x1x384x1024) (T := S8x1x768x1024) (iblk mi c 1 t) (iblk mi c 4 t) (iblk mi c 0 t)
      (V mi c main_v41) (V mi c main_arg0) (V mi c main_arg1) (pix t) (iblk1_apply mi c t) (iblk4_apply mi c t) (iblk0_apply mi c t) y

/-- The pixels of an image's first half-image. -/
theorem pix_even (b : ℕ) (hb : 2 * b < cfg0.N) (hb8 : b < 8) (y : S1x1x384x1024.Idx) (h2 : (y 2).val < 768) :
    pix ⟨2 * b, hb⟩ y = ix4 (⟨b, hb8⟩ : Fin 8) (⟨0, Nat.one_pos⟩ : Fin 1) (⟨(y 2).val, h2⟩ : Fin 768) (⟨(y 3).val, (y 3).isLt⟩ : Fin 1024) := by
  funext a; apply Fin.ext
  match a with
  | ⟨0, _⟩ => show (2 * b) / 2 = b; omega
  | ⟨1, _⟩ => rfl
  | ⟨2, _⟩ => show (2 * b) % 2 * 384 + (y 2).val = (y 2).val; omega
  | ⟨3, _⟩ => rfl

/-- The pixels of its second half-image. -/
theorem pix_odd (b : ℕ) (hb : 2 * b + 1 < cfg0.N) (hb8 : b < 8) (y : S1x1x384x1024.Idx) (h2 : 384 + (y 2).val < 768) :
    pix ⟨2 * b + 1, hb⟩ y = ix4 (⟨b, hb8⟩ : Fin 8) (⟨0, Nat.one_pos⟩ : Fin 1) (⟨384 + (y 2).val, h2⟩ : Fin 768) (⟨(y 3).val, (y 3).isLt⟩ : Fin 1024) := by
  funext a; apply Fin.ext
  match a with
  | ⟨0, _⟩ => show (2 * b + 1) / 2 = b; omega
  | ⟨1, _⟩ => rfl
  | ⟨2, _⟩ => show (2 * b + 1) % 2 * 384 + (y 2).val = 384 + (y 2).val; omega
  | ⟨3, _⟩ => rfl

/-- Both half-images of every image are grid points. -/
theorem two_lt (j : S8x1x1x1.Idx) : 2 * (j 0).val + 1 < cfg0.N := by
  have hj : (j 0).val < 8 := (j 0).isLt
  have hN : cfg0.N = 16 := N_0
  omega

/-- A sum over every pixel of the batch, image by image and half-image by half-image, for ANY function of the pixel. -/
theorem halves_pix (f : S8x1x768x1024.Idx → EReal) :
    ∑ i, f i = ∑ j : S8x1x1x1.Idx,
      ((0 + ∑ y : S1x1x384x1024.Idx, f (pix ⟨2 * (j 0).val, Nat.lt_of_succ_lt (two_lt j)⟩ y))
        + ∑ y : S1x1x384x1024.Idx, f (pix ⟨2 * (j 0).val + 1, two_lt j⟩ y)) := by
  refine (Cert.HalfSum.sum_halves_zero 8 384 768 1024 rfl f).trans (Finset.sum_congr rfl fun j _ => ?_)
  have hj : (j 0).val < 8 := (j 0).isLt
  refine congrArg₂ (fun a b : EReal => a + b)
    (congrArg (fun a : EReal => 0 + a) (Finset.sum_congr rfl fun y _ => congrArg f ?_))
    (Finset.sum_congr rfl fun y _ => congrArg f ?_)
  · exact (pix_even (j 0).val (Nat.lt_of_succ_lt (two_lt j)) hj y _).symm
  · exact (pix_odd (j 0).val (two_lt j) hj y _).symm

/-- The eight entries add up to the sum of the terms over every pixel of the batch. -/
theorem loss_sum (c : Dev nD) :
    ∑ j : S8x1x1x1.Idx, lossArr mi c j
      = ∑ i : S8x1x768x1024.Idx, Cert.BoxLoss.term (S := S8x1x768x1024) (V mi c main_v41) (V mi c main_arg0) (V mi c main_arg1) i := by
  refine ((halves_pix (Cert.BoxLoss.term (S := S8x1x768x1024) (V mi c main_v41) (V mi c main_arg0) (V mi c main_arg1))).trans
    (Finset.sum_congr rfl fun j _ => ?_)).symm
  unfold lossArr Tn
  rw [dif_pos (Nat.lt_of_succ_lt (two_lt j)), dif_pos (two_lt j), T_eq, T_eq]

/-! ## The loss -/

/-- The last host lines on ANY array of eight partial losses: their sum from the zero word, divided by the word of 3072. -/
theorem tail_total (L : FVec Ideal S8x1x1x1 .f32) :
    Host.divf (F := Ideal) (Host.reduceAdd (F := Ideal) L (constant (F := Ideal) S_ .f32 0x00000000#32) reducesTo_S8x1x1x1_S_d0_1_2_3 h_S_)
        (constant (F := Ideal) S_ .f32 0x45400000#32)
      = fun _ => Ideal.div (Ideal.ofBits .f32 0x00000000#32 + ∑ j : S8x1x1x1.Idx, L j) (Ideal.ofBits .f32 0x45400000#32) := by
  funext k
  show Ideal.div (Ideal.hostReduceAdd reducesTo_S8x1x1x1_S_d0_1_2_3 L (Ideal.ofBits .f32 0x00000000#32) k) (Ideal.ofBits .f32 0x45400000#32) = _
  rw [Ideal.hostReduceAdd_total reducesTo_S8x1x1x1_S_d0_1_2_3 (fun b => b.elim0) L _ k]

/-- The scalar the last host lines leave is the specification's loss of the region-entry arrays. -/
theorem final_loss (c : Dev nD) :
    (Pipeline.afterTail₀ cfgs (dats mi) 0 (V0 mi) [hostOps1] c main_v56 : FVec Ideal S_ .f32)
      = fun _ => Cert.BoxLoss.loss (S := S8x1x768x1024) (V mi c main_v41) (V mi c main_arg0) (V mi c main_arg1) := by
  rw [tail_v56 mi (dats mi) c, final7, tail_total, loss_sum]
  rfl

end Cert.KernelIdeal.Hand

end
-- ==== Proof.KRead.lean ====
/-
  The kernel program's run, with its four results as functions of the four argument arrays.

  The region finds the two image arrays as launched and the three computed arrays (the scattered instance weights and the
  two dilations) as the first host lines' compositions of the arguments. So the run ends with the loss scalar, the
  dilated mask, the threshold map and the weight map each the specification's function of those compositions, and with
  the arguments as launched.
-/
import proofs.«172051_j19585050870000_2_alg».proof.Proof.KLoss

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mi : (ℓ : Loc nD τ sig) → Buf (Elt Ideal) ℓ)

set_option maxHeartbeats 4000000 in
theorem run_value (ρ : Dev nD → PrngReg) :
    θ_run defs (onTc (τ := τ) (main (F := Ideal))) ⟨mi, fun _ => 0, ρ⟩ fun r => ∀ c : Dev nD,
      r.2.mem ((c.tc : Thread nD τ).loc main_v56)
          = (fun _ => Cert.BoxLoss.loss (S := S8x1x768x1024) (instwT (F := Ideal) (mi ((c.tc : Thread nD τ).loc main_arg2)) (mi ((c.tc : Thread nD τ).loc main_arg3))) (mi ((c.tc : Thread nD τ).loc main_arg0)) (mi ((c.tc : Thread nD τ).loc main_arg1)))
      ∧ r.2.mem ((c.tc : Thread nD τ).loc main_v47) = (pool (F := Ideal) (mi ((c.tc : Thread nD τ).loc main_arg1)))
      ∧ r.2.mem ((c.tc : Thread nD τ).loc main_v54_0) = Cert.BoxLoss.thr (S := S8x1x768x1024) (pool (F := Ideal) (mi ((c.tc : Thread nD τ).loc main_arg1))) (mi ((c.tc : Thread nD τ).loc main_arg1))
      ∧ r.2.mem ((c.tc : Thread nD τ).loc main_v54_1)
          = Cert.BoxLoss.allw (S := S8x1x768x1024) (pool (F := Ideal) (instwT (F := Ideal) (mi ((c.tc : Thread nD τ).loc main_arg2)) (mi ((c.tc : Thread nD τ).loc main_arg3)))) (pool (F := Ideal) (mi ((c.tc : Thread nD τ).loc main_arg1))) (mi ((c.tc : Thread nD τ).loc main_arg1)) (instwT (F := Ideal) (mi ((c.tc : Thread nD τ).loc main_arg2)) (mi ((c.tc : Thread nD τ).loc main_arg3)))
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3) :=
  (θ_run defs _ _).mono (fun _ h c =>
    ⟨(((h c).2 main_v56 (Pipeline.mem_restRefs_of main_v56 (by decide) (by decide))).trans (final_loss mi c)).trans
        (by rw [V_main_v41 mi c, V_main_arg0 mi c, V_main_arg1 mi c]),
     ((h c).1 2).trans ((((dats mi 0 c).arrAt_in 2 rfl _).trans (A_eq mi c 2)).trans (V_main_v47 mi c)),
     (((h c).1 5).trans (final5 mi c)).trans (by rw [V_main_v47 mi c, V_main_arg1 mi c]),
     (((h c).1 6).trans (final6 mi c)).trans (by rw [V_main_v53 mi c, V_main_v47 mi c, V_main_arg1 mi c, V_main_v41 mi c]),
     ((h c).1 4).trans (((dats mi 0 c).arrAt_in 4 rfl _).trans ((A_eq mi c 4).trans (V_main_arg0 mi c))),
     ((h c).1 0).trans (((dats mi 0 c).arrAt_in 0 rfl _).trans ((A_eq mi c 0).trans (V_main_arg1 mi c))),
     ((h c).2 main_arg2 (Pipeline.mem_restRefs_of main_arg2 (by decide) (by decide))).trans (W_main_arg2 mi (dats mi) c),
     ((h c).2 main_arg3 (Pipeline.mem_restRefs_of main_arg3 (by decide) (by decide))).trans (W_main_arg3 mi (dats mi) c)⟩)
    (run_main mi ρ)

end Cert.KernelIdeal.Hand

end
-- ==== Proof.RefRunOps.lean ====
/-
  The reference function's host operations, in program order, as three consecutive lists.

  The function is a straight line of array operations with no kernel launch. Its first 51 operations build the
  instance-weight map: two integer corner arrays are broadcast against row and column offsets, wrapped into range where
  negative, stacked with an image index and a zero channel into one index array, and a fixed 15×11 table is scattered
  into a zero array at those indices. The next nine take the 9×9 stride-2 window maximum of the ground truth and
  upsample it twofold along both image axes (a broadcast into a new unit axis then a reshape, once per axis), and
  subtract the ground truth. The last 25 do the same pooling on the weight map and combine the pieces into the threshold
  map, the weight map and the loss.

  Each list is a consecutive stretch; the function is the three run one after another.
-/
import proofs.«172051_j19585050870000_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 51: the instance-weight map. -/
abbrev opsA : List (HloOp τ sig (Elt F)) :=
  [ StableHlo.nullary main_cst (fun i => FloatOps.ofBits .f32 (lit0 (S15x11.rowMajor i))),
    StableHlo.unary main_arg2 main_v0 (broadcastInDim S8x384x1x1 ![0, 1] bcast_S8x384_S8x384x1x1_0_1 : (⟨S8x384, .i32⟩ : BufTy).Contents (Elt F) → (⟨S8x384x1x1, .i32⟩ : BufTy).Contents (Elt F)),
    StableHlo.nullary main_v1 (iotaInDim S15 32 0),
    StableHlo.unary main_v1 main_v2 (broadcastInDim S1x1x15x1 ![2] bcast_S15_S1x1x15x1_2 : (⟨S15, .i32⟩ : BufTy).Contents (Elt F) → (⟨S1x1x15x1, .i32⟩ : BufTy).Contents (Elt F)),
    StableHlo.unary main_v0 main_v3 (broadcastInDim S8x384x15x1 ![0, 1, 2, 3] bcast_S8x384x1x1_S8x384x15x1_0_1_2_3 : (⟨S8x384x1x1, .i32⟩ : BufTy).Contents (Elt F) → (⟨S8x384x15x1, .i32⟩ : BufTy).Contents (Elt F)),
    StableHlo.unary main_v2 main_v4 (broadcastInDim S8x384x15x1 ![0, 1, 2, 3] bcast_S1x1x15x1_S8x384x15x1_0_1_2_3 : (⟨S1x1x15x1, .i32⟩ : BufTy).Contents (Elt F) → (⟨S8x384x15x1, .i32⟩ : BufTy).Contents (Elt F)),
    StableHlo.binary main_v3 main_v4 main_v5 (addi : (⟨S8x384x15x1, .i32⟩ : BufTy).Contents (Elt F) → (⟨S8x384x15x1, .i32⟩ : BufTy).Contents (Elt F) → (⟨S8x384x15x1, .i32⟩ : BufTy).Contents (Elt F)),
    StableHlo.unary main_arg3 main_v6 (broadcastInDim S8x384x1x1 ![0, 1] bcast_S8x384_S8x384x1x1_0_1 : (⟨S8x384, .i32⟩ : BufTy).Contents (Elt F) → (⟨S8x384x1x1, .i32⟩ : BufTy).Contents (Elt F)),
    StableHlo.nullary main_v7 (iotaInDim S11 32 0),
    StableHlo.unary main_v7 main_v8 (broadcastInDim S1x1x1x11 ![3] bcast_S11_S1x1x1x11_3 : (⟨S11, .i32⟩ : BufTy).Contents (Elt F) → (⟨S1x1x1x11, .i32⟩ : BufTy).Contents (Elt F)),
    StableHlo.unary main_v6 main_v9 (broadcastInDim S8x384x1x11 ![0, 1, 2, 3] bcast_S8x384x1x1_S8x384x1x11_0_1_2_3 : (⟨S8x384x1x1, .i32⟩ : BufTy).Contents (Elt F) → (⟨S8x384x1x11, .i32⟩ : BufTy).Contents (Elt F)),
    StableHlo.unary main_v8 main_v10 (broadcastInDim S8x384x1x11 ![0, 1, 2, 3] bcast_S1x1x1x11_S8x384x1x11_0_1_2_3 : (⟨S1x1x1x11, .i32⟩ : BufTy).Contents (Elt F) → (⟨S8x384x1x11, .i32⟩ : BufTy).Contents (Elt F)),
    StableHlo.binary main_v9 main_v10 main_v11 (addi : (⟨S8x384x1x11, .i32⟩ : BufTy).Contents (Elt F) → (⟨S8x384x1x11, .i32⟩ : BufTy).Contents (Elt F) → (⟨S8x384x1x11, .i32⟩ : BufTy).Contents (Elt F)),
    StableHlo.nullary main_v12 (iotaInDim S8 32 0),
    StableHlo.unary main_v12 main_v13 (broadcastInDim S8x1x1x1 ![0] bcast_S8_S8x1x1x1_0 : (⟨S8, .i32⟩ : BufTy).Contents (Elt F) → (⟨S8x1x1x1, .i32⟩ : BufTy).Contents (Elt F)),
    StableHlo.nullary main_cst_0 (constant S_ .f32 0x00000000#32),
    StableHlo.unary main_cst_0 main_v14 (broadcastInDim S8x1x768x1024 ![] bcast_S_S8x1x768x1024 : (⟨S_, .f32⟩ : BufTy).Contents (Elt F) → (⟨S8x1x768x1024, .f32⟩ : BufTy).Contents (Elt F)),
    StableHlo.nullary main_c (constantI S_ 32 0#32),
    StableHlo.unary main_c main_v15 (broadcastInDim S8x1x1x1 ![] bcast_S_S8x1x1x1 : (⟨S_, .i32⟩ : BufTy).Contents (Elt F) → (⟨S8x1x1x1, .i32⟩ : BufTy).Contents (Elt F)),
    StableHlo.binary main_v13 main_v15 main_v16 (cmpi .slt : (⟨S8x1x1x1, .i32⟩ : BufTy).Contents (Elt F) → (⟨S8x1x1x1, .i32⟩ : BufTy).Contents (Elt F) → (⟨S8x1x1x1, .i1⟩ : BufTy).Contents (Elt F)),
    StableHlo.nullary main_c_1 (constantI S_ 32 8#32),
    StableHlo.unary main_c_1 main_v17 (broadcastInDim S8x1x1x1 ![] bcast_S_S8x1x1x1 : (⟨S_, .i32⟩ : BufTy).Contents (Elt F) → (⟨S8x1x1x1, .i32⟩ : BufTy).Contents (Elt F)),
    StableHlo.binary main_v13 main_v17 main_v18 (addi : (⟨S8x1x1x1, .i32⟩ : BufTy).Contents (Elt F) → (⟨S8x1x1x1, .i32⟩ : BufTy).Contents (Elt F) → (⟨S8x1x1x1, .i32⟩ : BufTy).Contents (Elt F)),
    StableHlo.ternary main_v16 main_v18 main_v13 main_v19 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    StableHlo.nullary main_c_2 (constantI S_ 32 0#32),
    StableHlo.unary main_c_2 main_v20 (broadcastInDim S8x384x15x1 ![] bcast_S_S8x384x15x1 : (⟨S_, .i32⟩ : BufTy).Contents (Elt F) → (⟨S8x384x15x1, .i32⟩ : BufTy).Contents (Elt F)),
    StableHlo.binary main_v5 main_v20 main_v21 (cmpi .slt : (⟨S8x384x15x1, .i32⟩ : BufTy).Contents (Elt F) → (⟨S8x384x15x1, .i32⟩ : BufTy).Contents (Elt F) → (⟨S8x384x15x1, .i1⟩ : BufTy).Contents (Elt F)),
    StableHlo.nullary main_c_3 (constantI S_ 32 768#32),
    StableHlo.unary main_c_3 main_v22 (broadcastInDim S8x384x15x1 ![] bcast_S_S8x384x15x1 : (⟨S_, .i32⟩ : BufTy).Contents (Elt F) → (⟨S8x384x15x1, .i32⟩ : BufTy).Contents (Elt F)),
    StableHlo.binary main_v5 main_v22 main_v23 (addi : (⟨S8x384x15x1, .i32⟩ : BufTy).Contents (Elt F) → (⟨S8x384x15x1, .i32⟩ : BufTy).Contents (Elt F) → (⟨S8x384x15x1, .i32⟩ : BufTy).Contents (Elt F)),
    StableHlo.ternary main_v21 main_v23 main_v5 main_v24 (select : (⟨S8x384x15x1, .i1⟩ : BufTy).Contents (Elt F) → (⟨S8x384x15x1, .i32⟩ : BufTy).Contents (Elt F) → (⟨S8x384x15x1, .i32⟩ : BufTy).Contents (Elt F) → (⟨S8x384x15x1, .i32⟩ : BufTy).Contents (Elt F)),
    StableHlo.nullary main_c_4 (constantI S_ 32 0#32),
    StableHlo.unary main_c_4 main_v25 (broadcastInDim S8x384x1x11 ![] bcast_S_S8x384x1x11 : (⟨S_, .i32⟩ : BufTy).Contents (Elt F) → (⟨S8x384x1x11, .i32⟩ : BufTy).Contents (Elt F)),
    StableHlo.binary main_v11 main_v25 main_v26 (cmpi .slt : (⟨S8x384x1x11, .i32⟩ : BufTy).Contents (Elt F) → (⟨S8x384x1x11, .i32⟩ : BufTy).Contents (Elt F) → (⟨S8x384x1x11, .i1⟩ : BufTy).Contents (Elt F)),
    StableHlo.nullary main_c_5 (constantI S_ 32 1024#32),
    StableHlo.unary main_c_5 main_v27 (broadcastInDim S8x384x1x11 ![] bcast_S_S8x384x1x11 : (⟨S_, .i32⟩ : BufTy).Contents (Elt F) → (⟨S8x384x1x11, .i32⟩ : BufTy).Contents (Elt F)),
    StableHlo.binary main_v11 main_v27 main_v28 (addi : (⟨S8x384x1x11, .i32⟩ : BufTy).Contents (Elt F) → (⟨S8x384x1x11, .i32⟩ : BufTy).Contents (Elt F) → (⟨S8x384x1x11, .i32⟩ : BufTy).Contents (Elt F)),
    StableHlo.ternary main_v26 main_v28 main_v11 main_v29 (select : (⟨S8x384x1x11, .i1⟩ : BufTy).Contents (Elt F) → (⟨S8x384x1x11, .i32⟩ : BufTy).Contents (Elt F) → (⟨S8x384x1x11, .i32⟩ : BufTy).Contents (Elt F) → (⟨S8x384x1x11, .i32⟩ : BufTy).Contents (Elt F)),
    StableHlo.unary main_v19 main_v30 (broadcastInDim S8x384x15x11 ![0, 1, 2, 3] bcast_S8x1x1x1_S8x384x15x11_0_1_2_3 : (⟨S8x1x1x1, .i32⟩ : BufTy).Contents (Elt F) → (⟨S8x384x15x11, .i32⟩ : BufTy).Contents (Elt F)),
    StableHlo.nullary main_c_6 (constantI S_ 32 0#32),
    StableHlo.unary main_c_6 main_v31 (broadcastInDim S8x384x15x11 ![] bcast_S_S8x384x15x11 : (⟨S_, .i32⟩ : BufTy).Contents (Elt F) → (⟨S8x384x15x11, .i32⟩ : BufTy).Contents (Elt F)),
    StableHlo.unary main_v24 main_v32 (broadcastInDim S8x384x15x11 ![0, 1, 2, 3] bcast_S8x384x15x1_S8x384x15x11_0_1_2_3 : (⟨S8x384x15x1, .i32⟩ : BufTy).Contents (Elt F) → (⟨S8x384x15x11, .i32⟩ : BufTy).Contents (Elt F)),
    StableHlo.unary main_v29 main_v33 (broadcastInDim S8x384x15x11 ![0, 1, 2, 3] bcast_S8x384x1x11_S8x384x15x11_0_1_2_3 : (⟨S8x384x1x11, .i32⟩ : BufTy).Contents (Elt F) → (⟨S8x384x15x11, .i32⟩ : BufTy).Contents (Elt F)),
    StableHlo.unary main_v31 main_v34 (id : (⟨S8x384x15x11, .i32⟩ : BufTy).Contents (Elt F) → (⟨S8x384x15x11, .i32⟩ : BufTy).Contents (Elt F)),
    StableHlo.unary main_v30 main_v35 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    StableHlo.unary main_v34 main_v36 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    StableHlo.unary main_v32 main_v37 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    StableHlo.unary main_v33 main_v38 (broadcastInDim S8x384x15x11x1 ![0, 1, 2, 3] bcast_S8x384x15x11_S8x384x15x11x1_0_1_2_3 : (⟨S8x384x15x11, .i32⟩ : BufTy).Contents (Elt F) → (⟨S8x384x15x11x1, .i32⟩ : BufTy).Contents (Elt F)),
    StableHlo.nary ![main_v35, main_v36, main_v37, main_v38] main_v39 (fun u => concatenate S8x384x15x11x4 4 [⟨S8x384x15x11x1, u 0⟩, ⟨S8x384x15x11x1, u 1⟩, ⟨S8x384x15x11x1, u 2⟩, ⟨S8x384x15x11x1, u 3⟩] concatenates_S8x384x15x11x1_S8x384x15x11x1_S8x384x15x11x1_S8x384x15x11x1_S8x384x15x11x4_d4),
    StableHlo.unary main_cst main_v40 (broadcastInDim S8x384x15x11 ![2, 3] bcast_S15x11_S8x384x15x11_2_3 : (⟨S15x11, .f32⟩ : BufTy).Contents (Elt F) → (⟨S8x384x15x11, .f32⟩ : BufTy).Contents (Elt F)),
    StableHlo.ternary main_v14 main_v39 main_v40 main_v41 ((fun x i u => Host.scatter scatter_S8x1x768x1024_S8x384x15x11x4_S8x384x15x11_n_0123_0123_4 (fun _ b => b) x i u) : (⟨S8x1x768x1024, .f32⟩ : BufTy).Contents (Elt F) → (⟨S8x384x15x11x4, .i32⟩ : BufTy).Contents (Elt F) → (⟨S8x384x15x11, .f32⟩ : BufTy).Contents (Elt F) → (⟨S8x1x768x1024, .f32⟩ : BufTy).Contents (Elt F)) ]

/-- Operations 52 … 60: the pooled ground truth and its difference from the ground truth. -/
abbrev opsB : List (HloOp τ sig (Elt F)) :=
  [ StableHlo.nullary main_cst_7 (constant S_ .f32 0xFF800000#32),
    StableHlo.unary main_cst_7 main_v42 (broadcastInDim S_ ![] bcast_S_S_ : (⟨S_, .f32⟩ : BufTy).Contents (Elt F) → (⟨S_, .f32⟩ : BufTy).Contents (Elt F)),
    StableHlo.binary main_arg1 main_v42 main_v43 ((fun x v => Host.reduceWindow FloatOps.maximumf ![1, 1, 9, 9] ![1, 1, 2, 2] ![0, 0, 4, 4] ![0, 0, 4, 4] x v reduceWindows_S8x1x768x1024_S8x1x384x512_w1s1p0_0_w1s1p0_0_w9s2p4_4_w9s2p4_4 h_S_) : (⟨S8x1x768x1024, .f32⟩ : BufTy).Contents (Elt F) → (⟨S_, .f32⟩ : BufTy).Contents (Elt F) → (⟨S8x1x384x512, .f32⟩ : BufTy).Contents (Elt F)),
    StableHlo.unary main_v43 main_v44 (broadcastInDim S8x1x384x2x512 ![0, 1, 2, 4] bcast_S8x1x384x512_S8x1x384x2x512_0_1_2_4 : (⟨S8x1x384x512, .f32⟩ : BufTy).Contents (Elt F) → (⟨S8x1x384x2x512, .f32⟩ : BufTy).Contents (Elt F)),
    StableHlo.reshape main_v44 main_v45 rfl shapeCasts_S8x1x384x2x512_S8x1x768x512,
    StableHlo.unary main_v45 main_v46 (broadcastInDim S8x1x768x512x2 ![0, 1, 2, 3] bcast_S8x1x768x512_S8x1x768x512x2_0_1_2_3 : (⟨S8x1x768x512, .f32⟩ : BufTy).Contents (Elt F) → (⟨S8x1x768x512x2, .f32⟩ : BufTy).Contents (Elt F)),
    StableHlo.reshape main_v46 main_v47 rfl shapeCasts_S8x1x768x512x2_S8x1x768x1024,
    StableHlo.binary main_v47 main_arg1 main_v48 (subf : (⟨S8x1x768x1024, .f32⟩ : BufTy).Contents (Elt F) → (⟨S8x1x768x1024, .f32⟩ : BufTy).Contents (Elt F) → (⟨S8x1x768x1024, .f32⟩ : BufTy).Contents (Elt F)),
    StableHlo.nullary main_cst_8 (constant S_ .f32 0xFF800000#32) ]

/-- Operations 61 … 85: the pooled weight map, the threshold map, the weight map and the loss. -/
abbrev opsC : List (HloOp τ sig (Elt F)) :=
  [ StableHlo.unary main_cst_8 main_v49 (broadcastInDim S_ ![] bcast_S_S_ : (⟨S_, .f32⟩ : BufTy).Contents (Elt F) → (⟨S_, .f32⟩ : BufTy).Contents (Elt F)),
    StableHlo.binary main_v41 main_v49 main_v50 ((fun x v => Host.reduceWindow FloatOps.maximumf ![1, 1, 9, 9] ![1, 1, 2, 2] ![0, 0, 4, 4] ![0, 0, 4, 4] x v reduceWindows_S8x1x768x1024_S8x1x384x512_w1s1p0_0_w1s1p0_0_w9s2p4_4_w9s2p4_4 h_S_) : (⟨S8x1x768x1024, .f32⟩ : BufTy).Contents (Elt F) → (⟨S_, .f32⟩ : BufTy).Contents (Elt F) → (⟨S8x1x384x512, .f32⟩ : BufTy).Contents (Elt F)),
    StableHlo.unary main_v50 main_v51 (broadcastInDim S8x1x384x2x512 ![0, 1, 2, 4] bcast_S8x1x384x512_S8x1x384x2x512_0_1_2_4 : (⟨S8x1x384x512, .f32⟩ : BufTy).Contents (Elt F) → (⟨S8x1x384x2x512, .f32⟩ : BufTy).Contents (Elt F)),
    StableHlo.reshape main_v51 main_v52 rfl shapeCasts_S8x1x384x2x512_S8x1x768x512,
    StableHlo.unary main_v52 main_v53 (broadcastInDim S8x1x768x512x2 ![0, 1, 2, 3] bcast_S8x1x768x512_S8x1x768x512x2_0_1_2_3 : (⟨S8x1x768x512, .f32⟩ : BufTy).Contents (Elt F) → (⟨S8x1x768x512x2, .f32⟩ : BufTy).Contents (Elt F)),
    StableHlo.reshape main_v53 main_v54 rfl shapeCasts_S8x1x768x512x2_S8x1x768x1024,
    StableHlo.binary main_v54 main_v48 main_v55 (mulf : (⟨S8x1x768x1024, .f32⟩ : BufTy).Contents (Elt F) → (⟨S8x1x768x1024, .f32⟩ : BufTy).Contents (Elt F) → (⟨S8x1x768x1024, .f32⟩ : BufTy).Contents (Elt F)),
    StableHlo.nullary main_cst_9 (constant S_ .f32 0x3F333333#32),
    StableHlo.unary main_cst_9 main_v56 (broadcastInDim S8x1x768x1024 ![] bcast_S_S8x1x768x1024 : (⟨S_, .f32⟩ : BufTy).Contents (Elt F) → (⟨S8x1x768x1024, .f32⟩ : BufTy).Contents (Elt F)),
    StableHlo.binary main_v48 main_v56 main_v57 (mulf : (⟨S8x1x768x1024, .f32⟩ : BufTy).Contents (Elt F) → (⟨S8x1x768x1024, .f32⟩ : BufTy).Contents (Elt F) → (⟨S8x1x768x1024, .f32⟩ : BufTy).Contents (Elt F)),
    StableHlo.nullary main_cst_10 (constant S_ .f32 0x3E4CCCCD#32),
    StableHlo.unary main_cst_10 main_v58 (broadcastInDim S8x1x768x1024 ![] bcast_S_S8x1x768x1024 : (⟨S_, .f32⟩ : BufTy).Contents (Elt F) → (⟨S8x1x768x1024, .f32⟩ : BufTy).Contents (Elt F)),
    StableHlo.binary main_arg1 main_v58 main_v59 (mulf : (⟨S8x1x768x1024, .f32⟩ : BufTy).Contents (Elt F) → (⟨S8x1x768x1024, .f32⟩ : BufTy).Contents (Elt F) → (⟨S8x1x768x1024, .f32⟩ : BufTy).Contents (Elt F)),
    StableHlo.binary main_v57 main_v59 main_v60 (addf : (⟨S8x1x768x1024, .f32⟩ : BufTy).Contents (Elt F) → (⟨S8x1x768x1024, .f32⟩ : BufTy).Contents (Elt F) → (⟨S8x1x768x1024, .f32⟩ : BufTy).Contents (Elt F)),
    StableHlo.binary main_v55 main_v41 main_v61 (addf : (⟨S8x1x768x1024, .f32⟩ : BufTy).Contents (Elt F) → (⟨S8x1x768x1024, .f32⟩ : BufTy).Contents (Elt F) → (⟨S8x1x768x1024, .f32⟩ : BufTy).Contents (Elt F)),
    StableHlo.binary main_arg0 main_arg1 main_v62 (subf : (⟨S8x1x768x1024, .f32⟩ : BufTy).Contents (Elt F) → (⟨S8x1x768x1024, .f32⟩ : BufTy).Contents (Elt F) → (⟨S8x1x768x1024, .f32⟩ : BufTy).Contents (Elt F)),
    StableHlo.binary main_v41 main_v62 main_v63 (mulf : (⟨S8x1x768x1024, .f32⟩ : BufTy).Contents (Elt F) → (⟨S8x1x768x1024, .f32⟩ : BufTy).Contents (Elt F) → (⟨S8x1x768x1024, .f32⟩ : BufTy).Contents (Elt F)),
    StableHlo.unary main_v63 main_v64 (Host.absf : (⟨S8x1x768x1024, .f32⟩ : BufTy).Contents (Elt F) → (⟨S8x1x768x1024, .f32⟩ : BufTy).Contents (Elt F)),
    StableHlo.nullary main_cst_11 (constant S_ .f32 0x00000000#32),
    StableHlo.binary main_v64 main_cst_11 main_v65 ((fun x v => Host.reduceAdd x v reducesTo_S8x1x768x1024_S_d0_1_2_3 h_S_) : (⟨S8x1x768x1024, .f32⟩ : BufTy).Contents (Elt F) → (⟨S_, .f32⟩ : BufTy).Contents (Elt F) → (⟨S_, .f32⟩ : BufTy).Contents (Elt F)),
    StableHlo.nullary main_cst_12 (constant S_ .f32 0x45400000#32),
    StableHlo.binary main_v65 main_cst_12 main_v66 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x3F800000#32),
    StableHlo.unary main_cst_13 main_v67 (broadcastInDim S8x1x768x1024 ![] bcast_S_S8x1x768x1024 : (⟨S_, .f32⟩ : BufTy).Contents (Elt F) → (⟨S8x1x768x1024, .f32⟩ : BufTy).Contents (Elt F)),
    StableHlo.binary main_v61 main_v67 main_v68 (addf : (⟨S8x1x768x1024, .f32⟩ : BufTy).Contents (Elt F) → (⟨S8x1x768x1024, .f32⟩ : BufTy).Contents (Elt F) → (⟨S8x1x768x1024, .f32⟩ : BufTy).Contents (Elt F)) ]

theorem opsA_sub : (opsA : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., nullary_bufs_sub .., unary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., unary_bufs_sub .., unary_bufs_sub .., nary_bufs_sub .., unary_bufs_sub .., ternary_bufs_sub ..⟩

theorem opsB_sub : (opsB : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., binary_bufs_sub .., nullary_bufs_sub ..⟩

theorem opsC_sub : (opsC : List (HloOp τ sig (Elt F))).Forall fun op => op.bufs ⊆ tcRefs τ sig :=
  ⟨unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub ..⟩

end Cert.ReferenceIdeal.RefRun

end
-- ==== Proof.RefRunTerms.lean ====
/-
  What the reference function computes, as terms of the array operations applied to its arguments.

  * `instwT`: the instance-weight map. The two corner arrays give, for each of the 8×384 boxes, a top row and a left
    column; adding the offsets 0…14 and 0…10 gives the rows and columns of a 15×11 patch; an index below zero is moved up
    by the extent of its axis (768 rows, 1024 columns, 8 images); image index, a zero channel, row and column are stacked
    into one four-component index, and the fixed 15×11 table is scattered at those indices into an array of zeros, a later
    write replacing an earlier one.
  * `pool`: the maximum over each 9×9 window of stride 2 (padded by 4 with −∞), then every pooled value repeated twice
    along rows and twice along columns — a broadcast into a new axis of extent 2 followed by a reshape, once per axis.
  * `thrT`, `allwT`, `lossT`: the threshold map, the weight map and the loss from those pieces.

  Every term is the operations exactly as the function composes them, constants included.
-/
import proofs.«172051_j19585050870000_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The instance-weight map from the two corner arrays. -/
def instwT (a2 a3 : IVec S8x384 32) : FVec F S8x1x768x1024 .f32 :=
  Host.scatter scatter_S8x1x768x1024_S8x384x15x11x4_S8x384x15x11_n_0123_0123_4 (fun _ b => b)
    (broadcastInDim S8x1x768x1024 ![] bcast_S_S8x1x768x1024 (constant S_ .f32 0x00000000#32))
    (concatenate S8x384x15x11x4 4
      [⟨S8x384x15x11x1, (broadcastInDim S8x384x15x11x1 ![0, 1, 2, 3] bcast_S8x384x15x11_S8x384x15x11x1_0_1_2_3 (broadcastInDim S8x384x15x11 ![0, 1, 2, 3] bcast_S8x1x1x1_S8x384x15x11_0_1_2_3 (select (cmpi .slt (broadcastInDim S8x1x1x1 ![0] bcast_S8_S8x1x1x1_0 (iotaInDim S8 32 0)) (broadcastInDim S8x1x1x1 ![] bcast_S_S8x1x1x1 (constantI S_ 32 0#32))) (addi (broadcastInDim S8x1x1x1 ![0] bcast_S8_S8x1x1x1_0 (iotaInDim S8 32 0)) (broadcastInDim S8x1x1x1 ![] bcast_S_S8x1x1x1 (constantI S_ 32 8#32))) (broadcastInDim S8x1x1x1 ![0] bcast_S8_S8x1x1x1_0 (iotaInDim S8 32 0)))))⟩,
       ⟨S8x384x15x11x1, (broadcastInDim S8x384x15x11x1 ![0, 1, 2, 3] bcast_S8x384x15x11_S8x384x15x11x1_0_1_2_3 (id (broadcastInDim S8x384x15x11 ![] bcast_S_S8x384x15x11 (constantI S_ 32 0#32))))⟩,
       ⟨S8x384x15x11x1, (broadcastInDim S8x384x15x11x1 ![0, 1, 2, 3] bcast_S8x384x15x11_S8x384x15x11x1_0_1_2_3 (broadcastInDim S8x384x15x11 ![0, 1, 2, 3] bcast_S8x384x15x1_S8x384x15x11_0_1_2_3 (select (cmpi .slt (addi (broadcastInDim S8x384x15x1 ![0, 1, 2, 3] bcast_S8x384x1x1_S8x384x15x1_0_1_2_3 (broadcastInDim S8x384x1x1 ![0, 1] bcast_S8x384_S8x384x1x1_0_1 a2)) (broadcastInDim S8x384x15x1 ![0, 1, 2, 3] bcast_S1x1x15x1_S8x384x15x1_0_1_2_3 (broadcastInDim S1x1x15x1 ![2] bcast_S15_S1x1x15x1_2 (iotaInDim S15 32 0)))) (broadcastInDim S8x384x15x1 ![] bcast_S_S8x384x15x1 (constantI S_ 32 0#32))) (addi (addi (broadcastInDim S8x384x15x1 ![0, 1, 2, 3] bcast_S8x384x1x1_S8x384x15x1_0_1_2_3 (broadcastInDim S8x384x1x1 ![0, 1] bcast_S8x384_S8x384x1x1_0_1 a2)) (broadcastInDim S8x384x15x1 ![0, 1, 2, 3] bcast_S1x1x15x1_S8x384x15x1_0_1_2_3 (broadcastInDim S1x1x15x1 ![2] bcast_S15_S1x1x15x1_2 (iotaInDim S15 32 0)))) (broadcastInDim S8x384x15x1 ![] bcast_S_S8x384x15x1 (constantI S_ 32 768#32))) (addi (broadcastInDim S8x384x15x1 ![0, 1, 2, 3] bcast_S8x384x1x1_S8x384x15x1_0_1_2_3 (broadcastInDim S8x384x1x1 ![0, 1] bcast_S8x384_S8x384x1x1_0_1 a2)) (broadcastInDim S8x384x15x1 ![0, 1, 2, 3] bcast_S1x1x15x1_S8x384x15x1_0_1_2_3 (broadcastInDim S1x1x15x1 ![2] bcast_S15_S1x1x15x1_2 (iotaInDim S15 32 0)))))))⟩,
       ⟨S8x384x15x11x1, (broadcastInDim S8x384x15x11x1 ![0, 1, 2, 3] bcast_S8x384x15x11_S8x384x15x11x1_0_1_2_3 (broadcastInDim S8x384x15x11 ![0, 1, 2, 3] bcast_S8x384x1x11_S8x384x15x11_0_1_2_3 (select (cmpi .slt (addi (broadcastInDim S8x384x1x11 ![0, 1, 2, 3] bcast_S8x384x1x1_S8x384x1x11_0_1_2_3 (broadcastInDim S8x384x1x1 ![0, 1] bcast_S8x384_S8x384x1x1_0_1 a3)) (broadcastInDim S8x384x1x11 ![0, 1, 2, 3] bcast_S1x1x1x11_S8x384x1x11_0_1_2_3 (broadcastInDim S1x1x1x11 ![3] bcast_S11_S1x1x1x11_3 (iotaInDim S11 32 0)))) (broadcastInDim S8x384x1x11 ![] bcast_S_S8x384x1x11 (constantI S_ 32 0#32))) (addi (addi (broadcastInDim S8x384x1x11 ![0, 1, 2, 3] bcast_S8x384x1x1_S8x384x1x11_0_1_2_3 (broadcastInDim S8x384x1x1 ![0, 1] bcast_S8x384_S8x384x1x1_0_1 a3)) (broadcastInDim S8x384x1x11 ![0, 1, 2, 3] bcast_S1x1x1x11_S8x384x1x11_0_1_2_3 (broadcastInDim S1x1x1x11 ![3] bcast_S11_S1x1x1x11_3 (iotaInDim S11 32 0)))) (broadcastInDim S8x384x1x11 ![] bcast_S_S8x384x1x11 (constantI S_ 32 1024#32))) (addi (broadcastInDim S8x384x1x11 ![0, 1, 2, 3] bcast_S8x384x1x1_S8x384x1x11_0_1_2_3 (broadcastInDim S8x384x1x1 ![0, 1] bcast_S8x384_S8x384x1x1_0_1 a3)) (broadcastInDim S8x384x1x11 ![0, 1, 2, 3] bcast_S1x1x1x11_S8x384x1x11_0_1_2_3 (broadcastInDim S1x1x1x11 ![3] bcast_S11_S1x1x1x11_3 (iotaInDim S11 32 0)))))))⟩]
      concatenates_S8x384x15x11x1_S8x384x15x11x1_S8x384x15x11x1_S8x384x15x11x1_S8x384x15x11x4_d4)
    (broadcastInDim S8x384x15x11 ![2, 3] bcast_S15x11_S8x384x15x11_2_3 (fun i => FloatOps.ofBits .f32 (lit0 (S15x11.rowMajor i))))

/-- The 9×9 stride-2 window maximum, repeated twice along each image axis. -/
def pool (x : FVec F S8x1x768x1024 .f32) : FVec F S8x1x768x1024 .f32 :=
  shapeCast S8x1x768x1024
    (broadcastInDim S8x1x768x512x2 ![0, 1, 2, 3] bcast_S8x1x768x512_S8x1x768x512x2_0_1_2_3
      (shapeCast S8x1x768x512
        (broadcastInDim S8x1x384x2x512 ![0, 1, 2, 4] bcast_S8x1x384x512_S8x1x384x2x512_0_1_2_4
          (Host.reduceWindow FloatOps.maximumf ![1, 1, 9, 9] ![1, 1, 2, 2] ![0, 0, 4, 4] ![0, 0, 4, 4] x
            (broadcastInDim S_ ![] bcast_S_S_ (constant S_ .f32 0xFF800000#32))
            reduceWindows_S8x1x768x1024_S8x1x384x512_w1s1p0_0_w1s1p0_0_w9s2p4_4_w9s2p4_4 h_S_))
        shapeCasts_S8x1x384x2x512_S8x1x768x512))
    shapeCasts_S8x1x768x512x2_S8x1x768x1024

/-- The threshold map: (dil − gt)·c₁ + gt·c₂. -/
def thrT (dil gt : FVec F S8x1x768x1024 .f32) : FVec F S8x1x768x1024 .f32 :=
  addf (mulf (subf dil gt) (broadcastInDim S8x1x768x1024 ![] bcast_S_S8x1x768x1024 (constant S_ .f32 0x3F333333#32)))
    (mulf gt (broadcastInDim S8x1x768x1024 ![] bcast_S_S8x1x768x1024 (constant S_ .f32 0x3E4CCCCD#32)))

/-- The weight map: (wdil·(dil − gt) + instw) + 1. -/
def allwT (wdil dil gt instw : FVec F S8x1x768x1024 .f32) : FVec F S8x1x768x1024 .f32 :=
  addf (addf (mulf wdil (subf dil gt)) instw)
    (broadcastInDim S8x1x768x1024 ![] bcast_S_S8x1x768x1024 (constant S_ .f32 0x3F800000#32))

/-- The loss: the sum over every pixel of |instw·(binar − gt)|, from zero, divided by 3072. -/
def lossT (instw binar gt : FVec F S8x1x768x1024 .f32) : FVec F S_ .f32 :=
  Host.divf
    (Host.reduceAdd (Host.absf (mulf instw (subf binar gt))) (constant S_ .f32 0x00000000#32)
      reducesTo_S8x1x768x1024_S_d0_1_2_3 h_S_)
    (constant S_ .f32 0x45400000#32)

end Cert.ReferenceIdeal.RefRun

end
-- ==== Proof.RefRunA.lean ====
/-
  Operations 1 … 51 read at the buffers the rest of the function uses.

  The contents of the buffers after a list of operations are a fold over the list: each operation replaces its result
  buffer by its function of its operands' contents and leaves every other buffer. Read at the scatter's result the fold is
  the composed term `instwT` of the two corner arrays; read at an argument, which no operation writes, it is the
  argument's contents before the list.
-/
import proofs.«172051_j19585050870000_2_alg».proof.Proof.RefRunOps
import proofs.«172051_j19585050870000_2_alg».proof.Proof.RefRunTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One rewriting pass over the fold: each operation's result at its own buffer is its function of its operands'
    contents, at any other buffer what was there; a four-operand operation's operands are read each at its own buffer. -/
macro "read_line4" : tactic =>
  `(tactic| (simp (disch := decide) only [after_cons, after_nil,
      nullary_result', unary_result', binary_result', ternary_result', nary4_result',
      nullary_result_ne', unary_result_ne', binary_result_ne', ternary_result_ne', nary_result_ne']))

set_option maxHeartbeats 4000000 in  -- 51 operations, the shared index arithmetic read three times over
theorem readA_v41 (V : Valuation τ sig (Elt F)) :
    after opsA V (Proc.devRef .tc main_v41) = instwT (V (Proc.devRef .tc main_arg2)) (V (Proc.devRef .tc main_arg3)) := by
  read_line4
  rfl

theorem keepA_arg0 (V : Valuation τ sig (Elt F)) :
    after opsA V (Proc.devRef .tc main_arg0) = V (Proc.devRef .tc main_arg0) := by
  read_line4

theorem keepA_arg1 (V : Valuation τ sig (Elt F)) :
    after opsA V (Proc.devRef .tc main_arg1) = V (Proc.devRef .tc main_arg1) := by
  read_line4

theorem keepA_arg2 (V : Valuation τ sig (Elt F)) :
    after opsA V (Proc.devRef .tc main_arg2) = V (Proc.devRef .tc main_arg2) := by
  read_line4

theorem keepA_arg3 (V : Valuation τ sig (Elt F)) :
    after opsA V (Proc.devRef .tc main_arg3) = V (Proc.devRef .tc main_arg3) := by
  read_line4

end Cert.ReferenceIdeal.RefRun

end
-- ==== Proof.RefRunB.lean ====
/-
  Operations 52 … 60 read at the buffers the rest of the function uses.

  These pool the ground truth and subtract the ground truth from the result. The pooled array is `pool` of the ground
  truth; the difference is read as such; the second −∞ constant is the constant; the weight map and the arguments, which
  none of the nine operations writes, keep their contents.
-/
import proofs.«172051_j19585050870000_2_alg».proof.Proof.RefRunOps
import proofs.«172051_j19585050870000_2_alg».proof.Proof.RefRunTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem readB_v47 (V : Valuation τ sig (Elt F)) :
    after opsB V (Proc.devRef .tc main_v47) = pool (V (Proc.devRef .tc main_arg1)) := by
  after_results_simp
  rfl

theorem readB_v48 (V : Valuation τ sig (Elt F)) :
    after opsB V (Proc.devRef .tc main_v48) = subf (pool (V (Proc.devRef .tc main_arg1))) (V (Proc.devRef .tc main_arg1)) := by
  after_results_simp
  rfl

theorem readB_cst_8 (V : Valuation τ sig (Elt F)) :
    after opsB V (Proc.devRef .tc main_cst_8) = constant S_ .f32 0xFF800000#32 := by
  after_results_simp

theorem keepB_v41 (V : Valuation τ sig (Elt F)) :
    after opsB V (Proc.devRef .tc main_v41) = V (Proc.devRef .tc main_v41) := by
  after_results_simp

theorem keepB_arg0 (V : Valuation τ sig (Elt F)) :
    after opsB V (Proc.devRef .tc main_arg0) = V (Proc.devRef .tc main_arg0) := by
  after_results_simp

theorem keepB_arg1 (V : Valuation τ sig (Elt F)) :
    after opsB V (Proc.devRef .tc main_arg1) = V (Proc.devRef .tc main_arg1) := by
  after_results_simp

theorem keepB_arg2 (V : Valuation τ sig (Elt F)) :
    after opsB V (Proc.devRef .tc main_arg2) = V (Proc.devRef .tc main_arg2) := by
  after_results_simp

theorem keepB_arg3 (V : Valuation τ sig (Elt F)) :
    after opsB V (Proc.devRef .tc main_arg3) = V (Proc.devRef .tc main_arg3) := by
  after_results_simp

end Cert.ReferenceIdeal.RefRun

end
-- ==== Proof.RefRunC.lean ====
/-
  Operations 61 … 85 read at the function's results.

  Before these run, the weight map, the pooled ground truth, the difference (pooled − ground truth) and a −∞ constant sit
  in buffers. The loss reads the weight map and the two image arguments; the threshold map reads the difference and the
  ground truth; the weight-map result pools the weight map again (from the −∞ constant) and reads the difference. The
  two facts about what the earlier operations left — the difference is a difference, the constant is −∞ — are
  hypotheses here and are supplied where the stretches are put together.
-/
import proofs.«172051_j19585050870000_2_alg».proof.Proof.RefRunOps
import proofs.«172051_j19585050870000_2_alg».proof.Proof.RefRunTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem readC_v66 (V : Valuation τ sig (Elt F)) :
    after opsC V (Proc.devRef .tc main_v66) = lossT (V (Proc.devRef .tc main_v41)) (V (Proc.devRef .tc main_arg0)) (V (Proc.devRef .tc main_arg1)) := by
  after_results_simp
  rfl

theorem readC_v60 (V : Valuation τ sig (Elt F)) (D G : FVec F S8x1x768x1024 .f32)
    (h48 : V (Proc.devRef .tc main_v48) = subf D G) (h1 : V (Proc.devRef .tc main_arg1) = G) :
    after opsC V (Proc.devRef .tc main_v60) = thrT D G := by
  after_results_simp
  rw [h48, h1]
  rfl

theorem readC_v68 (V : Valuation τ sig (Elt F)) (D G : FVec F S8x1x768x1024 .f32)
    (hc : V (Proc.devRef .tc main_cst_8) = constant S_ .f32 0xFF800000#32)
    (h48 : V (Proc.devRef .tc main_v48) = subf D G) :
    after opsC V (Proc.devRef .tc main_v68) = allwT (pool (V (Proc.devRef .tc main_v41))) D G (V (Proc.devRef .tc main_v41)) := by
  after_results_simp
  rw [hc, h48]
  rfl

theorem keepC_v47 (V : Valuation τ sig (Elt F)) :
    after opsC V (Proc.devRef .tc main_v47) = V (Proc.devRef .tc main_v47) := by
  after_results_simp

theorem keepC_arg0 (V : Valuation τ sig (Elt F)) :
    after opsC V (Proc.devRef .tc main_arg0) = V (Proc.devRef .tc main_arg0) := by
  after_results_simp

theorem keepC_arg1 (V : Valuation τ sig (Elt F)) :
    after opsC V (Proc.devRef .tc main_arg1) = V (Proc.devRef .tc main_arg1) := by
  after_results_simp

theorem keepC_arg2 (V : Valuation τ sig (Elt F)) :
    after opsC V (Proc.devRef .tc main_arg2) = V (Proc.devRef .tc main_arg2) := by
  after_results_simp

theorem keepC_arg3 (V : Valuation τ sig (Elt F)) :
    after opsC V (Proc.devRef .tc main_arg3) = V (Proc.devRef .tc main_arg3) := by
  after_results_simp

end Cert.ReferenceIdeal.RefRun

end
-- ==== Proof.RefRun.lean ====
/-
  The reference function's run: from any launch memory, every weakly fair execution terminates with the four results at
  their composed terms of the arguments, and the arguments unchanged.

  The function's two windows of statements are, each, the line of its operations; one after the other they are the line
  of all 85. The run of a line leaves every buffer at the fold of the operations over the launch contents. The fold over
  the three consecutive stretches is read stretch by stretch: the first leaves the weight map, the second the pooled
  ground truth and its difference from the ground truth, the third the results; what a later stretch reads of an earlier
  one it reads through the buffers the stretches in between do not write.
-/
import proofs.«172051_j19585050870000_2_alg».proof.Proof.RefRunOps
import proofs.«172051_j19585050870000_2_alg».proof.Proof.RefRunTerms
import proofs.«172051_j19585050870000_2_alg».proof.Proof.RefRunA
import proofs.«172051_j19585050870000_2_alg».proof.Proof.RefRunB
import proofs.«172051_j19585050870000_2_alg».proof.Proof.RefRunC
import Idealize.ShloMosaic.Lib.Pipeline.Regions
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window of statements is the line of operations 1 … 60. -/
theorem part0_eq (c : Dev nD) : main_part0 (F := F) c = seq (opsA ++ opsB) := by chain_rfl
/-- The second window is the line of operations 61 … 85 and the return. -/
theorem part1_eq (c : Dev nD) : main_part1 (F := F) c = seq opsC := by chain_rfl

/-- The function is the line of all its operations. -/
theorem main_eq (c : Dev nD) : main (F := F) c = seq ((opsA ++ opsB) ++ opsC) := by
  show (main_part0 (F := F) c >>= fun _ => main_part1 (F := F) c) = _
  rw [part0_eq, part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem ops_sub : (((opsA ++ opsB) ++ opsC : List (HloOp τ sig (Elt F)))).Forall fun op => op.bufs ⊆ tcRefs τ sig :=
  List.forall_append.mpr ⟨List.forall_append.mpr ⟨opsA_sub, opsB_sub⟩, opsC_sub⟩

/-- Every operation determines its results. -/
theorem freshA : ∀ op ∈ (opsA : List (HloOp τ sig (Elt F))), op.fresh = ∅ := by
  intro _ h; (repeat (cases h with | head => rfl | tail _ h => ?_)); exact nomatch h
theorem freshB : ∀ op ∈ (opsB : List (HloOp τ sig (Elt F))), op.fresh = ∅ := by
  intro _ h; (repeat (cases h with | head => rfl | tail _ h => ?_)); exact nomatch h
theorem freshC : ∀ op ∈ (opsC : List (HloOp τ sig (Elt F))), op.fresh = ∅ := by
  intro _ h; (repeat (cases h with | head => rfl | tail _ h => ?_)); exact nomatch h

/-- The run, with every buffer at the fold over the three stretches in turn. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsC (after opsB (after opsA (launchContents m d))) (Proc.devRef .tc b) := by
  have h := run_seq scopedRefs_eq scopedSems_eq defs (main (F := F)) (fun _ => (opsA ++ opsB) ++ opsC) main_eq (fun _ => ops_sub) m ρ
    (fun _ op hop => (List.mem_append.mp hop).elim (fun h' => (List.mem_append.mp h').elim (freshA op) (freshB op)) (freshC op))
  refine (θ_run defs _ _).mono (fun _ h d b => ?_) h
  rw [h d b, StableHlo.after_append, StableHlo.after_append]

/-- On every device, for any float values, from any memory with zero counters: every weakly fair execution of the
    function terminates with the loss, the pooled ground truth, the threshold map and the weight map at their composed
    terms of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
        r.2.mem ((c.tc : Thread nD τ).loc main_v66) = lossT (instwT (m ((c.tc : Thread nD τ).loc main_arg2)) (m ((c.tc : Thread nD τ).loc main_arg3))) (m ((c.tc : Thread nD τ).loc main_arg0)) (m ((c.tc : Thread nD τ).loc main_arg1))
      ∧ r.2.mem ((c.tc : Thread nD τ).loc main_v47) = pool (m ((c.tc : Thread nD τ).loc main_arg1))
      ∧ r.2.mem ((c.tc : Thread nD τ).loc main_v60) = thrT (pool (m ((c.tc : Thread nD τ).loc main_arg1))) (m ((c.tc : Thread nD τ).loc main_arg1))
      ∧ r.2.mem ((c.tc : Thread nD τ).loc main_v68) = allwT (pool (instwT (m ((c.tc : Thread nD τ).loc main_arg2)) (m ((c.tc : Thread nD τ).loc main_arg3)))) (pool (m ((c.tc : Thread nD τ).loc main_arg1))) (m ((c.tc : Thread nD τ).loc main_arg1)) (instwT (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) := by
  refine (θ_run defs _ _).mono (fun _ h c => ?_) (run_after m ρ)
  have hc := h c
  -- after the first stretch
  have A0 := keepA_arg0 (F := F) (launchContents m c)
  have A1 := keepA_arg1 (F := F) (launchContents m c)
  have A2 := keepA_arg2 (F := F) (launchContents m c)
  have A3 := keepA_arg3 (F := F) (launchContents m c)
  have A41 := readA_v41 (F := F) (launchContents m c)
  -- after the second
  have B0 := (keepB_arg0 (after opsA (launchContents m c))).trans A0
  have B1 := (keepB_arg1 (after opsA (launchContents m c))).trans A1
  have B2 := (keepB_arg2 (after opsA (launchContents m c))).trans A2
  have B3 := (keepB_arg3 (after opsA (launchContents m c))).trans A3
  have B41 := (keepB_v41 (after opsA (launchContents m c))).trans A41
  have B47 := (readB_v47 (after opsA (launchContents m c))).trans (congrArg pool A1)
  have B48 := (readB_v48 (after opsA (launchContents m c))).trans (congrArg (fun g => subf (pool g) g) A1)
  have Bc8 := readB_cst_8 (after opsA (launchContents m c))
  -- after the third
  have C66 := (readC_v66 (after opsB (after opsA (launchContents m c)))).trans (by rw [B41, B0, B1])
  have C47 := (keepC_v47 (after opsB (after opsA (launchContents m c)))).trans B47
  have C60 := readC_v60 (after opsB (after opsA (launchContents m c))) _ _ B48 B1
  have C68 := (readC_v68 (after opsB (after opsA (launchContents m c))) _ _ Bc8 B48).trans (by rw [B41])
  exact ⟨(hc main_v66).trans C66, (hc main_v47).trans C47, (hc main_v60).trans C60, (hc main_v68).trans C68,
    (hc main_arg0).trans ((keepC_arg0 (after opsB (after opsA (launchContents m c)))).trans B0), (hc main_arg1).trans ((keepC_arg1 (after opsB (after opsA (launchContents m c)))).trans B1),
    (hc main_arg2).trans ((keepC_arg2 (after opsB (after opsA (launchContents m c)))).trans B2), (hc main_arg3).trans ((keepC_arg3 (after opsB (after opsA (launchContents m c)))).trans B3)⟩

end Cert.ReferenceIdeal.RefRun

end
-- ==== Proof.RefValue.lean ====
/-
  The reference's threshold map, weight map and loss at the extended reals, as the plain functions of the specification.

  At the extended reals every elementwise float operation is the operation of the extended reals, a broadcast of a
  rank-0 constant is that constant at every index, the host's absolute value is max a (−a), its division is the
  extended-real division, and its sum into a rank-0 shape is the initial value plus the sum over every index (a rank-0
  shape has one index, so every operand index belongs to it).
-/
import proofs.«172051_j19585050870000_2_alg».proof.Proof.RefRunTerms
import proofs.«172051_j19585050870000_2_alg».proof.Proof.Spec
import Idealize.ShloMosaic.PureOps.Ideal.Laws
import Idealize.ShloMosaic.Lib.ValueIdx

noncomputable section

namespace Cert.ReferenceIdeal.RefRun

open Cert.ReferenceIdeal Cert.ReferenceIdeal.Gen Idealize.ShloMosaic

/-- A rank-0 constant broadcast to any shape is the constant's value at every index. -/
theorem bcast_const_apply {S : Shape} (h : S_.BroadcastsInDim S (![] : Fin 0 → Fin S.rank)) (w : BitVec 32) (i : S.Idx) :
    broadcastInDim S ![] h (constant (F := Ideal) S_ .f32 w) i = Ideal.ofBits .f32 w := rfl

/-- The threshold map's term at an index, for any shape. -/
theorem thr_apply {S : Shape} (h : S_.BroadcastsInDim S (![] : Fin 0 → Fin S.rank)) (dil gt : FVec Ideal S .f32) (w1 w2 : BitVec 32)
    (i : S.Idx) :
    addf (mulf (subf dil gt) (broadcastInDim S ![] h (constant (F := Ideal) S_ .f32 w1)))
        (mulf gt (broadcastInDim S ![] h (constant (F := Ideal) S_ .f32 w2))) i
      = (dil i - gt i) * Ideal.ofBits .f32 w1 + gt i * Ideal.ofBits .f32 w2 := rfl

/-- The weight map's term at an index, for any shape. -/
theorem allw_apply {S : Shape} (h : S_.BroadcastsInDim S (![] : Fin 0 → Fin S.rank)) (wdil dil gt instw : FVec Ideal S .f32)
    (w : BitVec 32) (i : S.Idx) :
    addf (addf (mulf wdil (subf dil gt)) instw) (broadcastInDim S ![] h (constant (F := Ideal) S_ .f32 w)) i
      = (wdil i * (dil i - gt i) + instw i) + Ideal.ofBits .f32 w := rfl

/-- The loss term, for any operand shape and any result shape all of whose extents are one: the initial word plus the
    sum over every operand index of max a (−a), a = instw·(binar − gt), divided by the divisor word. -/
theorem loss_apply {S T : Shape} {axes : List (Fin S.rank)} (h : S.ReducesTo axes T) (ht : ∀ b, T.size b = 1)
    (hu : 0 < T.numel) (instw binar gt : FVec Ideal S .f32) (w0 w1 : BitVec 32) (j : T.Idx) :
    Host.divf (F := Ideal)
        (Host.reduceAdd (F := Ideal) (Host.absf (mulf instw (subf binar gt))) (constant (F := Ideal) T .f32 w0) h hu)
        (constant (F := Ideal) T .f32 w1) j
      = Ideal.div (Ideal.ofBits .f32 w0 + ∑ i : S.Idx, Cert.BoxLoss.term instw binar gt i) (Ideal.ofBits .f32 w1) := by
  refine (congrArg (fun a => Ideal.div a (Ideal.ofBits .f32 w1))
    (Ideal.hostReduceAdd_total h ht (Host.absf (mulf instw (subf binar gt))) (Ideal.ofBits .f32 w0) j)).trans ?_
  rfl

variable (dil gt wdil instw binar : FVec Ideal S8x1x768x1024 .f32)

theorem thrT_eq : thrT (F := Ideal) dil gt = Cert.BoxLoss.thr dil gt :=
  funext fun i => thr_apply bcast_S_S8x1x768x1024 dil gt _ _ i

theorem allwT_eq : allwT (F := Ideal) wdil dil gt instw = Cert.BoxLoss.allw wdil dil gt instw :=
  funext fun i => allw_apply bcast_S_S8x1x768x1024 wdil dil gt instw _ i

theorem lossT_eq : lossT (F := Ideal) instw binar gt = fun _ => Cert.BoxLoss.loss instw binar gt :=
  funext fun j => loss_apply reducesTo_S8x1x768x1024_S_d0_1_2_3 (fun b => b.elim0) h_S_ instw binar gt _ _ j

end Cert.ReferenceIdeal.RefRun

end
-- ==== Proof.Bridge.lean ====
/-
  The two programs compute the same four results.

  Both programs start with the same host lines: from the two box-corner arrays the scattered instance weights, and the
  dilation (a 9×9 stride-2 window maximum repeated twice along each image axis), applied once to the ground truth and once
  to the instance weights. Those compositions are the same operations with the same constants in both programs, so they
  are carried as two functions, the weights `instwT` and the dilation `pool`, and never opened.

  On top of them the reference forms the threshold map, the weight map and the loss on whole arrays; the kernel program
  forms the same maps block by block and the loss as eight per-image sums. At the extended reals both are the
  specification's functions of the same five arrays.
-/
import proofs.«172051_j19585050870000_2_alg».proof.Defs
import proofs.«172051_j19585050870000_2_alg».proof.Proof.BFrame
import proofs.«172051_j19585050870000_2_alg».proof.Proof.KRead
import proofs.«172051_j19585050870000_2_alg».proof.Proof.RefRun
import proofs.«172051_j19585050870000_2_alg».proof.Proof.RefValue
import proofs.«172051_j19585050870000_2_alg».proof.Proof.Gen.Pre_finite_inputs

noncomputable section

open Idealize.ShloMosaic Idealize.ShloMosaic.TcCoe Idealize.SL.Sem

namespace Cert.Proof.Bridge

/-- The instance weights: one composition in both programs. -/
theorem instwT_eq (a2 a3 : IVec Cert.KernelIdeal.S8x384 32) :
    Cert.KernelIdeal.Hand.instwT (F := Ideal) a2 a3 = Cert.ReferenceIdeal.RefRun.instwT (F := Ideal) a2 a3 := rfl

/-- The dilation: one composition in both programs. -/
theorem pool_eq (x : FVec Ideal Cert.KernelIdeal.S8x1x768x1024 .f32) :
    Cert.KernelIdeal.Hand.pool (F := Ideal) x = Cert.ReferenceIdeal.RefRun.pool (F := Ideal) x := rfl

theorem frame_k : Cert.frame_Kernel := fun m ρ _ => Cert.Kernel.Hand.frame m ρ

theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.RefRun.run (F := Ideal) m ρ)

/-- The idealization rewrote nothing. -/
theorem preserves : Cert.preserves_Kernel_KernelIdeal := trivial

/-- From memories agreeing on the arguments both programs end with the loss, the dilated mask, the threshold map and the
    weight map at the specification's functions of the argument arrays. -/
theorem algebraic : Cert.algebraic_KernelIdeal_ReferenceIdeal := by
  intro m ρ m' ρ' _ hagree
  refine ⟨_, _, _, _, Cert.KernelIdeal.Hand.run_value m ρ, ?_⟩
  refine (θ_run Cert.ReferenceIdeal.defs _ _).mono (fun _ h c => ?_) (Cert.ReferenceIdeal.RefRun.run (F := Ideal) m' ρ')
  obtain ⟨h0, h1, h2, h3, k0, k1, k2, k3⟩ := h c
  obtain ⟨g0, g1, g2, g3⟩ := hagree c
  refine ⟨h0.trans ?_, h1.trans ?_, h2.trans ?_, h3.trans ?_, k0, k1, k2, k3⟩
  · rw [g0, g1, g2, g3, Cert.ReferenceIdeal.RefRun.lossT_eq, instwT_eq] <;> rfl
  · rw [g1, pool_eq] <;> rfl
  · rw [g1, Cert.ReferenceIdeal.RefRun.thrT_eq, pool_eq] <;> rfl
  · rw [g1, g2, g3, Cert.ReferenceIdeal.RefRun.allwT_eq, instwT_eq, pool_eq, pool_eq] <;> rfl

end Cert.Proof.Bridge

end
-- ==== Proof.lean ====
/-
  The certificate: a fused per-pixel combine and loss reduction against its whole-array reference.

  The kernel program scatters instance weights, dilates the ground truth and the weights on the host, and then runs one
  pipelined region over 8 images by 2 half-images that writes the threshold map and the weight map block by block and
  carries a running loss per image; four last host lines add the eight per-image losses and divide. The reference does
  the same on whole arrays. The three frames are the programs' runs with the results dropped (the kernel program's run by
  the launch theorem for a region with a carried scratch and host lines around it, at the word level and at the extended
  reals alike); the idealization rewrote nothing; and at the extended reals the results agree because the maps are
  pointwise and a sum over the batch is the sum of its sixteen half-image sums in any grouping.
-/
import proofs.«172051_j19585050870000_2_alg».proof.Defs
import proofs.«172051_j19585050870000_2_alg».proof.Proof.Bridge
import proofs.«172051_j19585050870000_2_alg».proof.Proof.Gen.Kernel
import proofs.«172051_j19585050870000_2_alg».proof.Proof.Gen.KernelIdeal
import proofs.«172051_j19585050870000_2_alg».proof.Proof.Gen.ReferenceIdeal
import proofs.«172051_j19585050870000_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
